-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x8192 : Shape := ⟨2, ![8192, 8192]⟩
abbrev S1024x1024 : Shape := ⟨2, ![1024, 1024]⟩
abbrev S1024x1 : Shape := ⟨2, ![1024, 1]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  main_v18

def fn {F : FTy → Type} [FloatOps F] (main_arg0 : FVec F S8192x1024 .f32) (main_arg1 : IVec S8192x8192 32) (main_arg2 : FVec F S1024x1024 .f32) (main_arg3 : FVec F S1024x1 .f32) (main_arg4 : FVec F S1024x1 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1 .f32 := Host.absf main_arg3
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  let main_v14 : FVec F S1024x1 .f32 := Host.absf main_arg4
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_v13 main_v16
-- ==== Kernel.lean ====
abbrev S8192x1024 : Shape := ⟨2, ![8192, 1024]⟩
abbrev S8192x8192 : Shape := ⟨2, ![8192, 8192]⟩
abbrev S1024x1024 : Shape := ⟨2, ![1024, 1024]⟩
abbrev S1024x1 : Shape := ⟨2, ![1024, 1]⟩
abbrev S8192x1 : Shape := ⟨2, ![8192, 1]⟩
abbrev S1x8192 : Shape := ⟨2, ![1, 8192]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩

abbrev nBuf : Space → Nat
  | .hbm => 12
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x8192, .i32⟩
  | .hbm, ⟨2, _⟩ => ⟨S1024x1024, .f32⟩
  | .hbm, ⟨3, _⟩ => ⟨S1024x1, .f32⟩
  | .hbm, ⟨4, _⟩ => ⟨S1024x1, .f32⟩
  | .hbm, ⟨5, _⟩ => ⟨S8192x1024, .bf16⟩
  | .hbm, ⟨6, _⟩ => ⟨S1024x1024, .bf16⟩
  | .hbm, ⟨7, _⟩ => ⟨S8192x1024, .bf16⟩
  | .hbm, ⟨8, _⟩ => ⟨S8192x1, .f32⟩
  | .hbm, ⟨9, _⟩ => ⟨S8192x1, .f32⟩
  | .hbm, ⟨10, _⟩ => ⟨S1x8192, .f32⟩
  | .hbm, ⟨11, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1, .f32⟩
  | .local _ .vmem, ⟨4, _⟩ => ⟨S1024x1, .f32⟩
  | .local _ .vmem, ⟨5, _⟩ => ⟨S1024x1024, .bf16⟩
  | .local _ .vmem, ⟨6, _⟩ => ⟨S1024x1024, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S512x1, .f32⟩
  | .local _ .vmem, ⟨12, _⟩ => ⟨S512x1, .f32⟩
  | .local _ .vmem, ⟨13, _⟩ => ⟨S1x1024, .f32⟩
  | .local _ .vmem, ⟨14, _⟩ => ⟨S1x1024, .f32⟩
  | .local _ .vmem, ⟨15, _⟩ => ⟨S512x1024, .i32⟩
  | .local _ .vmem, ⟨16, _⟩ => ⟨S512x1024, .i32⟩
  | .local _ .vmem, ⟨17, _⟩ => ⟨S8192x1024, .bf16⟩
  | .local _ .vmem, ⟨18, _⟩ => ⟨S512x1024, .f32⟩
  | .local _ .vmem, ⟨19, _⟩ => ⟨S512x1024, .f32⟩
  | .local _ .vmem, ⟨20, _⟩ => ⟨S512x1, .f32⟩
  | .local _ .vmem, ⟨21, _⟩ => ⟨S512x1, .f32⟩
  | .local _ .vmem, ⟨22, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c1024_i32 : BitVec 32 := 1024#32
  let v38 : BitVec 32 := Scalar.muli arg1 c1024_i32
  v38
def k1_off1 (i : grid1.Coords) : Fin 2 → Nat :=
  let arg1 : BitVec 32 := BitVec.ofNat 32 (i 1).val
  let c1024_i32 : BitVec 32 := 1024#32
  let v38 : BitVec 32 := Scalar.muli arg1 c1024_i32
  let v39 : BitVec 32 := v38
  let v40 : Index := Scalar.indexCast v39
  let c0_19 : Index := 0#32
  ![v40.toNat, 0]
def k1_cond2 (i : grid1.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_27 : BitVec 32 := 0#32
  let v57 : BitVec 1 := Scalar.cmpi .ne v56 c0_i32_27
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8192x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  dot_S1024x1024_S1024x1024_S1024x1024_1_0_0_1_n_n_wf : DotDims.WF S1024x1024 S1024x1024 S1024x1024 [1] [0] [0] [1] [] []
  dot_S1024x1024_S1024x1_S1024x1_1_0_0_1_n_n_wf : DotDims.WF S1024x1024 S1024x1 S1024x1 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x1024.size a ≤ S8192x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S8192x1.size a
  hwx1_0 : ∀ i : grid1.Coords, EltTy.bits .f32 = 32 ∨ (Rect.block (s := S8192x1) S512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x8192.size a
  hwx1_2 : ∀ i : grid1.Coords, EltTy.bits .i32 = 32 ∨ (Rect.block (s := S8192x8192) S512x1024.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x1024.size a ≤ S8192x1024.size a
  hwx1_3 : ∀ i : grid1.Coords, EltTy.bits .bf16 = 32 ∨ (Rect.block (s := S8192x1024) S8192x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S8192x1024.size a
  hwx1_4 : ∀ i : grid1.Coords, EltTy.bits .f32 = 32 ∨ (Rect.block (s := S8192x1024) S512x1024.size (cc1_transform_4 i) (hinb1_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_1) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S8192x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x8192 : Shape := ⟨2, ![8192, 8192]⟩
abbrev S1024x1024 : Shape := ⟨2, ![1024, 1024]⟩
abbrev S1024x1 : Shape := ⟨2, ![1024, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .i32⟩
  | .hbm, ⟨2, _⟩ => ⟨S1024x1024, .f32⟩
  | .hbm, ⟨3, _⟩ => ⟨S1024x1, .f32⟩
  | .hbm, ⟨4, _⟩ => ⟨S1024x1, .f32⟩
  | .hbm, ⟨5, _⟩ => ⟨S8192x1024, .f32⟩
  | .hbm, ⟨6, _⟩ => ⟨S8192x1, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S_, .f32⟩
  | .hbm, ⟨14, _⟩ => ⟨S8192x8192, .f32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_call1_v0 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call2_cst : Ref sig .tc := ⟨.hbm, 41, rfl⟩
abbrev main_call2_v0 : Ref sig .tc := ⟨.hbm, 42, rfl⟩
abbrev main_v23 : Ref sig .tc := ⟨.hbm, 43, rfl⟩

abbrev nD : Nat := 1
abbrev τ : Topo := Topo.v7x

variable {F : FTy → Type} [FloatOps F]

class Facts₀ : Prop where
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []
  dot_S8192x1024_S1024x1_S8192x1_1_0_0_1_n_n_wf : DotDims.WF S8192x1024 S1024x1 S8192x1 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.K.R0Body.lean ====
/-
  Region 0 of the kernel program as printed (the first pallas_call): per grid point the body loads a 1024-row block
  of the bf16 copy of x, the whole bf16 copy of W and the two attention vectors a1, a2, and stores three blocks:
  h = x·W (contracted over the 1024 input features, rounded to bf16 — the identity at the ideal instance),
  f1 = h·a1 and f2 = h·a2 (each a 1024×1 column). This module states what each output's staging buffer holds
  after the body as a function of the input blocks, and proves the body's triple at any float instance.
-/
import proofs.«113575_j54150947668287_2_alg».proof.Proof.Gen.Kernel.Launch
import proofs.«113575_j54150947668287_2_alg».proof.Proof.Gen.Kernel.Skeleton
import proofs.«113575_j54150947668287_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1024×1024 staging block and the whole 1024×1 staging column: the body's only rectangles. -/
abbrev rSq : Rect S1024x1024 := Rect.unit (s := S1024x1024) ![0, 0] S1024x1024.size inb_S1024x1024_S1024x1024_0_0
abbrev rCol : Rect S1024x1 := Rect.unit (s := S1024x1) ![0, 0] S1024x1.size inb_S1024x1_S1024x1_0_0

/-- The h block after the body: the one whole-block store of x-block · W. -/
def outH (x0 x1 : Vec F S1024x1024 .bf16) : Vec F S1024x1024 .bf16 :=
  View.canon [⟨rSq, k0_pay1 (View.ld x0 rSq) (View.ld x1 rSq)⟩]
/-- The f1 column after the body: the one whole-column store of (x-block · W) · a1. -/
def outF1 (x0 x1 : Vec F S1024x1024 .bf16) (x2 : Vec F S1024x1 .f32) : Vec F S1024x1 .f32 :=
  View.canon [⟨rCol, k0_pay2 (View.ld x0 rSq) (View.ld x1 rSq) (View.ld x2 rCol)⟩]
/-- The f2 column after the body: the one whole-column store of (x-block · W) · a2. -/
def outF2 (x0 x1 : Vec F S1024x1024 .bf16) (x3 : Vec F S1024x1 .f32) : Vec F S1024x1 .f32 :=
  View.canon [⟨rCol, k0_pay3 (View.ld x0 rSq) (View.ld x1 rSq) (View.ld x3 rCol)⟩]

theorem coverSq (p0 : Vec F S1024x1024 .bf16) (y : S1024x1024.Idx) :
    ∃ pc ∈ ([⟨rSq, p0⟩] : List (View.Piece (Elt F) S1024x1024 .bf16)), y ∈ pc.1.set :=
  View.cover_of_tiled [⟨rSq, p0⟩] S1024x1024.size (by rfl) y
theorem coverCol (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y

set_option maxHeartbeats 1000000 in
/-- The body on whole staging memrefs: the four inputs keep their contents, the three outputs end at the functions above. -/
theorem sound_kernel0 (c : Dev nD) (E : Set ℕ) (i : grid0.Coords)
    (arg1 : Memref sig .tc .vmem S1024x1024 .bf16) (harg1 : arg1.IsWhole) (arg2 : Memref sig .tc .vmem S1024x1024 .bf16) (harg2 : arg2.IsWhole)
    (arg3 : Memref sig .tc .vmem S1024x1 .f32) (harg3 : arg3.IsWhole) (arg4 : Memref sig .tc .vmem S1024x1 .f32) (harg4 : arg4.IsWhole)
    (arg5 : Memref sig .tc .vmem S1024x1024 .bf16) (harg5 : arg5.IsWhole) (arg6 : Memref sig .tc .vmem S1024x1 .f32) (harg6 : arg6.IsWhole)
    (arg7 : Memref sig .tc .vmem S1024x1 .f32) (harg7 : arg7.IsWhole)
    (x0 x1 : Vec F S1024x1024 .bf16) (x2 x3 : Vec F S1024x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outH x0 x1) ∗ owns (c : Thread nD τ) arg6 fullShare (outF1 x0 x1 x2)
            ∗ owns (c : Thread nD τ) arg7 fullShare (outF2 x0 x1 x3)) -∗ K ⟨⟩))
      ⊢ wp frame (wpE (defs₀ (F := F)) Variants.none c none) E (cc0__matmul1_kernel i arg1 harg1 arg2 harg2 arg3 harg3 arg4 harg4 arg5 harg5 arg6 harg6 arg7 harg7) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverSq _)
  isplitl [H5]
  · iexists _; isplitr
    swap; · iexact H5
    ipureintro
    exact View.read_writes_eq_canon _ _ _ (coverCol _)
  iexists _; isplitr
  swap; · iexact H6
  ipureintro
  exact View.read_writes_eq_canon _ _ _ (coverCol _)

end Cert.Kernel.Region0

end
-- ==== Proof.K.R0Dat.lean ====
/-
  Region 0's proof data at a parameter V, the buffers' contents when the region is entered: each input window's
  staging buffer holds its block of its array at every grid point (the x block moves with the point; W, a1, a2 are
  fetched once and stay), and after the body the three output windows hold the h, f1, f2 blocks as functions of
  those input blocks. The body obligation of the pipeline follows from the body's triple.
-/
import proofs.«113575_j54150947668287_2_alg».proof.Proof.K.R0Body

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or kept from an
    earlier point (its block index has not moved since). -/
theorem before0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data: arrays as found; after the body the inputs at their blocks, the outputs at the body's functions. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outH (iblk0 V c 0 t) (iblk0 V c 1 t)
    | ⟨5, _⟩ => outF1 (iblk0 V c 0 t) (iblk0 V c 1 t) (iblk0 V c 2 t)
    | ⟨6, _⟩ => outF2 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outH (iblk0 V c 0 t) (iblk0 V c 1 t) := by dsimp only [dat0]
theorem after0_5 (c : Dev nD) (t : Fin cfg0.N) : (dat0 V c).after 5 t = outF1 (iblk0 V c 0 t) (iblk0 V c 1 t) (iblk0 V c 2 t) := by dsimp only [dat0]
theorem after0_6 (c : Dev nD) (t : Fin cfg0.N) : (dat0 V c).after 6 t = outF2 (iblk0 V c 0 t) (iblk0 V c 1 t) (iblk0 V c 3 t) := by dsimp only [dat0]

theorem before0_0 (c : Dev nD) (t : Fin cfg0.N) (d) : (dat0 V c).before 0 t d = iblk0 V c 0 t :=
  before0_of V (dat0 V c) (A_eq0 V c 0) (after0_0 V c) t d
theorem before0_1 (c : Dev nD) (t : Fin cfg0.N) (d) : (dat0 V c).before 1 t d = iblk0 V c 1 t :=
  before1_of V (dat0 V c) (A_eq0 V c 1) (after0_1 V c) t d
theorem before0_2 (c : Dev nD) (t : Fin cfg0.N) (d) : (dat0 V c).before 2 t d = iblk0 V c 2 t :=
  before2_of V (dat0 V c) (A_eq0 V c 2) (after0_2 V c) t d
theorem before0_3 (c : Dev nD) (t : Fin cfg0.N) (d) : (dat0 V c).before 3 t d = iblk0 V c 3 t :=
  before3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Region0

end
-- ==== Proof.K.R1Facts.lean ====
/-
  Region 1 of the kernel program as printed (the second pallas_call): the attention aggregate over a grid of
  16 query tiles (512 rows) × 8 key tiles (1024 keys), point t = 8·(query tile) + (key tile). The body keeps a
  running row maximum m, a running row sum l and a running weighted sum acc in three scratch buffers that live
  across the key tiles of one query tile: it resets them at key tile 0, updates them at every key tile, and at
  key tile 7 stores max(acc / l, 0) into the output block. This module holds what the three cases of the body
  share: the two branch conditions in closed form over the grid, where the output window is idle, the memrefs
  the body is called with, and the region's class invariant opened into its buffers.
-/
import proofs.«113575_j54150947668287_2_alg».proof.Proof.Gen.Kernel.Launch
import proofs.«113575_j54150947668287_2_alg».proof.Proof.Gen.Kernel.Skeleton
import proofs.«113575_j54150947668287_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or kept. -/
theorem before0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions -/

/-- "key tile = 0": the reset branch. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "key tile = 7": the finalising branch. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from key tile 7 the output window is idle and its block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At key tile 7 it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .f32 := win1_4.stage (cfg1.slots t 4)
abbrev hs1_4 (t : Fin cfg1.N) : (ms1_4 t).IsWhole := hstage1_4 ((cfg1.slots t 4).cast nbuf1_4)
/-- The three scratch operands: the running maximum, the running sum, the running weighted sum. -/
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev VSM : View sig .tc .vmem S512x1 .f32 := scM.view
abbrev VSL : View sig .tc .vmem S512x1 .f32 := scL.view
abbrev VSA : View sig .tc .vmem S512x1024 .f32 := scA.view
/-- One staging buffer of the output window, through which its contents are stated. -/
abbrev VO4 : View sig .tc .vmem S512x1024 .f32 := (Memref.whole cc1_stg4_0 : Memref sig .tc .vmem S512x1024 .f32).view

/-! ## The class invariant opened -/

/-- The core's scoped buffers that region 1 does not stage: region 0's eleven staging buffers at anything, then the
    three scratch buffers at the given assertions. -/
def chain1 (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P0 ∗ P1 ∗ P2)

theorem PhiA1_eq (c : Dev nD) :
    (Pipeline.ΦA spec1 c : sProp 𝕄)
      = iprop(chain1 c (iprop(∃ d, owns (c : Thread nD τ) scM fullShare d)) (iprop(∃ d, owns (c : Thread nD τ) scL fullShare d)) (iprop(∃ d, owns (c : Thread nD τ) scA fullShare d)) ∗ (∃ r, prngReg c r)) := by
  unfold Pipeline.ΦA chain1; rw [scopedRest1_eq]; simp only [scM, scL, scA, owns_whole]; try rfl

end Cert.Kernel.Region1

end
-- ==== Proof.K.R1RunA.lean ====
/-
  Region 1's body at key tile 0 (the reset branch taken, the finalising branch not): on whole memrefs, the four
  inputs and the idle output block keep their contents; the three scratch buffers, entered at anything, end with
  the stores of this point written — the reset to (-inf, 0, 0) followed by the first online-softmax update — each
  as a list of pieces (a rectangle and the value stored through it), the last store first.
-/
import proofs.«113575_j54150947668287_2_alg».proof.Proof.K.R1Facts

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S512x1 .f32) (x1 : Vec F S1x1024 .f32) (x2 : Vec F S512x1024 .i32) (x3 : Vec F S8192x1024 .bf16) :
    Σ' (L4 : List (View.Piece (Elt F) S512x1024 .f32)) (LSM : List (View.Piece (Elt F) S512x1 .f32)) (LSL : List (View.Piece (Elt F) S512x1 .f32)), { LSA : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LSM)
                ∗ (∃ f, arg8.view.loc (c : Thread nD τ) ↦[arg8.view.set]{fullShare} arg8.view.writes (Elt F) f LSL)
                ∗ (∃ f, arg9.view.loc (c : Thread nD τ) ↦[arg9.view.set]{fullShare} arg9.view.writes (Elt F) f LSA)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    iexists _; iexact H9

end Cert.Kernel.Region1

end
-- ==== Proof.K.R1RunB.lean ====
/-
  Region 1's body at key tiles 1..6 (neither branch taken): the inputs and the idle output block keep their
  contents; the three scratch buffers, entered at what the previous key tile left, end with this point's
  online-softmax update written.
-/
import proofs.«113575_j54150947668287_2_alg».proof.Proof.K.R1Facts

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) :
    Σ' (L4 : List (View.Piece (Elt F) S512x1024 .f32)) (LSM : List (View.Piece (Elt F) S512x1 .f32)) (LSL : List (View.Piece (Elt F) S512x1 .f32)), { LSA : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xsM ∗ owns (c : Thread nD τ) arg8 fullShare xsL ∗ owns (c : Thread nD τ) arg9 fullShare xsA
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LSM)
                ∗ (∃ f, arg8.view.loc (c : Thread nD τ) ↦[arg8.view.set]{fullShare} arg8.view.writes (Elt F) f LSL)
                ∗ (∃ f, arg9.view.loc (c : Thread nD τ) ↦[arg9.view.set]{fullShare} arg9.view.writes (Elt F) f LSA)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    iexists _; iexact H9

end Cert.Kernel.Region1

end
-- ==== Proof.K.R1RunC.lean ====
/-
  Region 1's body at key tile 7 (the finalising branch taken): as at key tiles 1..6, and after the update the output
  block is stored whole: max(acc / l, 0) of the updated scratch.
-/
import proofs.«113575_j54150947668287_2_alg».proof.Proof.K.R1Facts

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) :
    Σ' (L4 : List (View.Piece (Elt F) S512x1024 .f32)) (LSM : List (View.Piece (Elt F) S512x1 .f32)) (LSL : List (View.Piece (Elt F) S512x1 .f32)), { LSA : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xsM ∗ owns (c : Thread nD τ) arg8 fullShare xsL ∗ owns (c : Thread nD τ) arg9 fullShare xsA
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LSM)
                ∗ (∃ f, arg8.view.loc (c : Thread nD τ) ↦[arg8.view.set]{fullShare} arg8.view.writes (Elt F) f LSL)
                ∗ (∃ f, arg9.view.loc (c : Thread nD τ) ↦[arg9.view.set]{fullShare} arg9.view.writes (Elt F) f LSA)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg7.eq_unread hf7; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H7]; · iexists _; iexact H7
    isplitl [H8]; · iexists _; iexact H8
    iexists _; iexact H9

end Cert.Kernel.Region1

end
-- ==== Proof.K.R1Dat.lean ====
/-
  Region 1's proof data. Per case of the body, what the output block and the three scratch buffers hold afterwards
  (the found pieces cover each buffer, so reading them back does not depend on what was there). Then THE
  ACCUMULATION over the grid: after point t the scratch holds this point's update of what point t-1 left when t is
  not the first key tile of its query tile, and a fresh start when it is. The region invariant carries the three
  scratch buffers at exactly those contents between points. The body obligation follows case by case.
-/
import proofs.«113575_j54150947668287_2_alg».proof.Proof.K.R1RunA
import proofs.«113575_j54150947668287_2_alg».proof.Proof.K.R1RunB
import proofs.«113575_j54150947668287_2_alg».proof.Proof.K.R1RunC

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ### Case A -/

theorem scoverM_A (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S512x1 .f32) (x1 : Vec F S1x1024 .f32) (x2 : Vec F S512x1024 .i32) (x3 : Vec F S8192x1024 .bf16) (y : S512x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S512x1.size (by sl_kernel_rfl) y
theorem scoverL_A (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S512x1 .f32) (x1 : Vec F S1x1024 .f32) (x2 : Vec F S512x1024 .i32) (x3 : Vec F S8192x1024 .bf16) (y : S512x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S512x1.size (by sl_kernel_rfl) y
theorem scoverA_A (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S512x1 .f32) (x1 : Vec F S1x1024 .f32) (x2 : Vec F S512x1024 .i32) (x3 : Vec F S8192x1024 .bf16) (y : S512x1024.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S512x1024.size (by sl_kernel_rfl) y
/-- What case A leaves: the output block (a placeholder where the case stores nothing into it), then the running
    maximum, the running sum and the running weighted sum, each its found pieces read back. -/
def tup_A (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S512x1 .f32) (x1 : Vec F S1x1024 .f32) (x2 : Vec F S512x1024 .i32) (x3 : Vec F S8192x1024 .bf16) : Vec F S512x1024 .f32 × Vec F S512x1 .f32 × Vec F S512x1 .f32 × Vec F S512x1024 .f32 :=
  (VO4.read (Elt F) (VO4.writes (Elt F) VO4.junk (kernelRun1_A c i arg2 harg2 arg3 harg3 arg4 harg4 arg5 harg5 arg6 harg6 arg7 harg7 arg8 harg8 arg9 harg9 hc0 hc1 x0 x1 x2 x3).1),
   VSM.read (Elt F) (VSM.writes (Elt F) VSM.junk (kernelRun1_A c i arg2 harg2 arg3 harg3 arg4 harg4 arg5 harg5 arg6 harg6 arg7 harg7 arg8 harg8 arg9 harg9 hc0 hc1 x0 x1 x2 x3).2.1),
   VSL.read (Elt F) (VSL.writes (Elt F) VSL.junk (kernelRun1_A c i arg2 harg2 arg3 harg3 arg4 harg4 arg5 harg5 arg6 harg6 arg7 harg7 arg8 harg8 arg9 harg9 hc0 hc1 x0 x1 x2 x3).2.2.1),
   VSA.read (Elt F) (VSA.writes (Elt F) VSA.junk (kernelRun1_A c i arg2 harg2 arg3 harg3 arg4 harg4 arg5 harg5 arg6 harg6 arg7 harg7 arg8 harg8 arg9 harg9 hc0 hc1 x0 x1 x2 x3).2.2.2.1))

/-! ### Case B -/

theorem scoverM_B (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 xsM xsL xsA).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xsM xsL xsA).2.1 S512x1.size (by sl_kernel_rfl) y
theorem scoverL_B (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 xsM xsL xsA).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xsM xsL xsA).2.2.1 S512x1.size (by sl_kernel_rfl) y
theorem scoverA_B (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1024.Idx) :
    ∃ pc ∈ (kernelRun1_B c i arg2 harg2 arg3 harg3 arg4 harg4 arg5 harg5 arg6 harg6 arg7 harg7 arg8 harg8 arg9 harg9 hc0 hc1 x0 x1 x2 x3 xsM xsL xsA).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xsM xsL xsA).2.2.2.1 S512x1024.size (by sl_kernel_rfl) y
/-- What case B leaves: the output block (a placeholder where the case stores nothing into it), then the running
    maximum, the running sum and the running weighted sum, each its found pieces read back. -/
def tup_B (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) : Vec F S512x1024 .f32 × Vec F S512x1 .f32 × Vec F S512x1 .f32 × Vec F S512x1024 .f32 :=
  (VO4.read (Elt F) (VO4.writes (Elt F) VO4.junk (kernelRun1_B c i arg2 harg2 arg3 harg3 arg4 harg4 arg5 harg5 arg6 harg6 arg7 harg7 arg8 harg8 arg9 harg9 hc0 hc1 x0 x1 x2 x3 xsM xsL xsA).1),
   VSM.read (Elt F) (VSM.writes (Elt F) VSM.junk (kernelRun1_B c i arg2 harg2 arg3 harg3 arg4 harg4 arg5 harg5 arg6 harg6 arg7 harg7 arg8 harg8 arg9 harg9 hc0 hc1 x0 x1 x2 x3 xsM xsL xsA).2.1),
   VSL.read (Elt F) (VSL.writes (Elt F) VSL.junk (kernelRun1_B c i arg2 harg2 arg3 harg3 arg4 harg4 arg5 harg5 arg6 harg6 arg7 harg7 arg8 harg8 arg9 harg9 hc0 hc1 x0 x1 x2 x3 xsM xsL xsA).2.2.1),
   VSA.read (Elt F) (VSA.writes (Elt F) VSA.junk (kernelRun1_B c i arg2 harg2 arg3 harg3 arg4 harg4 arg5 harg5 arg6 harg6 arg7 harg7 arg8 harg8 arg9 harg9 hc0 hc1 x0 x1 x2 x3 xsM xsL xsA).2.2.2.1))

/-! ### Case C -/

theorem scoverM_C (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 xsM xsL xsA).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xsM xsL xsA).2.1 S512x1.size (by sl_kernel_rfl) y
theorem scoverL_C (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 xsM xsL xsA).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xsM xsL xsA).2.2.1 S512x1.size (by sl_kernel_rfl) y
theorem scoverA_C (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1024.Idx) :
    ∃ pc ∈ (kernelRun1_C c i arg2 harg2 arg3 harg3 arg4 harg4 arg5 harg5 arg6 harg6 arg7 harg7 arg8 harg8 arg9 harg9 hc0 hc1 x0 x1 x2 x3 xsM xsL xsA).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xsM xsL xsA).2.2.2.1 S512x1024.size (by sl_kernel_rfl) y
theorem cover4_C (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1024.Idx) :
    ∃ pc ∈ (kernelRun1_C c i arg2 harg2 arg3 harg3 arg4 harg4 arg5 harg5 arg6 harg6 arg7 harg7 arg8 harg8 arg9 harg9 hc0 hc1 x0 x1 x2 x3 xsM xsL xsA).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xsM xsL xsA).1 S512x1024.size (by sl_kernel_rfl) y
/-- What case C leaves: the output block (a placeholder where the case stores nothing into it), then the running
    maximum, the running sum and the running weighted sum, each its found pieces read back. -/
def tup_C (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) : Vec F S512x1024 .f32 × Vec F S512x1 .f32 × Vec F S512x1 .f32 × Vec F S512x1024 .f32 :=
  (VO4.read (Elt F) (VO4.writes (Elt F) VO4.junk (kernelRun1_C c i arg2 harg2 arg3 harg3 arg4 harg4 arg5 harg5 arg6 harg6 arg7 harg7 arg8 harg8 arg9 harg9 hc0 hc1 x0 x1 x2 x3 xsM xsL xsA).1),
   VSM.read (Elt F) (VSM.writes (Elt F) VSM.junk (kernelRun1_C c i arg2 harg2 arg3 harg3 arg4 harg4 arg5 harg5 arg6 harg6 arg7 harg7 arg8 harg8 arg9 harg9 hc0 hc1 x0 x1 x2 x3 xsM xsL xsA).2.1),
   VSL.read (Elt F) (VSL.writes (Elt F) VSL.junk (kernelRun1_C c i arg2 harg2 arg3 harg3 arg4 harg4 arg5 harg5 arg6 harg6 arg7 harg7 arg8 harg8 arg9 harg9 hc0 hc1 x0 x1 x2 x3 xsM xsL xsA).2.2.1),
   VSA.read (Elt F) (VSA.writes (Elt F) VSA.junk (kernelRun1_C c i arg2 harg2 arg3 harg3 arg4 harg4 arg5 harg5 arg6 harg6 arg7 harg7 arg8 harg8 arg9 harg9 hc0 hc1 x0 x1 x2 x3 xsM xsL xsA).2.2.2.1))

/-! ## What the buffers hold after each point -/

/-- THE ACCUMULATION: the output block and the three scratch buffers after the body at position n. -/
def outsAt1 (c : Dev nD) : (n : ℕ) → n < cfg1.N → Vec F S512x1024 .f32 × Vec F S512x1 .f32 × Vec F S512x1 .f32 × Vec F S512x1024 .f32
  | 0, hn => tup_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩)
  | n + 1, hn =>
    if h0 : (n + 1) % 8 = 0 then
      if h1 : (n + 1) % 8 = 7 then
        False.elim (by omega)
      else
        tup_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
    else
      if h1 : (n + 1) % 8 = 7 then
        tup_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2
      else
        tup_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 8 = 0) (h1 : ¬t.val % 8 = 7) :
    outsAt1 V c t.val t.isLt = tup_A c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = tup_B c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = tup_C c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position n: the class's before the first point; afterwards the scoped rest with the
    three scratch buffers at what the point before left, and the generator register at some state. -/
def PhiS (c : Dev nD) : (n : ℕ) → n ≤ cfg1.N → sProp 𝕄
  | 0, _ => Pipeline.ΦA spec1 c
  | n + 1, hn => iprop(chain1 c (owns (c : Thread nD τ) scM fullShare ((outsAt1 V c n hn).2.1)) (owns (c : Thread nD τ) scL fullShare ((outsAt1 V c n hn).2.2.1)) (owns (c : Thread nD τ) scA fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(chain1 c (owns (c : Thread nD τ) scM fullShare ((outsAt1 V c n hn).2.1)) (owns (c : Thread nD τ) scL fullShare ((outsAt1 V c n hn).2.2.1)) (owns (c : Thread nD τ) scA fullShare ((outsAt1 V c n hn).2.2.2)) ∗ (∃ r, prngReg c r)) := rfl
theorem PhiS_pos (c : Dev nD) (n : ℕ) (h : n ≤ cfg1.N) (hz : n ≠ 0) :
    PhiS V c n h = iprop(chain1 c (owns (c : Thread nD τ) scM fullShare ((outsAt1 V c (n - 1) (by omega)).2.1)) (owns (c : Thread nD τ) scL fullShare ((outsAt1 V c (n - 1) (by omega)).2.2.1)) (owns (c : Thread nD τ) scA fullShare ((outsAt1 V c (n - 1) (by omega)).2.2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before0_of V (dat1 V c) (A_eq1 V c 0) (after1_0 V c) t d
theorem before1_1 (c : Dev nD) (t : Fin cfg1.N) (d) : (dat1 V c).before 1 t d = iblk1 V c 1 t :=
  before1_of V (dat1 V c) (A_eq1 V c 1) (after1_1 V c) t d
theorem before1_2 (c : Dev nD) (t : Fin cfg1.N) (d) : (dat1 V c).before 2 t d = iblk1 V c 2 t :=
  before2_of V (dat1 V c) (A_eq1 V c 2) (after1_2 V c) t d
theorem before1_3 (c : Dev nD) (t : Fin cfg1.N) (d) : (dat1 V c).before 3 t d = iblk1 V c 3 t :=
  before3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem leaves_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t) :=
  ⟨by unfold Dat.leavesExact; rw [liveAt1_0 t, after1_0], by unfold Dat.leavesExact; rw [liveAt1_1 t, after1_1],
   by unfold Dat.leavesExact; rw [liveAt1_2 t, after1_2], by unfold Dat.leavesExact; rw [liveAt1_3 t, after1_3]⟩

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [(leaves_in V c t).1, (leaves_in V c t).2.1, (leaves_in V c t).2.2.1, (leaves_in V c t).2.2.2]
  have hN : t.val < 128 := lt_of_lt_of_eq t.isLt (show cfg1.N = 128 from N_1)
  by_cases h0 : t.val % 8 = 0
  · by_cases h1 : t.val % 8 = 7
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold tup_A; (try dsimp only)
      by_cases hz : t.val = 0
      ·
        rw [PhiS_castSucc V c t, PhiS_zero V c _ _ hz, PhiA1_eq]
        unfold chain1
        iintro ⟨⟨⟨A1, A2, A3, A4, A5, A6, A7, A8, A9, A10, A11, HSM, HSL, HSA⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HSM]; · iexact HSM
        isplitl [HSL]; · iexact HSL
        isplitl [HSA]; · iexact HSA
        iintro ⟨H0, H1, H2, H3, H4, ⟨%esM, HSM⟩, ⟨%esL, HSL⟩, ⟨%esA, HSA⟩⟩
        isplitl [A1 A2 A3 A4 A5 A6 A7 A8 A9 A10 A11 HSM HSL HSA Hg]
        · isplitl [A1 A2 A3 A4 A5 A6 A7 A8 A9 A10 A11 HSM HSL HSA]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [A11]; · iexact A11
            isplitl [HSM]
            · unfold owns; iexists _; isplitr
              swap; · iexact HSM
              ipureintro; exact View.read_writes_of_cover _ _ _ _ _ (scoverM_A c _ _ _ _ _ _ _ _ _ _ _ _ _ _ _ _ _ _ _ _ _ _ _)
            isplitl [HSL]
            · unfold owns; iexists _; isplitr
              swap; · iexact HSL
              ipureintro; exact View.read_writes_of_cover _ _ _ _ _ (scoverL_A c _ _ _ _ _ _ _ _ _ _ _ _ _ _ _ _ _ _ _ _ _ _ _)
            unfold owns; iexists _; isplitr
            swap; · iexact HSA
            ipureintro; exact View.read_writes_of_cover _ _ _ _ _ (scoverA_A c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      ·
        rw [PhiS_castSucc V c t, PhiS_pos V c _ _ hz]
        unfold chain1
        iintro ⟨⟨⟨A1, A2, A3, A4, A5, A6, A7, A8, A9, A10, A11, HSM, HSL, HSA⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HSM]; · iexists _; iexact HSM
        isplitl [HSL]; · iexists _; iexact HSL
        isplitl [HSA]; · iexists _; iexact HSA
        iintro ⟨H0, H1, H2, H3, H4, ⟨%esM, HSM⟩, ⟨%esL, HSL⟩, ⟨%esA, HSA⟩⟩
        isplitl [A1 A2 A3 A4 A5 A6 A7 A8 A9 A10 A11 HSM HSL HSA Hg]
        · isplitl [A1 A2 A3 A4 A5 A6 A7 A8 A9 A10 A11 HSM HSL HSA]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [A11]; · iexact A11
            isplitl [HSM]
            · unfold owns; iexists _; isplitr
              swap; · iexact HSM
              ipureintro; exact View.read_writes_of_cover _ _ _ _ _ (scoverM_A c _ _ _ _ _ _ _ _ _ _ _ _ _ _ _ _ _ _ _ _ _ _ _)
            isplitl [HSL]
            · unfold owns; iexists _; isplitr
              swap; · iexact HSL
              ipureintro; exact View.read_writes_of_cover _ _ _ _ _ (scoverL_A c _ _ _ _ _ _ _ _ _ _ _ _ _ _ _ _ _ _ _ _ _ _ _)
            unfold owns; iexists _; isplitr
            swap; · iexact HSA
            ipureintro; exact View.read_writes_of_cover _ _ _ _ _ (scoverA_A c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold tup_C; (try dsimp only)
      by_cases hz : t.val = 0
      · exfalso; omega
      ·
        rw [PhiS_castSucc V c t, PhiS_pos V c _ _ hz]
        unfold chain1
        iintro ⟨⟨⟨A1, A2, A3, A4, A5, A6, A7, A8, A9, A10, A11, HSM, HSL, HSA⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HSM]; · iexact HSM
        isplitl [HSL]; · iexact HSL
        isplitl [HSA]; · iexact HSA
        iintro ⟨H0, H1, H2, H3, ⟨%e4, H4⟩, ⟨%esM, HSM⟩, ⟨%esL, HSL⟩, ⟨%esA, HSA⟩⟩
        isplitl [A1 A2 A3 A4 A5 A6 A7 A8 A9 A10 A11 HSM HSL HSA Hg]
        · isplitl [A1 A2 A3 A4 A5 A6 A7 A8 A9 A10 A11 HSM HSL HSA]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [A11]; · iexact A11
            isplitl [HSM]
            · unfold owns; iexists _; isplitr
              swap; · iexact HSM
              ipureintro; exact View.read_writes_of_cover _ _ _ _ _ (scoverM_C c _ _ _ _ _ _ _ _ _ _ _ _ _ _ _ _ _ _ _ _ _ _ _ _ _ _)
            isplitl [HSL]
            · unfold owns; iexists _; isplitr
              swap; · iexact HSL
              ipureintro; exact View.read_writes_of_cover _ _ _ _ _ (scoverL_C c _ _ _ _ _ _ _ _ _ _ _ _ _ _ _ _ _ _ _ _ _ _ _ _ _ _)
            unfold owns; iexists _; isplitr
            swap; · iexact HSA
            ipureintro; exact View.read_writes_of_cover _ _ _ _ _ (scoverA_C c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover4_C c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold tup_B; (try dsimp only)
      by_cases hz : t.val = 0
      · exfalso; omega
      ·
        rw [PhiS_castSucc V c t, PhiS_pos V c _ _ hz]
        unfold chain1
        iintro ⟨⟨⟨A1, A2, A3, A4, A5, A6, A7, A8, A9, A10, A11, HSM, HSL, HSA⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HSM]; · iexact HSM
        isplitl [HSL]; · iexact HSL
        isplitl [HSA]; · iexact HSA
        iintro ⟨H0, H1, H2, H3, H4, ⟨%esM, HSM⟩, ⟨%esL, HSL⟩, ⟨%esA, HSA⟩⟩
        isplitl [A1 A2 A3 A4 A5 A6 A7 A8 A9 A10 A11 HSM HSL HSA Hg]
        · isplitl [A1 A2 A3 A4 A5 A6 A7 A8 A9 A10 A11 HSM HSL HSA]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [A11]; · iexact A11
            isplitl [HSM]
            · unfold owns; iexists _; isplitr
              swap; · iexact HSM
              ipureintro; exact View.read_writes_of_cover _ _ _ _ _ (scoverM_B c _ _ _ _ _ _ _ _ _ _ _ _ _ _ _ _ _ _ _ _ _ _ _ _ _ _)
            isplitl [HSL]
            · unfold owns; iexists _; isplitr
              swap; · iexact HSL
              ipureintro; exact View.read_writes_of_cover _ _ _ _ _ (scoverL_B c _ _ _ _ _ _ _ _ _ _ _ _ _ _ _ _ _ _ _ _ _ _ _ _ _ _)
            unfold owns; iexists _; isplitr
            swap; · iexact HSA
            ipureintro; exact View.read_writes_of_cover _ _ _ _ _ (scoverA_B c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  unfold chain1
  iintro ⟨⟨A1, A2, A3, A4, A5, A6, A7, A8, A9, A10, A11, HSM, HSL, HSA⟩, Hg⟩
  isplitl [A1 A2 A3 A4 A5 A6 A7 A8 A9 A10 A11 HSM HSL HSA]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [HSM]; · iexists _; iexact HSM
    isplitl [HSL]; · iexists _; iexact HSL
    iexists _; iexact HSA
  iexact Hg

end Cert.Kernel.Region1

end
-- ==== Proof.K.Run.lean ====
/-
  The run of the whole kernel program: @main is four segments — the two casts to bf16, region 0 (h, f1, f2), the
  reshape of f2 into a row, region 1 (the attention aggregate). The buffers' contents at the five boundaries are a
  fold from the launch memory: a host stretch applies its operations; a region leaves each of its arrays at what
  its write-backs make of it and every other buffer as it was. Every weakly fair execution terminates and ends with
  every unscoped buffer at the last boundary's contents; read at the argument arrays that is the frame claim, read
  at the result array it is region 1's output array after all 128 points.
-/
import proofs.«113575_j54150947668287_2_alg».proof.Proof.K.R0Dat
import proofs.«113575_j54150947668287_2_alg».proof.Proof.K.R1Dat
import proofs.«113575_j54150947668287_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Region0 Cert.Kernel.Region1

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : (main_arg0 : Ref sig .tc) ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : (main_arg0 : Ref sig .tc) ∉ hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 2).trans (((dat1 (V3 m ρ) c).arrAt_in 2 rfl _).trans (A_eq1 (V3 m ρ) c 2))
    _ = W2 m ρ c (Proc.devRef .tc main_arg1) := StableHlo.after_of_writes_sub hostOps1 _ hostOps1_writes (by decide : (main_arg1 : Ref sig .tc) ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : (main_arg1 : Ref sig .tc) ∉ hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : (main_arg2 : Ref sig .tc) ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : (main_arg2 : Ref sig .tc) ∉ hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : (main_arg3 : Ref sig .tc) ∉ hostOps1_W)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_writes_sub hostOps0 _ hostOps0_writes (by decide : (main_arg3 : Ref sig .tc) ∉ hostOps0_W)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : (main_arg4 : Ref sig .tc) ∉ hostOps1_W)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_writes_sub hostOps0 _ hostOps0_writes (by decide : (main_arg4 : Ref sig .tc) ∉ hostOps0_W)
    _ = m ((c : Thread nD τ).loc main_arg4) := rfl

/-- The result array ends at region 1's output array after its last point. -/
theorem W4_main_v4 (c : Dev nD) : W4 m ρ c (Proc.devRef .tc main_v4) = (dat1 (V3 m ρ) c).arrAt 4 cfg1.N :=
  W4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the boundary's contents and left at the
    next boundary's; its arrays split out of the unscoped buffers and put back at what the pipeline leaves; the
    generator register into the region invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents and left at the
    next boundary's; its arrays split out of the unscoped buffers and put back at what the pipeline leaves; the
    generator register into the region invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of @main terminates, nothing faulting, with the result array at region 1's
    output array after its last point and the five argument arrays as launched. -/
theorem run_all : θ_run defs (onTc (τ := τ) (main (F := F))) ⟨m, fun _ => 0, ρ⟩ (fun r => ∀ c : Dev nD,
      r.2.mem ((c.tc : Thread nD τ).loc main_v4) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v4 (by decide))).trans (W4_main_v4 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- THE FRAME at any float instance: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_all m ρ)

end Cert.Kernel.Run

end
-- ==== Proof.KI.R0Body.lean ====
/-
  Region 0 of the idealized kernel program (the first pallas_call): per grid point the body loads a 1024-row block
  of the bf16 copy of x, the whole bf16 copy of W and the two attention vectors a1, a2, and stores three blocks:
  h = x·W (contracted over the 1024 input features, rounded to bf16 — the identity at the ideal instance),
  f1 = h·a1 and f2 = h·a2 (each a 1024×1 column). This module states what each output's staging buffer holds
  after the body as a function of the input blocks, and proves the body's triple at any float instance.
-/
import proofs.«113575_j54150947668287_2_alg».proof.Proof.Gen.KernelIdeal.Launch
import proofs.«113575_j54150947668287_2_alg».proof.Proof.Gen.KernelIdeal.Skeleton
import proofs.«113575_j54150947668287_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1024×1024 staging block and the whole 1024×1 staging column: the body's only rectangles. -/
abbrev rSq : Rect S1024x1024 := Rect.unit (s := S1024x1024) ![0, 0] S1024x1024.size inb_S1024x1024_S1024x1024_0_0
abbrev rCol : Rect S1024x1 := Rect.unit (s := S1024x1) ![0, 0] S1024x1.size inb_S1024x1_S1024x1_0_0

/-- The h block after the body: the one whole-block store of x-block · W. -/
def outH (x0 x1 : Vec F S1024x1024 .bf16) : Vec F S1024x1024 .bf16 :=
  View.canon [⟨rSq, k0_pay1 (View.ld x0 rSq) (View.ld x1 rSq)⟩]
/-- The f1 column after the body: the one whole-column store of (x-block · W) · a1. -/
def outF1 (x0 x1 : Vec F S1024x1024 .bf16) (x2 : Vec F S1024x1 .f32) : Vec F S1024x1 .f32 :=
  View.canon [⟨rCol, k0_pay2 (View.ld x0 rSq) (View.ld x1 rSq) (View.ld x2 rCol)⟩]
/-- The f2 column after the body: the one whole-column store of (x-block · W) · a2. -/
def outF2 (x0 x1 : Vec F S1024x1024 .bf16) (x3 : Vec F S1024x1 .f32) : Vec F S1024x1 .f32 :=
  View.canon [⟨rCol, k0_pay3 (View.ld x0 rSq) (View.ld x1 rSq) (View.ld x3 rCol)⟩]

theorem coverSq (p0 : Vec F S1024x1024 .bf16) (y : S1024x1024.Idx) :
    ∃ pc ∈ ([⟨rSq, p0⟩] : List (View.Piece (Elt F) S1024x1024 .bf16)), y ∈ pc.1.set :=
  View.cover_of_tiled [⟨rSq, p0⟩] S1024x1024.size (by rfl) y
theorem coverCol (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y

set_option maxHeartbeats 1000000 in
/-- The body on whole staging memrefs: the four inputs keep their contents, the three outputs end at the functions above. -/
theorem sound_kernel0 (c : Dev nD) (E : Set ℕ) (i : grid0.Coords)
    (arg1 : Memref sig .tc .vmem S1024x1024 .bf16) (harg1 : arg1.IsWhole) (arg2 : Memref sig .tc .vmem S1024x1024 .bf16) (harg2 : arg2.IsWhole)
    (arg3 : Memref sig .tc .vmem S1024x1 .f32) (harg3 : arg3.IsWhole) (arg4 : Memref sig .tc .vmem S1024x1 .f32) (harg4 : arg4.IsWhole)
    (arg5 : Memref sig .tc .vmem S1024x1024 .bf16) (harg5 : arg5.IsWhole) (arg6 : Memref sig .tc .vmem S1024x1 .f32) (harg6 : arg6.IsWhole)
    (arg7 : Memref sig .tc .vmem S1024x1 .f32) (harg7 : arg7.IsWhole)
    (x0 x1 : Vec F S1024x1024 .bf16) (x2 x3 : Vec F S1024x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outH x0 x1) ∗ owns (c : Thread nD τ) arg6 fullShare (outF1 x0 x1 x2)
            ∗ owns (c : Thread nD τ) arg7 fullShare (outF2 x0 x1 x3)) -∗ K ⟨⟩))
      ⊢ wp frame (wpE (defs₀ (F := F)) Variants.none c none) E (cc0__matmul1_kernel i arg1 harg1 arg2 harg2 arg3 harg3 arg4 harg4 arg5 harg5 arg6 harg6 arg7 harg7) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverSq _)
  isplitl [H5]
  · iexists _; isplitr
    swap; · iexact H5
    ipureintro
    exact View.read_writes_eq_canon _ _ _ (coverCol _)
  iexists _; isplitr
  swap; · iexact H6
  ipureintro
  exact View.read_writes_eq_canon _ _ _ (coverCol _)

end Cert.KernelIdeal.Region0

end
-- ==== Proof.KI.R0Dat.lean ====
/-
  Region 0's proof data at a parameter V, the buffers' contents when the region is entered: each input window's
  staging buffer holds its block of its array at every grid point (the x block moves with the point; W, a1, a2 are
  fetched once and stay), and after the body the three output windows hold the h, f1, f2 blocks as functions of
  those input blocks. The body obligation of the pipeline follows from the body's triple.
-/
import proofs.«113575_j54150947668287_2_alg».proof.Proof.KI.R0Body

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or kept from an
    earlier point (its block index has not moved since). -/
theorem before0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data: arrays as found; after the body the inputs at their blocks, the outputs at the body's functions. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outH (iblk0 V c 0 t) (iblk0 V c 1 t)
    | ⟨5, _⟩ => outF1 (iblk0 V c 0 t) (iblk0 V c 1 t) (iblk0 V c 2 t)
    | ⟨6, _⟩ => outF2 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outH (iblk0 V c 0 t) (iblk0 V c 1 t) := by dsimp only [dat0]
theorem after0_5 (c : Dev nD) (t : Fin cfg0.N) : (dat0 V c).after 5 t = outF1 (iblk0 V c 0 t) (iblk0 V c 1 t) (iblk0 V c 2 t) := by dsimp only [dat0]
theorem after0_6 (c : Dev nD) (t : Fin cfg0.N) : (dat0 V c).after 6 t = outF2 (iblk0 V c 0 t) (iblk0 V c 1 t) (iblk0 V c 3 t) := by dsimp only [dat0]

theorem before0_0 (c : Dev nD) (t : Fin cfg0.N) (d) : (dat0 V c).before 0 t d = iblk0 V c 0 t :=
  before0_of V (dat0 V c) (A_eq0 V c 0) (after0_0 V c) t d
theorem before0_1 (c : Dev nD) (t : Fin cfg0.N) (d) : (dat0 V c).before 1 t d = iblk0 V c 1 t :=
  before1_of V (dat0 V c) (A_eq0 V c 1) (after0_1 V c) t d
theorem before0_2 (c : Dev nD) (t : Fin cfg0.N) (d) : (dat0 V c).before 2 t d = iblk0 V c 2 t :=
  before2_of V (dat0 V c) (A_eq0 V c 2) (after0_2 V c) t d
theorem before0_3 (c : Dev nD) (t : Fin cfg0.N) (d) : (dat0 V c).before 3 t d = iblk0 V c 3 t :=
  before3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Region0

end
-- ==== Proof.KI.R1Facts.lean ====
/-
  Region 1 of the idealized kernel program (the second pallas_call): the attention aggregate over a grid of
  16 query tiles (512 rows) × 8 key tiles (1024 keys), point t = 8·(query tile) + (key tile). The body keeps a
  running row maximum m, a running row sum l and a running weighted sum acc in three scratch buffers that live
  across the key tiles of one query tile: it resets them at key tile 0, updates them at every key tile, and at
  key tile 7 stores max(acc / l, 0) into the output block. This module holds what the three cases of the body
  share: the two branch conditions in closed form over the grid, where the output window is idle, the memrefs
  the body is called with, and the region's class invariant opened into its buffers.
-/
import proofs.«113575_j54150947668287_2_alg».proof.Proof.Gen.KernelIdeal.Launch
import proofs.«113575_j54150947668287_2_alg».proof.Proof.Gen.KernelIdeal.Skeleton
import proofs.«113575_j54150947668287_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or kept. -/
theorem before0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions -/

/-- "key tile = 0": the reset branch. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "key tile = 7": the finalising branch. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from key tile 7 the output window is idle and its block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At key tile 7 it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .f32 := win1_4.stage (cfg1.slots t 4)
abbrev hs1_4 (t : Fin cfg1.N) : (ms1_4 t).IsWhole := hstage1_4 ((cfg1.slots t 4).cast nbuf1_4)
/-- The three scratch operands: the running maximum, the running sum, the running weighted sum. -/
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev VSM : View sig .tc .vmem S512x1 .f32 := scM.view
abbrev VSL : View sig .tc .vmem S512x1 .f32 := scL.view
abbrev VSA : View sig .tc .vmem S512x1024 .f32 := scA.view
/-- One staging buffer of the output window, through which its contents are stated. -/
abbrev VO4 : View sig .tc .vmem S512x1024 .f32 := (Memref.whole cc1_stg4_0 : Memref sig .tc .vmem S512x1024 .f32).view

/-! ## The class invariant opened -/

/-- The core's scoped buffers that region 1 does not stage: region 0's eleven staging buffers at anything, then the
    three scratch buffers at the given assertions. -/
def chain1 (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P0 ∗ P1 ∗ P2)

theorem PhiA1_eq (c : Dev nD) :
    (Pipeline.ΦA spec1 c : sProp 𝕄)
      = iprop(chain1 c (iprop(∃ d, owns (c : Thread nD τ) scM fullShare d)) (iprop(∃ d, owns (c : Thread nD τ) scL fullShare d)) (iprop(∃ d, owns (c : Thread nD τ) scA fullShare d)) ∗ (∃ r, prngReg c r)) := by
  unfold Pipeline.ΦA chain1; rw [scopedRest1_eq]; simp only [scM, scL, scA, owns_whole]; try rfl

end Cert.KernelIdeal.Region1

end
-- ==== Proof.KI.R1RunA.lean ====
/-
  Region 1's body at key tile 0 (the reset branch taken, the finalising branch not): on whole memrefs, the four
  inputs and the idle output block keep their contents; the three scratch buffers, entered at anything, end with
  the stores of this point written — the reset to (-inf, 0, 0) followed by the first online-softmax update — each
  as a list of pieces (a rectangle and the value stored through it), the last store first.
-/
import proofs.«113575_j54150947668287_2_alg».proof.Proof.KI.R1Facts

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S512x1 .f32) (x1 : Vec F S1x1024 .f32) (x2 : Vec F S512x1024 .i32) (x3 : Vec F S8192x1024 .bf16) :
    Σ' (L4 : List (View.Piece (Elt F) S512x1024 .f32)) (LSM : List (View.Piece (Elt F) S512x1 .f32)) (LSL : List (View.Piece (Elt F) S512x1 .f32)), { LSA : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LSM)
                ∗ (∃ f, arg8.view.loc (c : Thread nD τ) ↦[arg8.view.set]{fullShare} arg8.view.writes (Elt F) f LSL)
                ∗ (∃ f, arg9.view.loc (c : Thread nD τ) ↦[arg9.view.set]{fullShare} arg9.view.writes (Elt F) f LSA)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    iexists _; iexact H9

end Cert.KernelIdeal.Region1

end
-- ==== Proof.KI.R1RunB.lean ====
/-
  Region 1's body at key tiles 1..6 (neither branch taken): the inputs and the idle output block keep their
  contents; the three scratch buffers, entered at what the previous key tile left, end with this point's
  online-softmax update written.
-/
import proofs.«113575_j54150947668287_2_alg».proof.Proof.KI.R1Facts

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) :
    Σ' (L4 : List (View.Piece (Elt F) S512x1024 .f32)) (LSM : List (View.Piece (Elt F) S512x1 .f32)) (LSL : List (View.Piece (Elt F) S512x1 .f32)), { LSA : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xsM ∗ owns (c : Thread nD τ) arg8 fullShare xsL ∗ owns (c : Thread nD τ) arg9 fullShare xsA
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LSM)
                ∗ (∃ f, arg8.view.loc (c : Thread nD τ) ↦[arg8.view.set]{fullShare} arg8.view.writes (Elt F) f LSL)
                ∗ (∃ f, arg9.view.loc (c : Thread nD τ) ↦[arg9.view.set]{fullShare} arg9.view.writes (Elt F) f LSA)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    iexists _; iexact H9

end Cert.KernelIdeal.Region1

end
-- ==== Proof.KI.R1RunC.lean ====
/-
  Region 1's body at key tile 7 (the finalising branch taken): as at key tiles 1..6, and after the update the output
  block is stored whole: max(acc / l, 0) of the updated scratch.
-/
import proofs.«113575_j54150947668287_2_alg».proof.Proof.KI.R1Facts

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) :
    Σ' (L4 : List (View.Piece (Elt F) S512x1024 .f32)) (LSM : List (View.Piece (Elt F) S512x1 .f32)) (LSL : List (View.Piece (Elt F) S512x1 .f32)), { LSA : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xsM ∗ owns (c : Thread nD τ) arg8 fullShare xsL ∗ owns (c : Thread nD τ) arg9 fullShare xsA
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LSM)
                ∗ (∃ f, arg8.view.loc (c : Thread nD τ) ↦[arg8.view.set]{fullShare} arg8.view.writes (Elt F) f LSL)
                ∗ (∃ f, arg9.view.loc (c : Thread nD τ) ↦[arg9.view.set]{fullShare} arg9.view.writes (Elt F) f LSA)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg7.eq_unread hf7; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H7]; · iexists _; iexact H7
    isplitl [H8]; · iexists _; iexact H8
    iexists _; iexact H9

end Cert.KernelIdeal.Region1

end
-- ==== Proof.KI.R1Dat.lean ====
/-
  Region 1's proof data. Per case of the body, what the output block and the three scratch buffers hold afterwards
  (the found pieces cover each buffer, so reading them back does not depend on what was there). Then THE
  ACCUMULATION over the grid: after point t the scratch holds this point's update of what point t-1 left when t is
  not the first key tile of its query tile, and a fresh start when it is. The region invariant carries the three
  scratch buffers at exactly those contents between points. The body obligation follows case by case.
-/
import proofs.«113575_j54150947668287_2_alg».proof.Proof.KI.R1RunA
import proofs.«113575_j54150947668287_2_alg».proof.Proof.KI.R1RunB
import proofs.«113575_j54150947668287_2_alg».proof.Proof.KI.R1RunC

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ### Case A -/

theorem scoverM_A (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S512x1 .f32) (x1 : Vec F S1x1024 .f32) (x2 : Vec F S512x1024 .i32) (x3 : Vec F S8192x1024 .bf16) (y : S512x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S512x1.size (by sl_kernel_rfl) y
theorem scoverL_A (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S512x1 .f32) (x1 : Vec F S1x1024 .f32) (x2 : Vec F S512x1024 .i32) (x3 : Vec F S8192x1024 .bf16) (y : S512x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S512x1.size (by sl_kernel_rfl) y
theorem scoverA_A (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S512x1 .f32) (x1 : Vec F S1x1024 .f32) (x2 : Vec F S512x1024 .i32) (x3 : Vec F S8192x1024 .bf16) (y : S512x1024.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S512x1024.size (by sl_kernel_rfl) y
/-- What case A leaves: the output block (a placeholder where the case stores nothing into it), then the running
    maximum, the running sum and the running weighted sum, each its found pieces read back. -/
def tup_A (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S512x1 .f32) (x1 : Vec F S1x1024 .f32) (x2 : Vec F S512x1024 .i32) (x3 : Vec F S8192x1024 .bf16) : Vec F S512x1024 .f32 × Vec F S512x1 .f32 × Vec F S512x1 .f32 × Vec F S512x1024 .f32 :=
  (VO4.read (Elt F) (VO4.writes (Elt F) VO4.junk (kernelRun1_A c i arg2 harg2 arg3 harg3 arg4 harg4 arg5 harg5 arg6 harg6 arg7 harg7 arg8 harg8 arg9 harg9 hc0 hc1 x0 x1 x2 x3).1),
   VSM.read (Elt F) (VSM.writes (Elt F) VSM.junk (kernelRun1_A c i arg2 harg2 arg3 harg3 arg4 harg4 arg5 harg5 arg6 harg6 arg7 harg7 arg8 harg8 arg9 harg9 hc0 hc1 x0 x1 x2 x3).2.1),
   VSL.read (Elt F) (VSL.writes (Elt F) VSL.junk (kernelRun1_A c i arg2 harg2 arg3 harg3 arg4 harg4 arg5 harg5 arg6 harg6 arg7 harg7 arg8 harg8 arg9 harg9 hc0 hc1 x0 x1 x2 x3).2.2.1),
   VSA.read (Elt F) (VSA.writes (Elt F) VSA.junk (kernelRun1_A c i arg2 harg2 arg3 harg3 arg4 harg4 arg5 harg5 arg6 harg6 arg7 harg7 arg8 harg8 arg9 harg9 hc0 hc1 x0 x1 x2 x3).2.2.2.1))

/-! ### Case B -/

theorem scoverM_B (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 xsM xsL xsA).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xsM xsL xsA).2.1 S512x1.size (by sl_kernel_rfl) y
theorem scoverL_B (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 xsM xsL xsA).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xsM xsL xsA).2.2.1 S512x1.size (by sl_kernel_rfl) y
theorem scoverA_B (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1024.Idx) :
    ∃ pc ∈ (kernelRun1_B c i arg2 harg2 arg3 harg3 arg4 harg4 arg5 harg5 arg6 harg6 arg7 harg7 arg8 harg8 arg9 harg9 hc0 hc1 x0 x1 x2 x3 xsM xsL xsA).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xsM xsL xsA).2.2.2.1 S512x1024.size (by sl_kernel_rfl) y
/-- What case B leaves: the output block (a placeholder where the case stores nothing into it), then the running
    maximum, the running sum and the running weighted sum, each its found pieces read back. -/
def tup_B (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) : Vec F S512x1024 .f32 × Vec F S512x1 .f32 × Vec F S512x1 .f32 × Vec F S512x1024 .f32 :=
  (VO4.read (Elt F) (VO4.writes (Elt F) VO4.junk (kernelRun1_B c i arg2 harg2 arg3 harg3 arg4 harg4 arg5 harg5 arg6 harg6 arg7 harg7 arg8 harg8 arg9 harg9 hc0 hc1 x0 x1 x2 x3 xsM xsL xsA).1),
   VSM.read (Elt F) (VSM.writes (Elt F) VSM.junk (kernelRun1_B c i arg2 harg2 arg3 harg3 arg4 harg4 arg5 harg5 arg6 harg6 arg7 harg7 arg8 harg8 arg9 harg9 hc0 hc1 x0 x1 x2 x3 xsM xsL xsA).2.1),
   VSL.read (Elt F) (VSL.writes (Elt F) VSL.junk (kernelRun1_B c i arg2 harg2 arg3 harg3 arg4 harg4 arg5 harg5 arg6 harg6 arg7 harg7 arg8 harg8 arg9 harg9 hc0 hc1 x0 x1 x2 x3 xsM xsL xsA).2.2.1),
   VSA.read (Elt F) (VSA.writes (Elt F) VSA.junk (kernelRun1_B c i arg2 harg2 arg3 harg3 arg4 harg4 arg5 harg5 arg6 harg6 arg7 harg7 arg8 harg8 arg9 harg9 hc0 hc1 x0 x1 x2 x3 xsM xsL xsA).2.2.2.1))

/-! ### Case C -/

theorem scoverM_C (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 xsM xsL xsA).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xsM xsL xsA).2.1 S512x1.size (by sl_kernel_rfl) y
theorem scoverL_C (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 xsM xsL xsA).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xsM xsL xsA).2.2.1 S512x1.size (by sl_kernel_rfl) y
theorem scoverA_C (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1024.Idx) :
    ∃ pc ∈ (kernelRun1_C c i arg2 harg2 arg3 harg3 arg4 harg4 arg5 harg5 arg6 harg6 arg7 harg7 arg8 harg8 arg9 harg9 hc0 hc1 x0 x1 x2 x3 xsM xsL xsA).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xsM xsL xsA).2.2.2.1 S512x1024.size (by sl_kernel_rfl) y
theorem cover4_C (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) (y : S512x1024.Idx) :
    ∃ pc ∈ (kernelRun1_C c i arg2 harg2 arg3 harg3 arg4 harg4 arg5 harg5 arg6 harg6 arg7 harg7 arg8 harg8 arg9 harg9 hc0 hc1 x0 x1 x2 x3 xsM xsL xsA).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xsM xsL xsA).1 S512x1024.size (by sl_kernel_rfl) y
/-- What case C leaves: the output block (a placeholder where the case stores nothing into it), then the running
    maximum, the running sum and the running weighted sum, each its found pieces read back. -/
def tup_C (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) : Vec F S512x1024 .f32 × Vec F S512x1 .f32 × Vec F S512x1 .f32 × Vec F S512x1024 .f32 :=
  (VO4.read (Elt F) (VO4.writes (Elt F) VO4.junk (kernelRun1_C c i arg2 harg2 arg3 harg3 arg4 harg4 arg5 harg5 arg6 harg6 arg7 harg7 arg8 harg8 arg9 harg9 hc0 hc1 x0 x1 x2 x3 xsM xsL xsA).1),
   VSM.read (Elt F) (VSM.writes (Elt F) VSM.junk (kernelRun1_C c i arg2 harg2 arg3 harg3 arg4 harg4 arg5 harg5 arg6 harg6 arg7 harg7 arg8 harg8 arg9 harg9 hc0 hc1 x0 x1 x2 x3 xsM xsL xsA).2.1),
   VSL.read (Elt F) (VSL.writes (Elt F) VSL.junk (kernelRun1_C c i arg2 harg2 arg3 harg3 arg4 harg4 arg5 harg5 arg6 harg6 arg7 harg7 arg8 harg8 arg9 harg9 hc0 hc1 x0 x1 x2 x3 xsM xsL xsA).2.2.1),
   VSA.read (Elt F) (VSA.writes (Elt F) VSA.junk (kernelRun1_C c i arg2 harg2 arg3 harg3 arg4 harg4 arg5 harg5 arg6 harg6 arg7 harg7 arg8 harg8 arg9 harg9 hc0 hc1 x0 x1 x2 x3 xsM xsL xsA).2.2.2.1))

/-! ## What the buffers hold after each point -/

/-- THE ACCUMULATION: the output block and the three scratch buffers after the body at position n. -/
def outsAt1 (c : Dev nD) : (n : ℕ) → n < cfg1.N → Vec F S512x1024 .f32 × Vec F S512x1 .f32 × Vec F S512x1 .f32 × Vec F S512x1024 .f32
  | 0, hn => tup_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM (Memref.isWhole_whole _) scL (Memref.isWhole_whole _) scA (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩)
  | n + 1, hn =>
    if h0 : (n + 1) % 8 = 0 then
      if h1 : (n + 1) % 8 = 7 then
        False.elim (by omega)
      else
        tup_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
    else
      if h1 : (n + 1) % 8 = 7 then
        tup_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2
      else
        tup_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM (Memref.isWhole_whole _) scL (Memref.isWhole_whole _) scA (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 8 = 0) (h1 : ¬t.val % 8 = 7) :
    outsAt1 V c t.val t.isLt = tup_A c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = tup_B c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = tup_C c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position n: the class's before the first point; afterwards the scoped rest with the
    three scratch buffers at what the point before left, and the generator register at some state. -/
def PhiS (c : Dev nD) : (n : ℕ) → n ≤ cfg1.N → sProp 𝕄
  | 0, _ => Pipeline.ΦA spec1 c
  | n + 1, hn => iprop(chain1 c (owns (c : Thread nD τ) scM fullShare ((outsAt1 V c n hn).2.1)) (owns (c : Thread nD τ) scL fullShare ((outsAt1 V c n hn).2.2.1)) (owns (c : Thread nD τ) scA fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(chain1 c (owns (c : Thread nD τ) scM fullShare ((outsAt1 V c n hn).2.1)) (owns (c : Thread nD τ) scL fullShare ((outsAt1 V c n hn).2.2.1)) (owns (c : Thread nD τ) scA fullShare ((outsAt1 V c n hn).2.2.2)) ∗ (∃ r, prngReg c r)) := rfl
theorem PhiS_pos (c : Dev nD) (n : ℕ) (h : n ≤ cfg1.N) (hz : n ≠ 0) :
    PhiS V c n h = iprop(chain1 c (owns (c : Thread nD τ) scM fullShare ((outsAt1 V c (n - 1) (by omega)).2.1)) (owns (c : Thread nD τ) scL fullShare ((outsAt1 V c (n - 1) (by omega)).2.2.1)) (owns (c : Thread nD τ) scA fullShare ((outsAt1 V c (n - 1) (by omega)).2.2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before0_of V (dat1 V c) (A_eq1 V c 0) (after1_0 V c) t d
theorem before1_1 (c : Dev nD) (t : Fin cfg1.N) (d) : (dat1 V c).before 1 t d = iblk1 V c 1 t :=
  before1_of V (dat1 V c) (A_eq1 V c 1) (after1_1 V c) t d
theorem before1_2 (c : Dev nD) (t : Fin cfg1.N) (d) : (dat1 V c).before 2 t d = iblk1 V c 2 t :=
  before2_of V (dat1 V c) (A_eq1 V c 2) (after1_2 V c) t d
theorem before1_3 (c : Dev nD) (t : Fin cfg1.N) (d) : (dat1 V c).before 3 t d = iblk1 V c 3 t :=
  before3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem leaves_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t) :=
  ⟨by unfold Dat.leavesExact; rw [liveAt1_0 t, after1_0], by unfold Dat.leavesExact; rw [liveAt1_1 t, after1_1],
   by unfold Dat.leavesExact; rw [liveAt1_2 t, after1_2], by unfold Dat.leavesExact; rw [liveAt1_3 t, after1_3]⟩

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [(leaves_in V c t).1, (leaves_in V c t).2.1, (leaves_in V c t).2.2.1, (leaves_in V c t).2.2.2]
  have hN : t.val < 128 := lt_of_lt_of_eq t.isLt (show cfg1.N = 128 from N_1)
  by_cases h0 : t.val % 8 = 0
  · by_cases h1 : t.val % 8 = 7
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold tup_A; (try dsimp only)
      by_cases hz : t.val = 0
      ·
        rw [PhiS_castSucc V c t, PhiS_zero V c _ _ hz, PhiA1_eq]
        unfold chain1
        iintro ⟨⟨⟨A1, A2, A3, A4, A5, A6, A7, A8, A9, A10, A11, HSM, HSL, HSA⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HSM]; · iexact HSM
        isplitl [HSL]; · iexact HSL
        isplitl [HSA]; · iexact HSA
        iintro ⟨H0, H1, H2, H3, H4, ⟨%esM, HSM⟩, ⟨%esL, HSL⟩, ⟨%esA, HSA⟩⟩
        isplitl [A1 A2 A3 A4 A5 A6 A7 A8 A9 A10 A11 HSM HSL HSA Hg]
        · isplitl [A1 A2 A3 A4 A5 A6 A7 A8 A9 A10 A11 HSM HSL HSA]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [A11]; · iexact A11
            isplitl [HSM]
            · unfold owns; iexists _; isplitr
              swap; · iexact HSM
              ipureintro; exact View.read_writes_of_cover _ _ _ _ _ (scoverM_A c _ _ _ _ _ _ _ _ _ _ _ _ _ _ _ _ _ _ _ _ _ _ _)
            isplitl [HSL]
            · unfold owns; iexists _; isplitr
              swap; · iexact HSL
              ipureintro; exact View.read_writes_of_cover _ _ _ _ _ (scoverL_A c _ _ _ _ _ _ _ _ _ _ _ _ _ _ _ _ _ _ _ _ _ _ _)
            unfold owns; iexists _; isplitr
            swap; · iexact HSA
            ipureintro; exact View.read_writes_of_cover _ _ _ _ _ (scoverA_A c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      ·
        rw [PhiS_castSucc V c t, PhiS_pos V c _ _ hz]
        unfold chain1
        iintro ⟨⟨⟨A1, A2, A3, A4, A5, A6, A7, A8, A9, A10, A11, HSM, HSL, HSA⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HSM]; · iexists _; iexact HSM
        isplitl [HSL]; · iexists _; iexact HSL
        isplitl [HSA]; · iexists _; iexact HSA
        iintro ⟨H0, H1, H2, H3, H4, ⟨%esM, HSM⟩, ⟨%esL, HSL⟩, ⟨%esA, HSA⟩⟩
        isplitl [A1 A2 A3 A4 A5 A6 A7 A8 A9 A10 A11 HSM HSL HSA Hg]
        · isplitl [A1 A2 A3 A4 A5 A6 A7 A8 A9 A10 A11 HSM HSL HSA]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [A11]; · iexact A11
            isplitl [HSM]
            · unfold owns; iexists _; isplitr
              swap; · iexact HSM
              ipureintro; exact View.read_writes_of_cover _ _ _ _ _ (scoverM_A c _ _ _ _ _ _ _ _ _ _ _ _ _ _ _ _ _ _ _ _ _ _ _)
            isplitl [HSL]
            · unfold owns; iexists _; isplitr
              swap; · iexact HSL
              ipureintro; exact View.read_writes_of_cover _ _ _ _ _ (scoverL_A c _ _ _ _ _ _ _ _ _ _ _ _ _ _ _ _ _ _ _ _ _ _ _)
            unfold owns; iexists _; isplitr
            swap; · iexact HSA
            ipureintro; exact View.read_writes_of_cover _ _ _ _ _ (scoverA_A c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold tup_C; (try dsimp only)
      by_cases hz : t.val = 0
      · exfalso; omega
      ·
        rw [PhiS_castSucc V c t, PhiS_pos V c _ _ hz]
        unfold chain1
        iintro ⟨⟨⟨A1, A2, A3, A4, A5, A6, A7, A8, A9, A10, A11, HSM, HSL, HSA⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HSM]; · iexact HSM
        isplitl [HSL]; · iexact HSL
        isplitl [HSA]; · iexact HSA
        iintro ⟨H0, H1, H2, H3, ⟨%e4, H4⟩, ⟨%esM, HSM⟩, ⟨%esL, HSL⟩, ⟨%esA, HSA⟩⟩
        isplitl [A1 A2 A3 A4 A5 A6 A7 A8 A9 A10 A11 HSM HSL HSA Hg]
        · isplitl [A1 A2 A3 A4 A5 A6 A7 A8 A9 A10 A11 HSM HSL HSA]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [A11]; · iexact A11
            isplitl [HSM]
            · unfold owns; iexists _; isplitr
              swap; · iexact HSM
              ipureintro; exact View.read_writes_of_cover _ _ _ _ _ (scoverM_C c _ _ _ _ _ _ _ _ _ _ _ _ _ _ _ _ _ _ _ _ _ _ _ _ _ _)
            isplitl [HSL]
            · unfold owns; iexists _; isplitr
              swap; · iexact HSL
              ipureintro; exact View.read_writes_of_cover _ _ _ _ _ (scoverL_C c _ _ _ _ _ _ _ _ _ _ _ _ _ _ _ _ _ _ _ _ _ _ _ _ _ _)
            unfold owns; iexists _; isplitr
            swap; · iexact HSA
            ipureintro; exact View.read_writes_of_cover _ _ _ _ _ (scoverA_C c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover4_C c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold tup_B; (try dsimp only)
      by_cases hz : t.val = 0
      · exfalso; omega
      ·
        rw [PhiS_castSucc V c t, PhiS_pos V c _ _ hz]
        unfold chain1
        iintro ⟨⟨⟨A1, A2, A3, A4, A5, A6, A7, A8, A9, A10, A11, HSM, HSL, HSA⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HSM]; · iexact HSM
        isplitl [HSL]; · iexact HSL
        isplitl [HSA]; · iexact HSA
        iintro ⟨H0, H1, H2, H3, H4, ⟨%esM, HSM⟩, ⟨%esL, HSL⟩, ⟨%esA, HSA⟩⟩
        isplitl [A1 A2 A3 A4 A5 A6 A7 A8 A9 A10 A11 HSM HSL HSA Hg]
        · isplitl [A1 A2 A3 A4 A5 A6 A7 A8 A9 A10 A11 HSM HSL HSA]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [A11]; · iexact A11
            isplitl [HSM]
            · unfold owns; iexists _; isplitr
              swap; · iexact HSM
              ipureintro; exact View.read_writes_of_cover _ _ _ _ _ (scoverM_B c _ _ _ _ _ _ _ _ _ _ _ _ _ _ _ _ _ _ _ _ _ _ _ _ _ _)
            isplitl [HSL]
            · unfold owns; iexists _; isplitr
              swap; · iexact HSL
              ipureintro; exact View.read_writes_of_cover _ _ _ _ _ (scoverL_B c _ _ _ _ _ _ _ _ _ _ _ _ _ _ _ _ _ _ _ _ _ _ _ _ _ _)
            unfold owns; iexists _; isplitr
            swap; · iexact HSA
            ipureintro; exact View.read_writes_of_cover _ _ _ _ _ (scoverA_B c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  unfold chain1
  iintro ⟨⟨A1, A2, A3, A4, A5, A6, A7, A8, A9, A10, A11, HSM, HSL, HSA⟩, Hg⟩
  isplitl [A1 A2 A3 A4 A5 A6 A7 A8 A9 A10 A11 HSM HSL HSA]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [HSM]; · iexists _; iexact HSM
    isplitl [HSL]; · iexists _; iexact HSL
    iexists _; iexact HSA
  iexact Hg

end Cert.KernelIdeal.Region1

end
-- ==== Proof.KI.Run.lean ====
/-
  The run of the whole kernel program: @main is four segments — the two casts to bf16, region 0 (h, f1, f2), the
  reshape of f2 into a row, region 1 (the attention aggregate). The buffers' contents at the five boundaries are a
  fold from the launch memory: a host stretch applies its operations; a region leaves each of its arrays at what
  its write-backs make of it and every other buffer as it was. Every weakly fair execution terminates and ends with
  every unscoped buffer at the last boundary's contents; read at the argument arrays that is the frame claim, read
  at the result array it is region 1's output array after all 128 points.
-/
import proofs.«113575_j54150947668287_2_alg».proof.Proof.KI.R0Dat
import proofs.«113575_j54150947668287_2_alg».proof.Proof.KI.R1Dat
import proofs.«113575_j54150947668287_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Region0 Cert.KernelIdeal.Region1

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : (main_arg0 : Ref sig .tc) ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : (main_arg0 : Ref sig .tc) ∉ hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 2).trans (((dat1 (V3 m ρ) c).arrAt_in 2 rfl _).trans (A_eq1 (V3 m ρ) c 2))
    _ = W2 m ρ c (Proc.devRef .tc main_arg1) := StableHlo.after_of_writes_sub hostOps1 _ hostOps1_writes (by decide : (main_arg1 : Ref sig .tc) ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : (main_arg1 : Ref sig .tc) ∉ hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : (main_arg2 : Ref sig .tc) ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : (main_arg2 : Ref sig .tc) ∉ hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : (main_arg3 : Ref sig .tc) ∉ hostOps1_W)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_writes_sub hostOps0 _ hostOps0_writes (by decide : (main_arg3 : Ref sig .tc) ∉ hostOps0_W)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : (main_arg4 : Ref sig .tc) ∉ hostOps1_W)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_writes_sub hostOps0 _ hostOps0_writes (by decide : (main_arg4 : Ref sig .tc) ∉ hostOps0_W)
    _ = m ((c : Thread nD τ).loc main_arg4) := rfl

/-- The result array ends at region 1's output array after its last point. -/
theorem W4_main_v4 (c : Dev nD) : W4 m ρ c (Proc.devRef .tc main_v4) = (dat1 (V3 m ρ) c).arrAt 4 cfg1.N :=
  W4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the boundary's contents and left at the
    next boundary's; its arrays split out of the unscoped buffers and put back at what the pipeline leaves; the
    generator register into the region invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents and left at the
    next boundary's; its arrays split out of the unscoped buffers and put back at what the pipeline leaves; the
    generator register into the region invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of @main terminates, nothing faulting, with the result array at region 1's
    output array after its last point and the five argument arrays as launched. -/
theorem run_all : θ_run defs (onTc (τ := τ) (main (F := F))) ⟨m, fun _ => 0, ρ⟩ (fun r => ∀ c : Dev nD,
      r.2.mem ((c.tc : Thread nD τ).loc main_v4) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v4 (by decide))).trans (W4_main_v4 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- THE FRAME at any float instance: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_all m ρ)

end Cert.KernelIdeal.Run

end
-- ==== Proof.RefRun.lean ====
/-
  The reference program's run, written out.

  The reference is a straight line of host operations once its three private functions (the leaky ReLU, which itself
  calls a select, the masked select, and the ReLU) are unfolded at their call sites: thirty-nine operations in all.
  Every weakly fair execution of it terminates, the result buffer holds the operations' composed term of the five
  argument arrays, and the arguments are unchanged.  The composed term is stated as a chain of small named stages:
  the feature product, the two projections, the pairwise sums, the leaky ReLU, the mask, the masked score, the row
  maximum, the shifted exponential, the row sum, the quotient, and the final product followed by the ReLU.
-/
import proofs.«113575_j54150947668287_2_alg».proof.Defs
import proofs.«113575_j54150947668287_2_alg».proof.Proof.Gen.ReferenceIdeal
import proofs.«113575_j54150947668287_2_alg».proof.Proof.Gen.Pre_finite_inputs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The stages of the composed term, on the extended reals -/

/-- The feature product h = x·W. -/
def hS (x : FVec Ideal S8192x1024 .f32) (W : FVec Ideal S1024x1024 .f32) : FVec Ideal S8192x1024 .f32 :=
  Host.dotGeneral (F := Ideal) dot_S8192x1024_S1024x1024_S8192x1024_1_0_0_1_n_n none x W

/-- A projection h·a of the features on a column vector a, as an [8192, 1] column. -/
def fS (h : FVec Ideal S8192x1024 .f32) (a : FVec Ideal S1024x1 .f32) : FVec Ideal S8192x1 .f32 :=
  Host.dotGeneral (F := Ideal) dot_S8192x1024_S1024x1_S8192x1_1_0_0_1_n_n none h a

/-- The pairwise sums e(i,j) = f1(i) + f2(j): the first column repeated along the rows' second axis, the second
    transposed to a row and repeated along the first axis. -/
def eS (f1 f2 : FVec Ideal S8192x1 .f32) : FVec Ideal S8192x8192 .f32 :=
  addf (F := Ideal) (broadcastInDim S8192x8192 ![0, 1] bcast_S8192x1_S8192x8192_0_1 f1)
    (broadcastInDim S8192x8192 ![0, 1] bcast_S1x8192_S8192x8192_0_1 (transpose S1x8192 [1, 0] f2 transposes_S8192x1_S1x8192_1_0))

/-- The leaky ReLU: where e ≥ 0 the entry itself, elsewhere the slope times the entry. -/
def lreluS (e : FVec Ideal S8192x8192 .f32) : FVec Ideal S8192x8192 .f32 :=
  select (cmpf (F := Ideal) .oge e (broadcastInDim S8192x8192 ![] bcast_S_S8192x8192 (constant (F := Ideal) S_ .f32 0x00000000#32))) e
    (mulf (F := Ideal) (broadcastInDim S8192x8192 ![] bcast_S_S8192x8192 (id (constant (F := Ideal) S_ .f32 0x3E4CCCCD#32))) e)

/-- The mask: the signed comparison adj > 0, entry by entry. -/
def mskS (adj : IVec S8192x8192 32) : IVec S8192x8192 1 :=
  cmpi .sgt adj (broadcastInDim S8192x8192 ![] bcast_S_S8192x8192 (constantI S_ 32 0#32))

/-- The masked score: the leaky ReLU where the mask is set, the large negative constant elsewhere. -/
def scoreS (adj : IVec S8192x8192 32) (l : FVec Ideal S8192x8192 .f32) : FVec Ideal S8192x8192 .f32 :=
  select (mskS adj) l (broadcastInDim S8192x8192 ![] bcast_S_S8192x8192 (constant (F := Ideal) S_ .f32 0xD9FFCB9E#32))

/-- The row maximum: the reduction along the second axis from −∞, then the maximum with −∞ once more. -/
def maxS (s : FVec Ideal S8192x8192 .f32) : FVec Ideal S8192 .f32 :=
  maximumf (F := Ideal) (broadcastInDim S8192 ![] bcast_S_S8192 (constant (F := Ideal) S_ .f32 0xFF800000#32))
    (Host.reduce (FloatOps.maximumf (F := Ideal)) s (constant (F := Ideal) S_ .f32 0xFF800000#32) reducesTo_S8192x8192_S8192_d1 h_S_)

/-- The shifted exponential exp(s(i,j) − max_i). -/
def expS (s : FVec Ideal S8192x8192 .f32) : FVec Ideal S8192x8192 .f32 :=
  Host.exp (F := Ideal) (subf (F := Ideal) s
    (broadcastInDim S8192x8192 ![0, 1] bcast_S8192x1_S8192x8192_0_1 (broadcastInDim S8192x1 ![0] bcast_S8192_S8192x1_0 (maxS s))))

/-- The row sum of the exponentials, from 0. -/
def sumS (w : FVec Ideal S8192x8192 .f32) : FVec Ideal S8192 .f32 :=
  Host.reduceAdd (F := Ideal) w (constant (F := Ideal) S_ .f32 0x00000000#32) reducesTo_S8192x8192_S8192_d1 h_S_

/-- The attention weights: each exponential divided by its row's sum. -/
def attS (w : FVec Ideal S8192x8192 .f32) : FVec Ideal S8192x8192 .f32 :=
  Host.divf (F := Ideal) w
    (broadcastInDim S8192x8192 ![0, 1] bcast_S8192x1_S8192x8192_0_1 (broadcastInDim S8192x1 ![0] bcast_S8192_S8192x1_0 (sumS w)))

/-- The output: the weights times the features, then the maximum with 0. -/
def outS (att : FVec Ideal S8192x8192 .f32) (h : FVec Ideal S8192x1024 .f32) : FVec Ideal S8192x1024 .f32 :=
  maximumf (F := Ideal) (Host.dotGeneral (F := Ideal) dot_S8192x8192_S8192x1024_S8192x1024_1_0_0_1_n_n none att h)
    (broadcastInDim S8192x1024 ![] bcast_S_S8192x1024 (constant (F := Ideal) S_ .f32 0x00000000#32))

/-- The masked score of the five arguments' first, second, third, fourth and fifth arrays. -/
def scoreTerm (x : FVec Ideal S8192x1024 .f32) (adj : IVec S8192x8192 32) (W : FVec Ideal S1024x1024 .f32)
    (a1 a2 : FVec Ideal S1024x1 .f32) : FVec Ideal S8192x8192 .f32 :=
  scoreS adj (lreluS (eS (fS (hS x W) a1) (fS (hS x W) a2)))

/-- The reference's result as a function of its five argument arrays. -/
def refTerm (x : FVec Ideal S8192x1024 .f32) (adj : IVec S8192x8192 32) (W : FVec Ideal S1024x1024 .f32)
    (a1 a2 : FVec Ideal S1024x1 .f32) : FVec Ideal S8192x1024 .f32 :=
  outS (attS (expS (scoreTerm x adj W a1 a2))) (hS x W)

/-! ## The operations, in order -/

variable {F : FTy → Type} [FloatOps F]

/-- @main's thirty-nine operations, the three calls unfolded: the leaky ReLU is seven (the zero, its broadcast, the
    comparison, the slope converted to its own type, its broadcast, the product, and the select of the function it
    calls), the masked select two (the constant's broadcast, the select), the ReLU three (the zero, its broadcast, the
    maximum). -/
abbrev ops : List (HloOp τ sig (Elt F)) :=
  [ binary main_arg0 main_arg2 main_v0 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    binary main_v0 main_arg3 main_v1 ((fun l r => Host.dotGeneral dot_S8192x1024_S1024x1_S8192x1_1_0_0_1_n_n none l r) : (⟨S8192x1024, .f32⟩ : BufTy).Contents (Elt F) → (⟨S1024x1, .f32⟩ : BufTy).Contents (Elt F) → (⟨S8192x1, .f32⟩ : BufTy).Contents (Elt F)),
    binary main_v0 main_arg4 main_v2 ((fun l r => Host.dotGeneral dot_S8192x1024_S1024x1_S8192x1_1_0_0_1_n_n none l r) : (⟨S8192x1024, .f32⟩ : BufTy).Contents (Elt F) → (⟨S1024x1, .f32⟩ : BufTy).Contents (Elt F) → (⟨S8192x1, .f32⟩ : BufTy).Contents (Elt F)),
    unary main_v2 main_v3 ((transpose S1x8192 [1, 0] · transposes_S8192x1_S1x8192_1_0) : (⟨S8192x1, .f32⟩ : BufTy).Contents (Elt F) → (⟨S1x8192, .f32⟩ : BufTy).Contents (Elt F)),
    unary main_v1 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v6 : TRef sig ⟨S8192x8192, .f32⟩) main_call0.v0 main_call0.v1 (cmpf .oge),
    TRef.unary (.of main_cst : TRef sig ⟨S_, .f32⟩) main_call0.v2 id,
    TRef.unary main_call0.v2 main_call0.v3 (broadcastInDim S8192x8192 ![] bcast_S_S8192x8192),
    TRef.binary main_call0.v3 (.of main_v6 : TRef sig ⟨S8192x8192, .f32⟩) main_call0.v4 mulf,
    TRef.ternary main_call0.v1 (.of main_v6 : TRef sig ⟨S8192x8192, .f32⟩) main_call0.v4 main_call0.call0.v0 select,
    nullary main_c (constantI S_ 32 0#32),
    unary main_c main_v8 (broadcastInDim S8192x8192 ![] bcast_S_S8192x8192 : (⟨S_, .i32⟩ : BufTy).Contents (Elt F) → (⟨S8192x8192, .i32⟩ : BufTy).Contents (Elt F)),
    binary main_arg1 main_v8 main_v9 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (.of main_cst_0 : TRef sig ⟨S_, .f32⟩) main_call1.v0 (broadcastInDim S8192x8192 ![] bcast_S_S8192x8192),
    TRef.ternary (.of main_v9 : TRef sig ⟨S8192x8192, .i1⟩) (.of main_v7 : TRef sig ⟨S8192x8192, .f32⟩) main_call1.v0 main_call1.v1 select,
    nullary main_cst_1 (constant S_ .f32 0xFF800000#32),
    binary main_v10 main_cst_1 main_v11 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v12 (broadcastInDim S8192 ![] bcast_S_S8192 : (⟨S_, .f32⟩ : BufTy).Contents (Elt F) → (⟨S8192, .f32⟩ : BufTy).Contents (Elt F)),
    binary main_v12 main_v11 main_v13 (maximumf : (⟨S8192, .f32⟩ : BufTy).Contents (Elt F) → (⟨S8192, .f32⟩ : BufTy).Contents (Elt F) → (⟨S8192, .f32⟩ : BufTy).Contents (Elt F)),
    unary main_v13 main_v14 (broadcastInDim S8192x1 ![0] bcast_S8192_S8192x1_0 : (⟨S8192, .f32⟩ : BufTy).Contents (Elt F) → (⟨S8192x1, .f32⟩ : BufTy).Contents (Elt F)),
    unary main_v14 main_v15 (broadcastInDim S8192x8192 ![0, 1] bcast_S8192x1_S8192x8192_0_1 : (⟨S8192x1, .f32⟩ : BufTy).Contents (Elt F) → (⟨S8192x8192, .f32⟩ : BufTy).Contents (Elt F)),
    binary main_v10 main_v15 main_v16 (subf : (⟨S8192x8192, .f32⟩ : BufTy).Contents (Elt F) → (⟨S8192x8192, .f32⟩ : BufTy).Contents (Elt F) → (⟨S8192x8192, .f32⟩ : BufTy).Contents (Elt F)),
    unary main_v16 main_v17 (Host.exp : (⟨S8192x8192, .f32⟩ : BufTy).Contents (Elt F) → (⟨S8192x8192, .f32⟩ : BufTy).Contents (Elt F)),
    nullary main_cst_3 (constant S_ .f32 0x00000000#32),
    binary main_v17 main_cst_3 main_v18 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v18 main_v19 (broadcastInDim S8192x1 ![0] bcast_S8192_S8192x1_0 : (⟨S8192, .f32⟩ : BufTy).Contents (Elt F) → (⟨S8192x1, .f32⟩ : BufTy).Contents (Elt F)),
    unary main_v19 main_v20 (broadcastInDim S8192x8192 ![0, 1] bcast_S8192x1_S8192x8192_0_1 : (⟨S8192x1, .f32⟩ : BufTy).Contents (Elt F) → (⟨S8192x8192, .f32⟩ : BufTy).Contents (Elt F)),
    binary main_v17 main_v20 main_v21 (Host.divf : (⟨S8192x8192, .f32⟩ : BufTy).Contents (Elt F) → (⟨S8192x8192, .f32⟩ : BufTy).Contents (Elt F) → (⟨S8192x8192, .f32⟩ : BufTy).Contents (Elt F)),
    binary main_v21 main_v0 main_v22 ((fun l r => Host.dotGeneral dot_S8192x8192_S8192x1024_S8192x1024_1_0_0_1_n_n none l r) : (⟨S8192x8192, .f32⟩ : BufTy).Contents (Elt F) → (⟨S8192x1024, .f32⟩ : BufTy).Contents (Elt F) → (⟨S8192x1024, .f32⟩ : BufTy).Contents (Elt F)),
    TRef.nullary main_call2.cst (constant S_ .f32 0x00000000#32),
    TRef.unary main_call2.cst main_call2.v0 (broadcastInDim S8192x1024 ![] bcast_S_S8192x1024),
    TRef.binary (.of main_v22 : TRef sig ⟨S8192x1024, .f32⟩) main_call2.v0 main_call2.v1 maximumf ]

-- the program is one chain of thirty-nine operations; re-associating its sequencing descends once per operation
set_option maxRecDepth 2048 in
/-- @main is that straight line: the functions' definitions unfolded at their calls and the records at their fields,
    both sides are one chain of steps once sequencing is reassociated. -/
theorem main_eq (c : Dev nD) : main (F := F) c = seq ops := by
  simp only [main, fn_leaky_relu.body, fn_where.body, fn_where_0.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., unary_bufs_sub .., unary_bufs_sub .., unary_bufs_sub ..,
    binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub ..,
    unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub ..,
    nullary_bufs_sub .., unary_bufs_sub .., binary_bufs_sub ..⟩

/-! ## The run -/

/-- The result buffer after the thirty-nine operations, from any contents: the composed term of the argument arrays.
    The fold is unrolled, each operation's result read at the buffer it writes; the typed references' transports are
    the identity at these literal references, so what is left is the chain of stages by computation. -/
theorem out_eq (V : Valuation τ sig (Elt Ideal)) :
    after (ops (F := Ideal)) V (main_v23 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp
theorem arg3_eq (V : Valuation τ sig (Elt Ideal)) :
    after (ops (F := Ideal)) V (main_arg3 : DevRef τ sig) = V (main_arg3 : DevRef τ sig) := by
  after_results_simp
theorem arg4_eq (V : Valuation τ sig (Elt Ideal)) :
    after (ops (F := Ideal)) V (main_arg4 : DevRef τ sig) = V (main_arg4 : DevRef τ sig) := by
  after_results_simp

/-- From any memory with zero counters: every weakly fair execution of the reference terminates with the result buffer
    at the composed term of the argument arrays' launch contents, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v23) = refTerm (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run defs _ _).mono (fun _ h c => ⟨(h c main_v23).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

/-- The reference runs to the end, faults nowhere and leaves its arguments unchanged: the run with the result dropped. -/
theorem frame_ri : Cert.frame_ReferenceIdeal :=
  fun m ρ _ => (θ_run _ _ _).mono (fun _ h c => (h c).2) (run m ρ)

end Cert.ReferenceIdeal.RefRun

end
-- ==== Proof.KI.R0ValueBlk.lean ====
/-
  Where each input block of the first call sits in its array.

  At grid point t the x window's block is rows 1024·t … 1024·t + 1023 of the bf16 copy of x, all 1024 columns; the W
  window's block is the whole bf16 copy of W, and the two attention vectors' blocks are the whole vectors, at every
  point.  An element of a block sits in its array, on each axis, at the block index times the block's extent plus the
  element's coordinate inside the block; the block indices are the printed index maps, evaluated once over the eight
  grid points.
-/
import proofs.«113575_j54150947668287_2_alg».proof.Proof.KI.R0Dat
import Idealize.ShloMosaic.Lib.Pipeline.Value
import Idealize.ShloMosaic.Lib.ValueIdx

noncomputable section

namespace Cert.KernelIdeal.Region0V

open Cert.KernelIdeal Cert.KernelIdeal.Gen Cert.KernelIdeal.Region0
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of the body's whole-buffer rectangles, however spelt. -/
theorem hz : (![0, 0] : Fin 2 → Nat) = fun _ => 0 := funext fun a => by fin_cases a <;> rfl

/-- The seven windows' arrays. -/
theorem arrRef0 : Pipeline.arrRef spec0 0 = main_v0 ∧ Pipeline.arrRef spec0 1 = main_v1 ∧ Pipeline.arrRef spec0 2 = main_arg3
    ∧ Pipeline.arrRef spec0 3 = main_arg4 ∧ Pipeline.arrRef spec0 4 = main_v2_0 ∧ Pipeline.arrRef spec0 5 = main_v2_1
    ∧ Pipeline.arrRef spec0 6 = main_v2_2 := ⟨rfl, rfl, rfl, rfl, rfl, rfl, rfl⟩

/-- The printed index maps over the grid: the x window and the three output windows sit at row block t, column block 0;
    W and the two attention vectors at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The x block at point t, entry y, is the x array at row 1024·t + y₀, column y₁. -/
theorem xblk_apply (c : Dev nD) (t : Fin cfg0.N) (y : S1024x1024.Idx) (i : S8192x1024.Idx)
    (h0 : (i 0).val = t.val * 1024 + (y 0).val) (h1 : (i 1).val = (y 1).val) :
    (iblk0 V c 0 t : Vec Ideal S1024x1024 .bf16) y = (V c main_v0 : S8192x1024.Idx → EReal) i := by
  obtain ⟨e0, e1, -⟩ := idx_facts t
  unfold iblk0
  rw [View.read_apply]
  show (V c main_v0 : S8192x1024.Idx → EReal) _ = _
  congr 1
  funext a
  apply Fin.ext
  match a with
  | ⟨0, _⟩ => show win0_0.index t (0 : Fin 2) * 1024 + 1 * (y 0).val = (i 0).val; rw [e0, h0]; omega
  | ⟨1, _⟩ => show win0_0.index t (1 : Fin 2) * 1024 + 1 * (y 1).val = (i 1).val; rw [e1, h1]; omega

/-- The W block at every point is the W array. -/
theorem wblk_apply (c : Dev nD) (t : Fin cfg0.N) (y : S1024x1024.Idx) :
    (iblk0 V c 1 t : Vec Ideal S1024x1024 .bf16) y = (V c main_v1 : S1024x1024.Idx → EReal) y := by
  obtain ⟨-, -, e0, e1, -⟩ := idx_facts t
  unfold iblk0
  rw [View.read_apply]
  show (V c main_v1 : S1024x1024.Idx → EReal) _ = _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-- The first attention vector's block at every point is the vector. -/
theorem a1blk_apply (c : Dev nD) (t : Fin cfg0.N) (y : S1024x1.Idx) :
    (iblk0 V c 2 t : Vec Ideal S1024x1 .f32) y = (V c main_arg3 : S1024x1.Idx → EReal) y := by
  obtain ⟨-, -, -, -, e0, e1, -⟩ := idx_facts t
  unfold iblk0
  rw [View.read_apply]
  show (V c main_arg3 : S1024x1.Idx → EReal) _ = _
  congr 1
  funext a
  apply Fin.ext
  match a with
  | ⟨0, _⟩ => show win0_2.index t (0 : Fin 2) * 1024 + 1 * (y 0).val = (y 0).val; rw [e0]; omega
  | ⟨1, _⟩ => show win0_2.index t (1 : Fin 2) * 1 + 1 * (y 1).val = (y 1).val; rw [e1]; omega

/-- The second attention vector's block at every point is the vector. -/
theorem a2blk_apply (c : Dev nD) (t : Fin cfg0.N) (y : S1024x1.Idx) :
    (iblk0 V c 3 t : Vec Ideal S1024x1 .f32) y = (V c main_arg4 : S1024x1.Idx → EReal) y := by
  obtain ⟨-, -, -, -, -, -, e0, e1, -⟩ := idx_facts t
  unfold iblk0
  rw [View.read_apply]
  show (V c main_arg4 : S1024x1.Idx → EReal) _ = _
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 1 + 1 * (y 1).val = (y 1).val; rw [e1]; omega

end Cert.KernelIdeal.Region0V

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.LibMatmulRows.lean ====
/-
  The product of an [M, K] array with a [K, N] array, read at one entry.

  Both spellings of the product contract the left operand's second axis with the right operand's first and keep the
  left operand's rows and the right operand's columns as the result's two axes.  On the extended reals the entry in
  row p and column q is then the sum over the shared coordinate k of (left at (p, k)) times (right at (k, q)) — for
  the kernel's product into a zero accumulator and for the host's general product alike, whatever M, K and N are.
  A product computed a block of rows at a time therefore has the same entries as the product of the whole arrays.
-/
import proofs.«113575_j54150947668287_2_alg».proof.Proof.LibDotRead

noncomputable section

namespace Cert.MatmulRows

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0])
  (hln : d.lhsNonContracting = [0]) (hrn : d.rhsNonContracting = [1])
  (hlb : d.lhsBatch = []) (hrb : d.rhsBatch = [])

include hlc in
theorem contr_rank : d.contr.rank = 1 := Cert.DotRead.contr_rank_one d hlc

include hlc in
theorem contr_size : d.contr.size ⟨0, by rw [contr_rank d hlc]; exact Nat.one_pos⟩ = K :=
  Cert.DotRead.contr_size_one d hlc

include hlc hln hlb in
/-- The left operand is read in the result's row, at the shared coordinate. -/
theorem lhs_read (p : Fin M) (q : Fin N) (k : Fin K) :
    d.lhsIdx (ix2 p q) ((contrEquiv1 d K (contr_rank d hlc) (contr_size d hlc)).symm k) = ix2 p k := by
  funext a
  apply Fin.ext
  match a with
  | ⟨0, _⟩ =>
    exact Cert.DotRead.lhs_free_val d (ix2 p q) _ 0 (by rw [hlb]; exact List.not_mem_nil) (by rw [hln]; exact List.mem_singleton.mpr rfl)
      0 (by rw [hlb, hln]; rfl)
  | ⟨1, _⟩ => exact Cert.DotRead.lhs_contr_val d K (contr_rank d hlc) (contr_size d hlc) hlc (ix2 p q) k

include hlc hrc hln hrn hlb hrb in
/-- The right operand is read at the shared coordinate, in the result's column. -/
theorem rhs_read (p : Fin M) (q : Fin N) (k : Fin K) :
    d.rhsIdx (ix2 p q) ((contrEquiv1 d K (contr_rank d hlc) (contr_size d hlc)).symm k) = ix2 k q := by
  funext a
  apply Fin.ext
  match a with
  | ⟨0, _⟩ => exact Cert.DotRead.rhs_contr_val d K (contr_rank d hlc) (contr_size d hlc) hrc (ix2 p q) k
  | ⟨1, _⟩ =>
    exact Cert.DotRead.rhs_free_val d (ix2 p q) _ 1 (by rw [hrb]; exact List.not_mem_nil) (by rw [hrn]; exact List.mem_singleton.mpr rfl)
      1 (by rw [hlb, hln, hrn]; rfl)

include hlc hrc hln hrn hlb hrb in
/-- The kernel's product into a zero accumulator, entry (p, q). -/
theorem matmul_zero_ix2 {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, lhs (ix2 p k) * rhs (ix2 k q) :=
  Cert.DotRead.matmul_zero_read d K (contr_rank d hlc) (contr_size d hlc) prec lhs rhs (ix2 p q) (fun k => ix2 p k) (fun k => ix2 k q)
    (lhs_read d hlc hln hlb p q) (rhs_read d hlc hrc hln hrn hlb hrb p q)

include hlc hrc hln hrn hlb hrb in
/-- The host's general product, entry (p, q). -/
theorem dotGeneral_ix2 {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q) = ∑ k : Fin K, lhs (ix2 p k) * rhs (ix2 k q) :=
  Cert.DotRead.dotGeneral_read d K (contr_rank d hlc) (contr_size d hlc) prec sched lhs rhs (ix2 p q) (fun k => ix2 p k) (fun k => ix2 k q)
    (lhs_read d hlc hln hlb p q) (rhs_read d hlc hrc hln hrn hlb hrb p q)

end Cert.MatmulRows

end
-- ==== Proof.KI.R0ValuePay.lean ====
/-
  The three stores of the first call's body, read at one entry on the extended reals.

  The h block's entry (p, q) is the sum over the 1024 shared features k of (x block at (p, k)) times (W at (k, q)):
  the product accumulates into zero, and the change of format to bf16 is the identity on extended reals.  The f1 and
  f2 columns' entry p is the sum over k of that h entry (p, k) times the attention vector's entry k, the vector's
  own change of format being the identity as well.
-/
import proofs.«113575_j54150947668287_2_alg».proof.Proof.Gen.KernelIdeal.Skeleton
import proofs.«113575_j54150947668287_2_alg».proof.Proof.LibMatmulRows
import Idealize.ShloMosaic.Lib.Pipeline.Value
import Idealize.ShloMosaic.Lib.ValueIdx

noncomputable section

namespace Cert.KernelIdeal.Region0V

open Cert.KernelIdeal Cert.KernelIdeal.Gen
open Idealize.ShloMosaic Idealize.ShloMosaic.ValueIdx

/-- Entry (p, q) of the h block: row p of the x block against column q of W. -/
theorem payH_apply (x0 x1 : Vec Ideal S1024x1024 .bf16) (p q : Fin 1024) :
    k0_pay1 x0 x1 (ix2 p q) = ∑ k : Fin 1024, x0 (ix2 p k) * x1 (ix2 k q) := by
  unfold k0_pay1
  rw [shapeCast_self, shapeCast_self]
  exact Cert.MatmulRows.matmul_zero_ix2 (φ₁ := .bf16) (φ₂ := .bf16) dot_S1024x1024_S1024x1024_S1024x1024_1_0_0_1_n_n rfl rfl rfl rfl rfl rfl none x0 x1 p q

/-- Entry p of the f1 column: row p of the h block against the first attention vector. -/
theorem payF1_apply (x0 x1 : Vec Ideal S1024x1024 .bf16) (x2 : Vec Ideal S1024x1 .f32) (p : Fin 1024) (z : Fin 1) :
    k0_pay2 x0 x1 x2 (ix2 p z)
      = ∑ k : Fin 1024, (∑ k' : Fin 1024, x0 (ix2 p k') * x1 (ix2 k' k)) * x2 (ix2 k z) := by
  unfold k0_pay2
  refine (Cert.MatmulRows.matmul_zero_ix2 (φ₁ := .bf16) (φ₂ := .bf16) dot_S1024x1024_S1024x1_S1024x1_1_0_0_1_n_n rfl rfl rfl rfl rfl rfl none
    (k0_pay1 x0 x1) (truncf .bf16 x2 bitsLt_bf16_f32) p z).trans ?_
  refine Finset.sum_congr rfl fun k _ => ?_
  rw [payH_apply]
  rfl

/-- Entry p of the f2 column: row p of the h block against the second attention vector. -/
theorem payF2_apply (x0 x1 : Vec Ideal S1024x1024 .bf16) (x3 : Vec Ideal S1024x1 .f32) (p : Fin 1024) (z : Fin 1) :
    k0_pay3 x0 x1 x3 (ix2 p z)
      = ∑ k : Fin 1024, (∑ k' : Fin 1024, x0 (ix2 p k') * x1 (ix2 k' k)) * x3 (ix2 k z) := by
  unfold k0_pay3
  refine (Cert.MatmulRows.matmul_zero_ix2 (φ₁ := .bf16) (φ₂ := .bf16) dot_S1024x1024_S1024x1_S1024x1_1_0_0_1_n_n rfl rfl rfl rfl rfl rfl none
    (k0_pay1 x0 x1) (truncf .bf16 x3 bitsLt_bf16_f32) p z).trans ?_
  refine Finset.sum_congr rfl fun k _ => ?_
  rw [payH_apply]
  rfl

end Cert.KernelIdeal.Region0V

end
-- ==== Proof.KI.R0ValueH.lean ====
/-
  The h array after the first call, as one function of the bf16 copies of x and W.

  Entry (p, q) of h is the sum over the 1024 input features k of x at (p, k) times W at (k, q).  The point that
  writes row p is the one whose row block holds it, p / 1024: its h block's entry is the product of its x block's
  row with W's column, its x block is rows 1024·t … 1024·t + 1023 of x, and what it writes back is therefore its block
  of that one function.  The eight row blocks cover all 8192 rows, so the array ends holding the function everywhere.
-/
import proofs.«113575_j54150947668287_2_alg».proof.Proof.KI.R0ValueBlk
import proofs.«113575_j54150947668287_2_alg».proof.Proof.KI.R0ValuePay

noncomputable section

namespace Cert.KernelIdeal.Region0V

open Cert.KernelIdeal Cert.KernelIdeal.Gen Cert.KernelIdeal.Region0
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The product of an [8192, 1024] array with a [1024, 1024] array, entry by entry. -/
def GH (a0 : S8192x1024.Idx → EReal) (a1 : S1024x1024.Idx → EReal) : S8192x1024.Idx → EReal :=
  fun i => ∑ k : Fin 1024, a0 (ix2 (n0 := 8192) (i 0) k) * a1 (ix2 (n1 := 1024) k (i 1))

theorem GH_ix2 (a0 : S8192x1024.Idx → EReal) (a1 : S1024x1024.Idx → EReal) (p : Fin 8192) (q : Fin 1024) :
    GH a0 a1 (ix2 p q) = ∑ k : Fin 1024, a0 (ix2 p k) * a1 (ix2 k q) := rfl

/-- One entry of a point's h block: when the point's x block is the rows from 1024·T of an array A0 and its W block is
    an array A1, the entry y of the block is the product's entry at row 1024·T + y₀, column y₁. -/
theorem hblk_entry (x0 x1 : Vec Ideal S1024x1024 .bf16) (A0 : S8192x1024.Idx → EReal) (A1 : S1024x1024.Idx → EReal)
    (T : Nat) (y : S1024x1024.Idx) (i : S8192x1024.Idx)
    (hi0 : (i 0).val = T * 1024 + (y 0).val) (hi1 : (i 1).val = (y 1).val)
    (hx0 : ∀ (y' : S1024x1024.Idx) (i' : S8192x1024.Idx), (i' 0).val = T * 1024 + (y' 0).val → (i' 1).val = (y' 1).val → x0 y' = A0 i')
    (hx1 : ∀ y' : S1024x1024.Idx, x1 y' = A1 y') :
    k0_pay1 x0 x1 y = GH A0 A1 i := by
  obtain ⟨p, q, rfl⟩ : ∃ (p q : Fin 1024), y = ix2 p q := ⟨y 0, y 1, eq_ix2 y⟩
  obtain ⟨r, s, rfl⟩ : ∃ (r : Fin 8192) (s : Fin 1024), i = ix2 r s := ⟨i 0, i 1, eq_ix2 i⟩
  obtain rfl : s = q := Fin.ext hi1
  rw [payH_apply, GH_ix2]
  refine Finset.sum_congr rfl fun k _ => ?_
  rw [hx0 (ix2 p k) (ix2 r k) hi0 rfl, hx1]

/-- What point t writes back to the h array is its block of the product of the x and W arrays. -/
theorem flushedH (c : Dev nD) (t : Fin cfg0.N) :
    (dat0 (F := Ideal) V c).flushed 4 t
      = ((cfg0.win 4).blk t).view.read (Elt Ideal) (GH (V c main_v0) (V c main_v1)) := by
  show (cfg0.win 4).cut (grid0.coords t) ((dat0 (F := Ideal) V c).after 4 t) = _
  rw [after0_4]
  unfold outH
  rw [View.canon_unit_zero hz]
  simp only [View.ld_unit_zero (S := S1024x1024) hz]
  obtain ⟨-, -, -, -, -, -, -, -, e0, e1, -⟩ := idx_facts t
  funext j
  show k0_pay1 (iblk0 V c 0 t) (iblk0 V c 1 t) j = GH (V c main_v0) (V c main_v1) (((cfg0.win 4).blk t).view.emb j)
  refine hblk_entry (iblk0 V c 0 t) (iblk0 V c 1 t) _ _ t.val j _ ?_ ?_
    (fun y' i' h0 h1 => xblk_apply V c t y' i' h0 h1) (fun y' => wblk_apply V c t y')
  · show win0_4.index t (0 : Fin 2) * 1024 + 1 * (j 0).val = t.val * 1024 + (j 0).val
    rw [e0]; omega
  · show win0_4.index t (1 : Fin 2) * 1024 + 1 * (j 1).val = (j 1).val
    rw [e1]; omega

/-- Every entry of the h array is in the block of the point that holds its row. -/
theorem coverH (i : S8192x1024.Idx) :
    ∃ t : Fin cfg0.N, (cfg0.win 4).flush t = true ∧ i ∈ ((cfg0.win 4).blk t).view.set := by
  have hi0 : (i 0).val < 8192 := idx2_lt0 i
  have hi1 : (i 1).val < 1024 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, e0, e1, -⟩ := idx_facts t
  refine ⟨t, flush0_4 t, ?_⟩
  show i ∈ ((View.whole main_v2_0).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 1024 ≤ (i 1).val ∧ (i 1).val < win0_4.index t (1 : Fin 2) * 1024 + 1024
    rw [e1]; omega

/-- The h array after the region: the product of the x and W arrays as the region finds them. -/
theorem h_array (c : Dev nD) :
    (dat0 (F := Ideal) V c).arrAt 4 cfg0.N = GH (V c main_v0) (V c main_v1) :=
  (dat0 (F := Ideal) V c).arrAt_eq_of_cover 4 (GH (V c main_v0) (V c main_v1)) (fun t _ => flushedH V c t) coverH

/-- Entry by entry, with the two input arrays named: entry (p, q) is the sum over k of x at (p, k) times W at (k, q). -/
theorem h_final (c : Dev nD) (A0 : S8192x1024.Idx → EReal) (A1 : S1024x1024.Idx → EReal)
    (h0 : V c main_v0 = A0) (h1 : V c main_v1 = A1) (p : Fin 8192) (q : Fin 1024) :
    ((dat0 (F := Ideal) V c).arrAt 4 cfg0.N : S8192x1024.Idx → EReal) (ix2 p q)
      = ∑ k : Fin 1024, A0 (ix2 p k) * A1 (ix2 k q) := by
  rw [h_array, h0, h1]
  rfl

end Cert.KernelIdeal.Region0V

end
-- ==== Proof.KI.R0ValueF.lean ====
/-
  The f1 and f2 columns after the first call, as functions of the bf16 copies of x and W and of the two attention
  vectors.

  Entry p of f1 is the sum over the 1024 features k of (the h entry (p, k), itself the sum over k' of x at (p, k') times
  W at (k', k)) times a1 at k; f2 likewise with a2.  The point that writes row p is p / 1024; its column block's entry
  is the product of its h block's row with the vector, the vector's block being the whole vector at every point, so
  what it writes back is its block of that one column, and the eight row blocks cover all 8192 rows.
-/
import proofs.«113575_j54150947668287_2_alg».proof.Proof.KI.R0ValueBlk
import proofs.«113575_j54150947668287_2_alg».proof.Proof.KI.R0ValuePay

noncomputable section

namespace Cert.KernelIdeal.Region0V

open Cert.KernelIdeal Cert.KernelIdeal.Gen Cert.KernelIdeal.Region0
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The column (a0 · a1) · a2 of an [8192, 1024] array, a [1024, 1024] array and a [1024, 1] vector, entry by entry. -/
def GF (a0 : S8192x1024.Idx → EReal) (a1 : S1024x1024.Idx → EReal) (a2 : S1024x1.Idx → EReal) : S8192x1.Idx → EReal :=
  fun i => ∑ k : Fin 1024, (∑ k' : Fin 1024, a0 (ix2 (n0 := 8192) (i 0) k') * a1 (ix2 k' k)) * a2 (ix2 (n1 := 1) k (i 1))

theorem GF_ix2 (a0 : S8192x1024.Idx → EReal) (a1 : S1024x1024.Idx → EReal) (a2 : S1024x1.Idx → EReal) (p : Fin 8192) (z : Fin 1) :
    GF a0 a1 a2 (ix2 p z) = ∑ k : Fin 1024, (∑ k' : Fin 1024, a0 (ix2 p k') * a1 (ix2 k' k)) * a2 (ix2 k z) := rfl

/-- One entry of a point's f1 block: with the x block the rows from 1024·T of A0, the W block A1 and the vector's
    block A2, the entry y is the column's entry at row 1024·T + y₀. -/
theorem f1blk_entry (x0 x1 : Vec Ideal S1024x1024 .bf16) (x2 : Vec Ideal S1024x1 .f32)
    (A0 : S8192x1024.Idx → EReal) (A1 : S1024x1024.Idx → EReal) (A2 : S1024x1.Idx → EReal)
    (T : Nat) (y : S1024x1.Idx) (i : S8192x1.Idx)
    (hi0 : (i 0).val = T * 1024 + (y 0).val) (hi1 : (i 1).val = (y 1).val)
    (hx0 : ∀ (y' : S1024x1024.Idx) (i' : S8192x1024.Idx), (i' 0).val = T * 1024 + (y' 0).val → (i' 1).val = (y' 1).val → x0 y' = A0 i')
    (hx1 : ∀ y' : S1024x1024.Idx, x1 y' = A1 y') (hx2 : ∀ y' : S1024x1.Idx, x2 y' = A2 y') :
    k0_pay2 x0 x1 x2 y = GF A0 A1 A2 i := by
  obtain ⟨p, z, rfl⟩ : ∃ (p : Fin 1024) (z : Fin 1), y = ix2 p z := ⟨y 0, y 1, eq_ix2 y⟩
  obtain ⟨r, s, rfl⟩ : ∃ (r : Fin 8192) (s : Fin 1), i = ix2 r s := ⟨i 0, i 1, eq_ix2 i⟩
  obtain rfl : s = z := Fin.ext hi1
  rw [payF1_apply, GF_ix2]
  refine Finset.sum_congr rfl fun k _ => ?_
  rw [hx2]
  refine congrArg (· * A2 (ix2 k s)) ?_
  refine Finset.sum_congr rfl fun k' _ => ?_
  rw [hx0 (ix2 p k') (ix2 r k') hi0 rfl, hx1]

/-- What point t writes back to the f1 array is its block of that column of the x, W and first attention vector's arrays. -/
theorem flushedF1 (c : Dev nD) (t : Fin cfg0.N) :
    (dat0 (F := Ideal) V c).flushed 5 t
      = ((cfg0.win 5).blk t).view.read (Elt Ideal) (GF (V c main_v0) (V c main_v1) (V c main_arg3)) := by
  show (cfg0.win 5).cut (grid0.coords t) ((dat0 (F := Ideal) V c).after 5 t) = _
  rw [after0_5]
  unfold outF1
  rw [View.canon_unit_zero hz]
  simp only [View.ld_unit_zero (S := S1024x1024) hz, View.ld_unit_zero (S := S1024x1) hz]
  obtain ⟨-, -, -, -, -, -, -, -, -, -, e0, e1, -⟩ := idx_facts t
  funext j
  show k0_pay2 (iblk0 V c 0 t) (iblk0 V c 1 t) (iblk0 V c 2 t) j
    = GF (V c main_v0) (V c main_v1) (V c main_arg3) (((cfg0.win 5).blk t).view.emb j)
  refine f1blk_entry (iblk0 V c 0 t) (iblk0 V c 1 t) (iblk0 V c 2 t) _ _ _ t.val j _ ?_ ?_
    (fun y' i' h0 h1 => xblk_apply V c t y' i' h0 h1) (fun y' => wblk_apply V c t y') (fun y' => a1blk_apply V c t y')
  · show win0_5.index t (0 : Fin 2) * 1024 + 1 * (j 0).val = t.val * 1024 + (j 0).val
    rw [e0]; omega
  · show win0_5.index t (1 : Fin 2) * 1 + 1 * (j 1).val = (j 1).val
    rw [e1]; omega

/-- Every entry of the f1 array is in the block of the point that holds its row. -/
theorem coverF1 (i : S8192x1.Idx) :
    ∃ t : Fin cfg0.N, (cfg0.win 5).flush t = true ∧ i ∈ ((cfg0.win 5).blk t).view.set := by
  have hi0 : (i 0).val < 8192 := idx2_lt0 i
  have hi1 : (i 1).val < 1 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, -, e0, e1, -⟩ := idx_facts t
  refine ⟨t, flush0_5 t, ?_⟩
  show i ∈ ((View.whole main_v2_1).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 1 ≤ (i 1).val ∧ (i 1).val < win0_5.index t (1 : Fin 2) * 1 + 1
    rw [e1]; omega

/-- The f1 array after the region. -/
theorem f1_array (c : Dev nD) :
    (dat0 (F := Ideal) V c).arrAt 5 cfg0.N = GF (V c main_v0) (V c main_v1) (V c main_arg3) :=
  (dat0 (F := Ideal) V c).arrAt_eq_of_cover 5 (GF (V c main_v0) (V c main_v1) (V c main_arg3)) (fun t _ => flushedF1 V c t) coverF1

/-- Entry by entry, with the three input arrays named: entry p is the sum over k of the h entry (p, k) times the vector at k. -/
theorem f1_final (c : Dev nD) (A0 : S8192x1024.Idx → EReal) (A1 : S1024x1024.Idx → EReal) (A2 : S1024x1.Idx → EReal)
    (h0 : V c main_v0 = A0) (h1 : V c main_v1 = A1) (h2 : V c main_arg3 = A2) (p : Fin 8192) (z : Fin 1) :
    ((dat0 (F := Ideal) V c).arrAt 5 cfg0.N : S8192x1.Idx → EReal) (ix2 p z)
      = ∑ k : Fin 1024, (∑ k' : Fin 1024, A0 (ix2 p k') * A1 (ix2 k' k)) * A2 (ix2 k z) := by
  rw [f1_array, h0, h1, h2]
  rfl

/-- One entry of a point's f2 block: with the x block the rows from 1024·T of A0, the W block A1 and the vector's
    block A2, the entry y is the column's entry at row 1024·T + y₀. -/
theorem f2blk_entry (x0 x1 : Vec Ideal S1024x1024 .bf16) (x2 : Vec Ideal S1024x1 .f32)
    (A0 : S8192x1024.Idx → EReal) (A1 : S1024x1024.Idx → EReal) (A2 : S1024x1.Idx → EReal)
    (T : Nat) (y : S1024x1.Idx) (i : S8192x1.Idx)
    (hi0 : (i 0).val = T * 1024 + (y 0).val) (hi1 : (i 1).val = (y 1).val)
    (hx0 : ∀ (y' : S1024x1024.Idx) (i' : S8192x1024.Idx), (i' 0).val = T * 1024 + (y' 0).val → (i' 1).val = (y' 1).val → x0 y' = A0 i')
    (hx1 : ∀ y' : S1024x1024.Idx, x1 y' = A1 y') (hx2 : ∀ y' : S1024x1.Idx, x2 y' = A2 y') :
    k0_pay3 x0 x1 x2 y = GF A0 A1 A2 i := by
  obtain ⟨p, z, rfl⟩ : ∃ (p : Fin 1024) (z : Fin 1), y = ix2 p z := ⟨y 0, y 1, eq_ix2 y⟩
  obtain ⟨r, s, rfl⟩ : ∃ (r : Fin 8192) (s : Fin 1), i = ix2 r s := ⟨i 0, i 1, eq_ix2 i⟩
  obtain rfl : s = z := Fin.ext hi1
  rw [payF2_apply, GF_ix2]
  refine Finset.sum_congr rfl fun k _ => ?_
  rw [hx2]
  refine congrArg (· * A2 (ix2 k s)) ?_
  refine Finset.sum_congr rfl fun k' _ => ?_
  rw [hx0 (ix2 p k') (ix2 r k') hi0 rfl, hx1]

/-- What point t writes back to the f2 array is its block of that column of the x, W and second attention vector's arrays. -/
theorem flushedF2 (c : Dev nD) (t : Fin cfg0.N) :
    (dat0 (F := Ideal) V c).flushed 6 t
      = ((cfg0.win 6).blk t).view.read (Elt Ideal) (GF (V c main_v0) (V c main_v1) (V c main_arg4)) := by
  show (cfg0.win 6).cut (grid0.coords t) ((dat0 (F := Ideal) V c).after 6 t) = _
  rw [after0_6]
  unfold outF2
  rw [View.canon_unit_zero hz]
  simp only [View.ld_unit_zero (S := S1024x1024) hz, View.ld_unit_zero (S := S1024x1) hz]
  obtain ⟨-, -, -, -, -, -, -, -, -, -, -, -, e0, e1⟩ := idx_facts t
  funext j
  show k0_pay3 (iblk0 V c 0 t) (iblk0 V c 1 t) (iblk0 V c 3 t) j
    = GF (V c main_v0) (V c main_v1) (V c main_arg4) (((cfg0.win 6).blk t).view.emb j)
  refine f2blk_entry (iblk0 V c 0 t) (iblk0 V c 1 t) (iblk0 V c 3 t) _ _ _ t.val j _ ?_ ?_
    (fun y' i' h0 h1 => xblk_apply V c t y' i' h0 h1) (fun y' => wblk_apply V c t y') (fun y' => a2blk_apply V c t y')
  · show win0_6.index t (0 : Fin 2) * 1024 + 1 * (j 0).val = t.val * 1024 + (j 0).val
    rw [e0]; omega
  · show win0_6.index t (1 : Fin 2) * 1 + 1 * (j 1).val = (j 1).val
    rw [e1]; omega

/-- Every entry of the f2 array is in the block of the point that holds its row. -/
theorem coverF2 (i : S8192x1.Idx) :
    ∃ t : Fin cfg0.N, (cfg0.win 6).flush t = true ∧ i ∈ ((cfg0.win 6).blk t).view.set := by
  have hi0 : (i 0).val < 8192 := idx2_lt0 i
  have hi1 : (i 1).val < 1 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, -, -, -, e0, e1⟩ := idx_facts t
  refine ⟨t, flush0_6 t, ?_⟩
  show i ∈ ((View.whole main_v2_2).slice (win0_6.rect t)).set
  rw [View.set_slice_whole, Rect.mem_set_unit]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 1 ≤ (i 1).val ∧ (i 1).val < win0_6.index t (1 : Fin 2) * 1 + 1
    rw [e1]; omega

/-- The f2 array after the region. -/
theorem f2_array (c : Dev nD) :
    (dat0 (F := Ideal) V c).arrAt 6 cfg0.N = GF (V c main_v0) (V c main_v1) (V c main_arg4) :=
  (dat0 (F := Ideal) V c).arrAt_eq_of_cover 6 (GF (V c main_v0) (V c main_v1) (V c main_arg4)) (fun t _ => flushedF2 V c t) coverF2

/-- Entry by entry, with the three input arrays named: entry p is the sum over k of the h entry (p, k) times the vector at k. -/
theorem f2_final (c : Dev nD) (A0 : S8192x1024.Idx → EReal) (A1 : S1024x1024.Idx → EReal) (A2 : S1024x1.Idx → EReal)
    (h0 : V c main_v0 = A0) (h1 : V c main_v1 = A1) (h2 : V c main_arg4 = A2) (p : Fin 8192) (z : Fin 1) :
    ((dat0 (F := Ideal) V c).arrAt 6 cfg0.N : S8192x1.Idx → EReal) (ix2 p z)
      = ∑ k : Fin 1024, (∑ k' : Fin 1024, A0 (ix2 p k') * A1 (ix2 k' k)) * A2 (ix2 k z) := by
  rw [f2_array, h0, h1, h2]
  rfl

end Cert.KernelIdeal.Region0V

end
-- ==== Proof.KI.Link.lean ====
/-
  What region 1 finds in its input arrays, in terms of the launch arguments, at the ideal instance. The first host
  stretch casts x and W to bf16 (the identity on extended reals); region 0 leaves h = x·W, f1 = h·a1, f2 = h·a2 in its
  three output arrays; the second host stretch reshapes the f2 column [8192,1] into a row [1,8192] (same row-major
  position). So region 1 is entered with h at entry (j,q) the sum over k of x(j,k)·W(k,q), f1 at (p,0) and the f2 row
  at (0,j) the corresponding sums against a1 and a2, and the adjacency array as launched.
-/
import proofs.«113575_j54150947668287_2_alg».proof.Proof.KI.Run
import proofs.«113575_j54150947668287_2_alg».proof.Proof.KI.R0ValueH
import proofs.«113575_j54150947668287_2_alg».proof.Proof.KI.R0ValueF

set_option maxRecDepth 16384

noncomputable section

namespace Cert.KernelIdeal.Link

open Cert.KernelIdeal Cert.KernelIdeal.Gen
open Idealize.ShloMosaic Idealize.ShloMosaic.TcCoe Idealize.ShloMosaic.ValueIdx
open Idealize.SL Idealize.SL.Sem
open Cert.KernelIdeal.Region0 Cert.KernelIdeal.Region1 Cert.KernelIdeal.Region0V

section AnyInstance
variable {F : FTy → Type} [FloatOps F]
variable (m : (ℓ : Loc nD τ sig) → Buf (Elt F) ℓ) (ρ : Dev nD → PrngReg)

theorem V1_v0 (c : Dev nD) : (Run.V1 m ρ c main_v0 : S8192x1024.Idx → Elt F .bf16) = truncf .bf16 (m ((c : Thread nD τ).loc main_arg0) : S8192x1024.Idx → Elt F .f32) bitsLt_bf16_f32 := by
  dsimp only [Run.V1, Run.W1, hostOps0]; after_results
theorem V1_v1 (c : Dev nD) : (Run.V1 m ρ c main_v1 : S1024x1024.Idx → Elt F .bf16) = truncf .bf16 (m ((c : Thread nD τ).loc main_arg2) : S1024x1024.Idx → Elt F .f32) bitsLt_bf16_f32 := by
  dsimp only [Run.V1, Run.W1, hostOps0]; after_results
theorem V1_arg3 (c : Dev nD) : Run.V1 m ρ c main_arg3 = m ((c : Thread nD τ).loc main_arg3) :=
  StableHlo.after_of_writes_sub hostOps0 _ hostOps0_writes (by decide : (main_arg3 : Ref sig .tc) ∉ hostOps0_W)
theorem V1_arg4 (c : Dev nD) : Run.V1 m ρ c main_arg4 = m ((c : Thread nD τ).loc main_arg4) :=
  StableHlo.after_of_writes_sub hostOps0 _ hostOps0_writes (by decide : (main_arg4 : Ref sig .tc) ∉ hostOps0_W)
theorem V3_v3 (c : Dev nD) : (Run.V3 m ρ c main_v3 : S1x8192.Idx → Elt F .f32) = shapeCast S1x8192 (Run.W2 m ρ c (Proc.devRef .tc main_v2_2) : S8192x1.Idx → Elt F .f32) shapeCasts_S8192x1_S1x8192 := by
  dsimp only [Run.V3, Run.W3, hostOps1]; after_results; rfl
theorem V3_v2_0 (c : Dev nD) : Run.V3 m ρ c main_v2_0 = Run.W2 m ρ c (Proc.devRef .tc main_v2_0) :=
  StableHlo.after_of_writes_sub hostOps1 _ hostOps1_writes (by decide : (main_v2_0 : Ref sig .tc) ∉ hostOps1_W)
theorem V3_v2_1 (c : Dev nD) : Run.V3 m ρ c main_v2_1 = Run.W2 m ρ c (Proc.devRef .tc main_v2_1) :=
  StableHlo.after_of_writes_sub hostOps1 _ hostOps1_writes (by decide : (main_v2_1 : Ref sig .tc) ∉ hostOps1_W)
theorem V3_arg1 (c : Dev nD) : Run.V3 m ρ c main_arg1 = m ((c : Thread nD τ).loc main_arg1) :=
  (StableHlo.after_of_writes_sub hostOps1 _ hostOps1_writes (by decide : (main_arg1 : Ref sig .tc) ∉ hostOps1_W)).trans
    ((Run.W2_of_ne m ρ c main_arg1 (by decide)).trans (StableHlo.after_of_writes_sub hostOps0 _ hostOps0_writes (by decide : (main_arg1 : Ref sig .tc) ∉ hostOps0_W)))
end AnyInstance

variable (m : (ℓ : Loc nD τ sig) → Buf (Elt Ideal) ℓ) (ρ : Dev nD → PrngReg)

/-- h as region 1 finds it: x·W of the launch arguments. -/
theorem h_in (c : Dev nD) : (Run.V3 m ρ c main_v2_0 : S8192x1024.Idx → EReal)
    = GH (m ((c : Thread nD τ).loc main_arg0)) (m ((c : Thread nD τ).loc main_arg2)) := by
  refine (V3_v2_0 m ρ c).trans ((Run.W2_arr m ρ c 4).trans ((h_array (Run.V1 m ρ) c).trans ?_))
  rw [V1_v0, V1_v1]; rfl

/-- f1 as region 1 finds it: (x·W)·a1. -/
theorem f1_in (c : Dev nD) : (Run.V3 m ρ c main_v2_1 : S8192x1.Idx → EReal)
    = GF (m ((c : Thread nD τ).loc main_arg0)) (m ((c : Thread nD τ).loc main_arg2)) (m ((c : Thread nD τ).loc main_arg3)) := by
  refine (V3_v2_1 m ρ c).trans ((Run.W2_arr m ρ c 5).trans ((f1_array (Run.V1 m ρ) c).trans ?_))
  rw [V1_v0, V1_v1, V1_arg3]; rfl

/-- The f2 row as region 1 finds it: entry (0,j) is ((x·W)·a2) at row j. -/
theorem f2row_in (c : Dev nD) (j : Fin 8192) : (Run.V3 m ρ c main_v3 : S1x8192.Idx → EReal) (ix2 (0 : Fin 1) j)
    = GF (m ((c : Thread nD τ).loc main_arg0)) (m ((c : Thread nD τ).loc main_arg2)) (m ((c : Thread nD τ).loc main_arg4)) (ix2 j (0 : Fin 1)) := by
  rw [V3_v3]
  refine (shapeCast_apply _ _ (ix2 (0 : Fin 1) j) (ix2 j (0 : Fin 1)) ?_).trans ?_
  · rw [Shape.rowMajor_val_two, Shape.rowMajor_val_two]
    show j.val * 1 + 0 = 0 * 8192 + j.val
    omega
  · refine congrFun ((Run.W2_arr m ρ c 6).trans ((f2_array (Run.V1 m ρ) c).trans ?_)) _
    rw [V1_v0, V1_v1, V1_arg4]; rfl

end Cert.KernelIdeal.Link

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«113575_j54150947668287_2_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.Spec.lean ====
import Idealize.ShloMosaic.PureOps.Ideal

/-!
The shared specification of a dense graph-attention layer on extended reals:
the feature product, the two attention projections, the masked leaky-ReLU score,
the row softmax (max-shifted, quotient entry by entry) and the final ReLU.
-/

noncomputable section

namespace Cert.Spec
open Idealize.ShloMosaic
/-- h = x·W, row p, column q -/
def hrow (x : Fin 8192 → Fin 1024 → EReal) (W : Fin 1024 → Fin 1024 → EReal) (p : Fin 8192) (q : Fin 1024) : EReal := ∑ k : Fin 1024, x p k * W k q
/-- h·a for a column vector a -/
def fcol (h : Fin 8192 → Fin 1024 → EReal) (a : Fin 1024 → EReal) (p : Fin 8192) : EReal := ∑ k : Fin 1024, h p k * a k
/-- leaky ReLU as both programs spell it: compare e ≥ 0, else slope·e -/
def lrelu (slope e : EReal) : EReal := if Ideal.cmp .oge e 0 = 1#1 then e else slope * e
/-- masked score; msk is the elementwise result of the signed compare adj > 0 -/
def score (slope neg : EReal) (msk : Fin 8192 → Fin 8192 → BitVec 1) (f1 f2 : Fin 8192 → EReal) (i j : Fin 8192) : EReal :=
  if msk i j = 1#1 then lrelu slope (f1 i + f2 j) else neg
def rowMax (s : Fin 8192 → Fin 8192 → EReal) (i : Fin 8192) : EReal := Finset.univ.sup (s i)
def wexp (s : Fin 8192 → Fin 8192 → EReal) (i j : Fin 8192) : EReal := Ideal.exp (s i j - rowMax s i)
def rowSum (s : Fin 8192 → Fin 8192 → EReal) (i : Fin 8192) : EReal := ∑ j : Fin 8192, wexp s i j
/-- relu(softmax(s)·h) at (i,q), the quotient taken entry by entry as the reference does -/
def out (s : Fin 8192 → Fin 8192 → EReal) (h : Fin 8192 → Fin 1024 → EReal) (i : Fin 8192) (q : Fin 1024) : EReal :=
  max (∑ j : Fin 8192, Ideal.div (wexp s i j) (rowSum s i) * h j q) 0
end Cert.Spec
-- ==== Proof.RefValueOps.lean ====
/-
  The reference's stages read at one index.

  Each stage of the reference's composed term is read at an index built from explicit coordinates: the feature product
  and the two projections are sums over the shared axis; the pairwise sums, the leaky ReLU and the masked score are
  entrywise; the row maximum is the supremum of the row (a fold of the maximum from the bottom element, then the maximum with the
  bottom element once more); the shifted exponential, the row sum (from zero), the quotient and the final product with
  its maximum against zero follow the same pattern.
-/
import proofs.«113575_j54150947668287_2_alg».proof.Proof.RefRun
import proofs.«113575_j54150947668287_2_alg».proof.Proof.LibHostRowOps
import proofs.«113575_j54150947668287_2_alg».proof.Proof.Spec
import Idealize.ShloMosaic.Lib.ValueIdx
import Idealize.ShloMosaic.Lib.IdealHost

noncomputable section

namespace Cert.ReferenceIdeal.RefValue

open Cert.ReferenceIdeal Cert.ReferenceIdeal.Gen Cert.ReferenceIdeal.RefRun Idealize.ShloMosaic Idealize.ShloMosaic.ValueIdx

/-! ## Constants -/

/-- The word of negative infinity is the bottom element. -/
theorem ofBits_neg_inf : Ideal.ofBits .f32 0xFF800000#32 = (⊥ : EReal) := by
  simp [Ideal.ofBits, Ideal.ieee]

/-- A fold of the maximum from the bottom element is the supremum. -/
theorem fold_max_bot {ι : Type} (s : Finset ι) (f : ι → EReal) : s.fold max (⊥ : EReal) f = s.sup f := rfl

/-! ## The three products -/

theorem plain1 : RowOps.IsPlain dot_S8192x1024_S1024x1024_S8192x1024_1_0_0_1_n_n := ⟨rfl, rfl, rfl, rfl, rfl, rfl⟩
theorem plain2 : RowOps.IsPlain dot_S8192x1024_S1024x1_S8192x1_1_0_0_1_n_n := ⟨rfl, rfl, rfl, rfl, rfl, rfl⟩
theorem plain3 : RowOps.IsPlain dot_S8192x8192_S8192x1024_S8192x1024_1_0_0_1_n_n := ⟨rfl, rfl, rfl, rfl, rfl, rfl⟩

/-- The feature product at (p, q). -/
theorem hS_apply (x : FVec Ideal S8192x1024 .f32) (W : FVec Ideal S1024x1024 .f32) (p : Fin 8192) (q : Fin 1024) :
    hS x W (ix2 p q) = ∑ k : Fin 1024, x (ix2 p k) * W (ix2 k q) :=
  HostRowOps.dot_apply plain1 none x W p q

/-- A projection at (p, u). -/
theorem fS_apply (h : FVec Ideal S8192x1024 .f32) (a : FVec Ideal S1024x1 .f32) (p : Fin 8192) (u : Fin 1) :
    fS h a (ix2 p u) = ∑ k : Fin 1024, h (ix2 p k) * a (ix2 k u) :=
  HostRowOps.dot_apply plain2 none h a p u

/-! ## The entrywise stages -/

/-- The pairwise sum at (i, j). -/
theorem eS_apply (f1 f2 : FVec Ideal S8192x1 .f32) (i j : Fin 8192) :
    eS f1 f2 (ix2 i j) = f1 (ix2 i (0 : Fin 1)) + f2 (ix2 j (0 : Fin 1)) := by
  unfold eS
  rw [addf_apply, HostRowOps.colToMat_apply (a := 8192) (b := 8192), HostRowOps.rowToMat_apply (a := 8192) (b := 8192),
    RowOps.swap_apply (a := 8192) (b := 1)]

/-- The leaky ReLU at (i, j). -/
theorem lreluS_apply (e : FVec Ideal S8192x8192 .f32) (i j : Fin 8192) :
    lreluS e (ix2 i j) = Cert.Spec.lrelu (Ideal.ofBits .f32 0x3E4CCCCD#32) (e (ix2 i j)) := by
  unfold lreluS Cert.Spec.lrelu
  rw [select_apply, cmpf_apply, mulf_apply, broadcastInDim_scalar_apply, broadcastInDim_scalar_apply, constant_apply,
    Ideal.ofBits_zero_f32, Ideal.cmpf_def]
  rfl

/-- The mask at (i, j): the signed comparison of the entry with zero. -/
theorem mskS_apply (adj : IVec S8192x8192 32) (i j : Fin 8192) :
    mskS adj (ix2 i j) = IntOp.cmpi .sgt (adj (ix2 i j)) 0#32 := by
  unfold mskS
  show IntOp.cmpi .sgt (adj (ix2 i j)) (broadcastInDim S8192x8192 ![] bcast_S_S8192x8192 (constantI S_ 32 0#32) (ix2 i j)) = _
  rw [broadcastInDim_scalar_apply]
  rfl

/-- The masked score at (i, j). -/
theorem scoreS_apply (adj : IVec S8192x8192 32) (l : FVec Ideal S8192x8192 .f32) (i j : Fin 8192) :
    scoreS adj l (ix2 i j)
      = if mskS adj (ix2 i j) = 1#1 then l (ix2 i j) else Ideal.ofBits .f32 0xD9FFCB9E#32 := by
  unfold scoreS
  rw [select_apply, broadcastInDim_scalar_apply, constant_apply]
  rfl

/-! ## The row maximum, the exponential, the row sum, the quotient -/

/-- The row maximum at i: the supremum of the row. -/
theorem maxS_apply (s : FVec Ideal S8192x8192 .f32) (i : Fin 8192) :
    maxS s (ix1 i) = Finset.univ.sup (fun k : Fin 8192 => s (ix2 i k)) := by
  unfold maxS
  rw [maximumf_apply, broadcastInDim_scalar_apply, constant_apply,
    HostRowOps.rowMax_apply (a := 8192) (b := 8192) s _ reducesTo_S8192x8192_S8192_d1 (by decide) h_S_ i,
    constant_apply, ofBits_neg_inf, fold_max_bot]
  exact max_bot_left _

/-- The shifted exponential at (i, j). -/
theorem expS_apply (s : FVec Ideal S8192x8192 .f32) (i j : Fin 8192) :
    expS s (ix2 i j) = Ideal.exp (s (ix2 i j) - Finset.univ.sup (fun k : Fin 8192 => s (ix2 i k))) := by
  unfold expS
  show Ideal.exp (subf (F := Ideal) s _ (ix2 i j)) = _
  rw [subf_apply, HostRowOps.colToMat_apply (a := 8192) (b := 8192), HostRowOps.vecToCol_apply (a := 8192), maxS_apply]

/-- The row sum at i. -/
theorem sumS_apply (w : FVec Ideal S8192x8192 .f32) (i : Fin 8192) :
    sumS w (ix1 i) = ∑ k : Fin 8192, w (ix2 i k) := by
  unfold sumS
  rw [HostRowOps.rowSum_apply (a := 8192) (b := 8192) w _ reducesTo_S8192x8192_S8192_d1 (by decide) h_S_ i,
    constant_apply, Ideal.ofBits_zero_f32, zero_add]

/-- The quotient at (i, j). -/
theorem attS_apply (w : FVec Ideal S8192x8192 .f32) (i j : Fin 8192) :
    attS w (ix2 i j) = Ideal.div (w (ix2 i j)) (∑ k : Fin 8192, w (ix2 i k)) := by
  unfold attS
  rw [hostDivf_apply, HostRowOps.colToMat_apply (a := 8192) (b := 8192), HostRowOps.vecToCol_apply (a := 8192), sumS_apply]

/-! ## The output -/

/-- The output at (i, q): the product with the features, then the maximum with zero. -/
theorem outS_apply (att : FVec Ideal S8192x8192 .f32) (h : FVec Ideal S8192x1024 .f32) (i : Fin 8192) (q : Fin 1024) :
    outS att h (ix2 i q) = max (∑ j : Fin 8192, att (ix2 i j) * h (ix2 j q)) 0 := by
  unfold outS
  rw [maximumf_apply, broadcastInDim_scalar_apply, constant_apply, Ideal.ofBits_zero_f32,
    HostRowOps.dot_apply plain3 none att h i q]

end Cert.ReferenceIdeal.RefValue

end
-- ==== Proof.RefValue.lean ====
/-
  The reference's result is the shared specification, index by index.

  With the stages read at an index, the masked score of the reference is the specification's score of the two
  projections of the feature product, and the reference's result at (p, q) is the specification's output there: the
  maximum with zero of the sum, over the row, of the softmax quotient times the features.  No finiteness is needed:
  the reference's operations are the specification's, stage by stage.
-/
import proofs.«113575_j54150947668287_2_alg».proof.Proof.RefValueOps

noncomputable section

namespace Cert.ReferenceIdeal.RefValue

open Cert.ReferenceIdeal Cert.ReferenceIdeal.Gen Cert.ReferenceIdeal.RefRun Idealize.ShloMosaic Idealize.ShloMosaic.ValueIdx

/-- The reference's masked score at (i, j) is the specification's. -/
theorem scoreTerm_apply (x : FVec Ideal S8192x1024 .f32) (adj : IVec S8192x8192 32) (W : FVec Ideal S1024x1024 .f32)
    (a1 a2 : FVec Ideal S1024x1 .f32) (i j : Fin 8192) :
    scoreTerm x adj W a1 a2 (ix2 i j)
      = Cert.Spec.score (Ideal.ofBits .f32 0x3E4CCCCD#32) (Ideal.ofBits .f32 0xD9FFCB9E#32)
          (fun i j => mskS adj (ix2 i j))
          (Cert.Spec.fcol (Cert.Spec.hrow (fun p k => x (ix2 p k)) (fun k q => W (ix2 k q))) (fun k => a1 (ix2 k (0 : Fin 1))))
          (Cert.Spec.fcol (Cert.Spec.hrow (fun p k => x (ix2 p k)) (fun k q => W (ix2 k q))) (fun k => a2 (ix2 k (0 : Fin 1))))
          i j := by
  unfold scoreTerm
  rw [scoreS_apply, lreluS_apply, eS_apply, fS_apply, fS_apply]
  unfold Cert.Spec.score Cert.Spec.fcol Cert.Spec.hrow
  simp only [hS_apply]

/-- The reference's result at (p, q) is the specification's output. -/
theorem refTerm_apply (x : FVec Ideal S8192x1024 .f32) (adj : IVec S8192x8192 32) (W : FVec Ideal S1024x1024 .f32)
    (a1 a2 : FVec Ideal S1024x1 .f32) (p : Fin 8192) (q : Fin 1024) :
    refTerm x adj W a1 a2 (ix2 p q)
      = Cert.Spec.out
          (Cert.Spec.score (Ideal.ofBits .f32 0x3E4CCCCD#32) (Ideal.ofBits .f32 0xD9FFCB9E#32)
            (fun i j => mskS adj (ix2 i j))
            (Cert.Spec.fcol (Cert.Spec.hrow (fun p k => x (ix2 p k)) (fun k q => W (ix2 k q))) (fun k => a1 (ix2 k (0 : Fin 1))))
            (Cert.Spec.fcol (Cert.Spec.hrow (fun p k => x (ix2 p k)) (fun k q => W (ix2 k q))) (fun k => a2 (ix2 k (0 : Fin 1)))))
          (Cert.Spec.hrow (fun p k => x (ix2 p k)) (fun k q => W (ix2 k q))) p q := by
  have hs : (fun i j : Fin 8192 => scoreTerm x adj W a1 a2 (ix2 i j))
      = Cert.Spec.score (Ideal.ofBits .f32 0x3E4CCCCD#32) (Ideal.ofBits .f32 0xD9FFCB9E#32)
          (fun i j => mskS adj (ix2 i j))
          (Cert.Spec.fcol (Cert.Spec.hrow (fun p k => x (ix2 p k)) (fun k q => W (ix2 k q))) (fun k => a1 (ix2 k (0 : Fin 1))))
          (Cert.Spec.fcol (Cert.Spec.hrow (fun p k => x (ix2 p k)) (fun k q => W (ix2 k q))) (fun k => a2 (ix2 k (0 : Fin 1)))) :=
    funext fun i => funext fun j => scoreTerm_apply x adj W a1 a2 i j
  rw [← hs]
  have hw : ∀ i j : Fin 8192, expS (scoreTerm x adj W a1 a2) (ix2 i j)
      = Cert.Spec.wexp (fun i j : Fin 8192 => scoreTerm x adj W a1 a2 (ix2 i j)) i j := fun i j => by
    rw [expS_apply]; rfl
  unfold refTerm
  rw [outS_apply]
  unfold Cert.Spec.out
  refine congrArg (max · 0) (Finset.sum_congr rfl fun j _ => ?_)
  rw [attS_apply, hS_apply]
  simp only [hw]
  rfl

/-- The same as one equation between arrays: the reference's result is the specification's output read at each index's
    two coordinates. -/
theorem refTerm_eq (x : FVec Ideal S8192x1024 .f32) (adj : IVec S8192x8192 32) (W : FVec Ideal S1024x1024 .f32)
    (a1 a2 : FVec Ideal S1024x1 .f32) :
    refTerm x adj W a1 a2
      = fun j : S8192x1024.Idx => Cert.Spec.out
          (Cert.Spec.score (Ideal.ofBits .f32 0x3E4CCCCD#32) (Ideal.ofBits .f32 0xD9FFCB9E#32)
            (fun i j => mskS adj (ix2 i j))
            (Cert.Spec.fcol (Cert.Spec.hrow (fun p k => x (ix2 p k)) (fun k q => W (ix2 k q))) (fun k => a1 (ix2 k (0 : Fin 1))))
            (Cert.Spec.fcol (Cert.Spec.hrow (fun p k => x (ix2 p k)) (fun k q => W (ix2 k q))) (fun k => a2 (ix2 k (0 : Fin 1)))))
          (Cert.Spec.hrow (fun p k => x (ix2 p k)) (fun k q => W (ix2 k q))) (j 0) (j 1) := by
  funext j
  obtain ⟨p, q, rfl⟩ : ∃ (p : Fin 8192) (q : Fin 1024), j = ix2 p q := ⟨j 0, j 1, eq_ix2 j⟩
  exact refTerm_apply x adj W a1 a2 p q

end Cert.ReferenceIdeal.RefValue

end
-- ==== Proof.OnlineDef.lean ====
import Idealize.ShloMosaic.PureOps.Ideal

/-!
The online (streaming) softmax of one query row against one feature column, tile by tile:
8 key tiles of 1024 lanes; lane `r` of tile `k` is the key `k*1024 + r`.
-/

noncomputable section

namespace Cert.Spec
open Idealize.ShloMosaic

/-- the key index of lane `r` of tile `k`: `k*1024 + r` for `k < 8` (reduced modulo 8192 so that
    the function is total in `k`) -/
def key (k : ℕ) (r : Fin 1024) : Fin 8192 :=
  ⟨(k * 1024 + r.val) % 8192, Nat.mod_lt _ (by norm_num)⟩

theorem key_val (k : ℕ) (hk : k < 8) (r : Fin 1024) : (key k r).val = k * 1024 + r.val := by
  have hr := r.isLt
  show (k * 1024 + r.val) % 8192 = k * 1024 + r.val
  exact Nat.mod_eq_of_lt (by omega)

/-- The online softmax state `(m, l, acc)` after `k` key tiles, for the row's scores `s` and the
    feature column `hq`:
    * `m`   the running maximum of the scores seen so far (`⊥` before the first tile);
    * `l`   the running sum of `exp (s j - m)` (`0` before the first tile);
    * `acc` the running sum of `exp (s j - m) * hq j` (`0` before the first tile).
    At tile `k`: `cur` is the maximum of the tile's scores, `mNew = max m cur`,
    `corr = exp (m - mNew)`, `p r = exp (s (key k r) - mNew)`, and the new state is
    `(mNew, corr * l + (0 + ∑ r, p r), corr * acc + ∑ r, p r * hq (key k r))`. -/
def online (s hq : Fin 8192 → EReal) : ℕ → EReal × EReal × EReal
  | 0 => (⊥, 0, 0)
  | k + 1 =>
    (max (online s hq k).1 (Finset.univ.sup fun r : Fin 1024 => s (key k r)),
     Ideal.exp ((online s hq k).1 - max (online s hq k).1 (Finset.univ.sup fun r : Fin 1024 => s (key k r)))
         * (online s hq k).2.1
       + (0 + ∑ r : Fin 1024,
           Ideal.exp (s (key k r) - max (online s hq k).1 (Finset.univ.sup fun r : Fin 1024 => s (key k r)))),
     Ideal.exp ((online s hq k).1 - max (online s hq k).1 (Finset.univ.sup fun r : Fin 1024 => s (key k r)))
         * (online s hq k).2.2
       + ∑ r : Fin 1024,
           Ideal.exp (s (key k r) - max (online s hq k).1 (Finset.univ.sup fun r : Fin 1024 => s (key k r)))
             * hq (key k r))

theorem online_zero (s hq : Fin 8192 → EReal) : online s hq 0 = (⊥, 0, 0) := rfl

/-- one step, with the intermediate values named -/
theorem online_succ (s hq : Fin 8192 → EReal) (k : ℕ) (m l acc cur mNew corr : EReal)
    (hst : online s hq k = (m, l, acc))
    (hcur : cur = Finset.univ.sup fun r : Fin 1024 => s (key k r))
    (hmNew : mNew = max m cur) (hcorr : corr = Ideal.exp (m - mNew)) :
    online s hq (k + 1)
      = (mNew, corr * l + (0 + ∑ r : Fin 1024, Ideal.exp (s (key k r) - mNew)),
         corr * acc + ∑ r : Fin 1024, Ideal.exp (s (key k r) - mNew) * hq (key k r)) := by
  subst hcur hmNew hcorr
  show (_, _, _) = _
  rw [hst]

/-- a fold of `max` from `⊥` is the supremum -/
theorem fold_max_bot {n : ℕ} (f : Fin n → EReal) :
    (Finset.univ : Finset (Fin n)).fold max ⊥ f = Finset.univ.sup f := rfl

end Cert.Spec
-- ==== Proof.OnlineAlg.lean ====
import Idealize.ShloMosaic.PureOps.Ideal

/-!
The algebra of the online (streaming) softmax on extended reals, over an abstract
finite key set: the state after a set `A` of keys is
`(sup_A s, ∑_A exp (s j - sup_A s), ∑_A exp (s j - sup_A s) * h j)`,
and one step with a further disjoint nonempty tile `B` turns the state of `A`
into the state of `A ∪ B`, when all scores and features are real.
-/

noncomputable section

namespace Cert.Spec
open Idealize.ShloMosaic

variable {ι : Type*}

/-- the coercion of a finite real sum is the sum of the coercions -/
theorem coe_finset_sum (A : Finset ι) (f : ι → ℝ) :
    ((∑ j ∈ A, f j : ℝ) : EReal) = ∑ j ∈ A, (f j : EReal) := by
  classical
  induction A using Finset.induction_on with
  | empty => simp
  | insert a A ha ih => rw [Finset.sum_insert ha, Finset.sum_insert ha, EReal.coe_add, ih]

/-- the exponential of a difference of two reals -/
theorem exp_coe_sub (x y : ℝ) :
    Ideal.exp ((x : EReal) - (y : EReal)) = ((Real.exp (x - y) : ℝ) : EReal) := by
  rw [← EReal.coe_sub]; rfl

/-- the quotient of two reals, the divisor not zero -/
theorem div_coe (x y : ℝ) (hy : y ≠ 0) :
    Ideal.div (x : EReal) (y : EReal) = ((x / y : ℝ) : EReal) := by
  unfold Ideal.div
  rw [if_neg (by exact_mod_cast hy), ← EReal.coe_inv, ← EReal.coe_mul, div_eq_mul_inv]

/-- over a nonempty finite set of real scores the supremum is one of the scores -/
theorem sup_real (A : Finset ι) (hA : A.Nonempty) (s : ι → EReal)
    (hs : ∀ j, ∃ r : ℝ, s j = (r : EReal)) :
    ∃ M : ℝ, A.sup s = (M : EReal) ∧ ∃ i ∈ A, s i = (M : EReal) := by
  obtain ⟨i, hiA, hi⟩ := Finset.exists_mem_eq_sup A hA s
  obtain ⟨r, hr⟩ := hs i
  exact ⟨r, hi.trans hr, i, hiA, hr⟩

/-- the softmax partial state over a finite key set `A`: the maximum, the sum of the shifted
    exponentials, and their sum weighted by the feature column -/
def part (s hq : ι → EReal) (A : Finset ι) : EReal × EReal × EReal :=
  (A.sup s, ∑ j ∈ A, Ideal.exp (s j - A.sup s), ∑ j ∈ A, Ideal.exp (s j - A.sup s) * hq j)

/-- one online step from the state `st` with the tile `B` -/
def stepOn (s hq : ι → EReal) (B : Finset ι) (st : EReal × EReal × EReal) : EReal × EReal × EReal :=
  (max st.1 (B.sup s),
   Ideal.exp (st.1 - max st.1 (B.sup s)) * st.2.1 + (0 + ∑ j ∈ B, Ideal.exp (s j - max st.1 (B.sup s))),
   Ideal.exp (st.1 - max st.1 (B.sup s)) * st.2.2 + ∑ j ∈ B, Ideal.exp (s j - max st.1 (B.sup s)) * hq j)

/-- the step law: rescaling by `exp (m_A - m)` turns the sums shifted by `m_A` into the sums
    shifted by `m`, because `exp (m_A - m) * exp (s j - m_A) = exp (s j - m)` -/
theorem stepOn_part [DecidableEq ι] (s hq : ι → EReal)
    (hs : ∀ j, ∃ r : ℝ, s j = (r : EReal)) (hh : ∀ j, ∃ r : ℝ, hq j = (r : EReal))
    (A B : Finset ι) (hAB : Disjoint A B) (hB : B.Nonempty) :
    stepOn s hq B (part s hq A) = part s hq (A ∪ B) := by
  obtain ⟨n, hn, -⟩ := sup_real (A ∪ B) (hB.mono Finset.subset_union_right) s hs
  have hmax : max (A.sup s) (B.sup s) = (n : EReal) := by rw [← hn]; exact Finset.sup_union.symm
  choose sr hsr using hs
  choose hr hhr using hh
  unfold stepOn part
  simp only [hmax, hn, zero_add]
  rcases A.eq_empty_or_nonempty with hA | hA
  · subst hA
    simp
  · obtain ⟨a, ha, -⟩ := sup_real A hA s (fun j => ⟨sr j, hsr j⟩)
    simp only [ha, hsr, hhr, exp_coe_sub, ← EReal.coe_mul, ← coe_finset_sum, ← EReal.coe_add]
    refine Prod.ext rfl (Prod.ext ?_ ?_)
    · simp only [EReal.coe_eq_coe_iff]
      rw [Finset.sum_union hAB, Finset.mul_sum]
      congr 1
      refine Finset.sum_congr rfl fun j _ => ?_
      rw [← Real.exp_add]; congr 1; ring
    · simp only [EReal.coe_eq_coe_iff]
      rw [Finset.sum_union hAB, Finset.mul_sum]
      congr 1
      refine Finset.sum_congr rfl fun j _ => ?_
      rw [← mul_assoc, ← Real.exp_add]; congr 2; ring

end Cert.Spec
-- ==== Proof.OnlineClosed.lean ====
import proofs.«113575_j54150947668287_2_alg».proof.Proof.OnlineDef
import proofs.«113575_j54150947668287_2_alg».proof.Proof.OnlineAlg

/-!
The closed form of the online softmax state after `k` tiles (`1 ≤ k ≤ 8`) on real scores
and features: the maximum over the first `1024 k` keys, and the two sums of exponentials
shifted by that maximum; and the resulting value after the last tile.
-/

noncomputable section

namespace Cert.Spec
open Idealize.ShloMosaic

/-- the keys of the first `k` tiles: `j < 1024 k` -/
def firstKeys (k : ℕ) : Finset (Fin 8192) := Finset.univ.filter fun j => j.val < 1024 * k

/-- the keys of tile `k` -/
def tile (k : ℕ) : Finset (Fin 8192) := Finset.univ.image (key k)

theorem mem_firstKeys (k : ℕ) (j : Fin 8192) : j ∈ firstKeys k ↔ j.val < 1024 * k := by
  unfold firstKeys
  simp only [Finset.mem_filter, Finset.mem_univ, true_and]

theorem key_injective (k : ℕ) (hk : k < 8) : Function.Injective (key k) := by
  intro r r' h
  have h' := congrArg Fin.val h
  rw [key_val k hk, key_val k hk] at h'
  exact Fin.ext (by omega)

theorem mem_tile (k : ℕ) (hk : k < 8) (j : Fin 8192) :
    j ∈ tile k ↔ 1024 * k ≤ j.val ∧ j.val < 1024 * (k + 1) := by
  unfold tile
  simp only [Finset.mem_image, Finset.mem_univ, true_and]
  constructor
  · rintro ⟨r, rfl⟩
    rw [key_val k hk]
    have := r.isLt
    omega
  · rintro ⟨h1, h2⟩
    refine ⟨⟨j.val - 1024 * k, by omega⟩, Fin.ext ?_⟩
    rw [key_val k hk]
    show k * 1024 + (j.val - 1024 * k) = j.val
    omega

theorem firstKeys_zero : firstKeys 0 = ∅ := by
  ext j
  rw [mem_firstKeys]
  simp

theorem firstKeys_eight : firstKeys 8 = Finset.univ := by
  ext j
  rw [mem_firstKeys]
  have := j.isLt
  simp only [Finset.mem_univ, iff_true]
  omega

theorem firstKeys_succ (k : ℕ) (hk : k < 8) : firstKeys (k + 1) = firstKeys k ∪ tile k := by
  ext j
  rw [Finset.mem_union, mem_tile k hk, mem_firstKeys, mem_firstKeys]
  omega

theorem disjoint_firstKeys_tile (k : ℕ) (hk : k < 8) : Disjoint (firstKeys k) (tile k) := by
  rw [Finset.disjoint_left]
  intro j hj hj'
  rw [mem_tile k hk] at hj'
  rw [mem_firstKeys] at hj
  omega

theorem tile_nonempty (k : ℕ) : (tile k).Nonempty :=
  ⟨key k 0, Finset.mem_image_of_mem _ (Finset.mem_univ _)⟩

theorem firstKeys_nonempty (k : ℕ) (hk : 1 ≤ k) : (firstKeys k).Nonempty :=
  ⟨0, (mem_firstKeys k 0).2 (by show (0 : ℕ) < 1024 * k; omega)⟩

/-- a tile's lane sums and lane maximum are the sums and the maximum over the tile's key set -/
theorem online_succ_stepOn (s hq : Fin 8192 → EReal) (k : ℕ) (hk : k < 8) :
    online s hq (k + 1) = stepOn s hq (tile k) (online s hq k) := by
  have hsum : ∀ f : Fin 8192 → EReal, ∑ j ∈ tile k, f j = ∑ r : Fin 1024, f (key k r) := fun f =>
    Finset.sum_image (fun r _ r' _ h => key_injective k hk h)
  have hsup : (tile k).sup s = Finset.univ.sup fun r : Fin 1024 => s (key k r) :=
    Finset.sup_image _ _ _
  unfold stepOn
  rw [hsum, hsum, hsup]
  rfl

/-- after `k ≤ 8` tiles the state is the softmax partial state of the first `1024 k` keys -/
theorem online_eq_part (s hq : Fin 8192 → EReal)
    (hs : ∀ j, ∃ r : ℝ, s j = (r : EReal)) (hh : ∀ j, ∃ r : ℝ, hq j = (r : EReal)) :
    ∀ k, k ≤ 8 → online s hq k = part s hq (firstKeys k)
  | 0, _ => by
    rw [firstKeys_zero, online_zero]
    simp [part]
  | k + 1, hk => by
    rw [online_succ_stepOn s hq k (by omega), online_eq_part s hq hs hh k (by omega),
      firstKeys_succ k (by omega)]
    exact stepOn_part s hq hs hh _ _ (disjoint_firstKeys_tile k (by omega)) (tile_nonempty k)

end Cert.Spec
-- ==== Proof.OnlineFinal.lean ====
import proofs.«113575_j54150947668287_2_alg».proof.Proof.OnlineClosed

/-!
The online softmax on real scores and features: the closed form of the state after `k` tiles
with real witnesses, and the value after the last tile — the quotient of the two running sums
is the sum of the entrywise quotients, because over the reals
`(∑ p j * h j) / L = ∑ (p j / L) * h j`.
-/

noncomputable section

namespace Cert.Spec
open Idealize.ShloMosaic

/-- the softmax partial state of a nonempty key set on real scores `sr` and real features `hr`:
    three reals, the maximum attained, and the sum of the exponentials at least `1` -/
theorem part_real {ι : Type*} (sr hr : ι → ℝ) (A : Finset ι) (hA : A.Nonempty) :
    ∃ M : ℝ, (A.sup fun j => (sr j : EReal)) = (M : EReal) ∧ (∃ i ∈ A, sr i = M) ∧
      part (fun j => (sr j : EReal)) (fun j => (hr j : EReal)) A
        = ((M : EReal), ((∑ j ∈ A, Real.exp (sr j - M) : ℝ) : EReal),
            ((∑ j ∈ A, Real.exp (sr j - M) * hr j : ℝ) : EReal)) ∧
      1 ≤ ∑ j ∈ A, Real.exp (sr j - M) := by
  obtain ⟨M, hM, i, hiA, hi⟩ := sup_real A hA (fun j => (sr j : EReal)) (fun j => ⟨sr j, rfl⟩)
  have hiM : sr i = M := EReal.coe_eq_coe_iff.1 hi
  refine ⟨M, hM, ⟨i, hiA, hiM⟩, ?_, ?_⟩
  · unfold part
    simp only [hM, exp_coe_sub, ← EReal.coe_mul, ← coe_finset_sum]
  · calc (1 : ℝ) = Real.exp (sr i - M) := by rw [hiM, sub_self, Real.exp_zero]
      _ ≤ ∑ j ∈ A, Real.exp (sr j - M) :=
        Finset.single_le_sum (f := fun j => Real.exp (sr j - M)) (fun j _ => (Real.exp_pos _).le) hiA

/-- (b) the closed form after `1 ≤ k ≤ 8` tiles, on real scores and features: with `M` the maximum
    of the first `1024 k` scores, the state is `(M, ∑ exp (s j - M), ∑ exp (s j - M) * h j)`, the
    sums over the first `1024 k` keys; all three are reals and the middle one is at least `1` -/
theorem online_closed_real (sr hr : Fin 8192 → ℝ) (k : ℕ) (hk1 : 1 ≤ k) (hk8 : k ≤ 8) :
    ∃ M : ℝ, ((firstKeys k).sup fun j => (sr j : EReal)) = (M : EReal) ∧
      (∃ i ∈ firstKeys k, sr i = M) ∧
      online (fun j => (sr j : EReal)) (fun j => (hr j : EReal)) k
        = ((M : EReal), ((∑ j ∈ firstKeys k, Real.exp (sr j - M) : ℝ) : EReal),
            ((∑ j ∈ firstKeys k, Real.exp (sr j - M) * hr j : ℝ) : EReal)) ∧
      1 ≤ ∑ j ∈ firstKeys k, Real.exp (sr j - M) := by
  obtain ⟨M, hM, hi, hp, h1⟩ := part_real sr hr (firstKeys k) (firstKeys_nonempty k hk1)
  refine ⟨M, hM, hi, ?_, h1⟩
  rw [online_eq_part _ _ (fun j => ⟨sr j, rfl⟩) (fun j => ⟨hr j, rfl⟩) k hk8, hp]

/-- (b) the same under the hypotheses that every score and every feature is a real -/
theorem online_closed (s hq : Fin 8192 → EReal)
    (hs : ∀ j, ∃ r : ℝ, s j = (r : EReal)) (hh : ∀ j, ∃ r : ℝ, hq j = (r : EReal))
    (k : ℕ) (hk1 : 1 ≤ k) (hk8 : k ≤ 8) :
    ∃ M L C : ℝ, online s hq k = ((M : EReal), (L : EReal), (C : EReal)) ∧
      (M : EReal) = (firstKeys k).sup s ∧
      (L : EReal) = ∑ j ∈ firstKeys k, Ideal.exp (s j - (M : EReal)) ∧
      (C : EReal) = ∑ j ∈ firstKeys k, Ideal.exp (s j - (M : EReal)) * hq j ∧
      1 ≤ L := by
  choose sr hsr using hs
  choose hr hhr using hh
  obtain rfl : s = fun j => (sr j : EReal) := funext hsr
  obtain rfl : hq = fun j => (hr j : EReal) := funext hhr
  obtain ⟨M, hM, -, ho, h1⟩ := online_closed_real sr hr k hk1 hk8
  refine ⟨M, _, _, ho, hM.symm, ?_, ?_, h1⟩
  · simp only [exp_coe_sub, ← coe_finset_sum]
  · simp only [exp_coe_sub, ← EReal.coe_mul, ← coe_finset_sum]

/-- (c) after the last tile: the quotient of the running weighted sum by the running sum, clamped
    at `0`, is the clamped sum of the entrywise quotients `exp (s j - M) / L` times the features,
    with `M` the row maximum and `L` the row sum of the shifted exponentials -/
theorem online_out (s hq : Fin 8192 → EReal)
    (hs : ∀ j, ∃ r : ℝ, s j = (r : EReal)) (hh : ∀ j, ∃ r : ℝ, hq j = (r : EReal)) :
    max (Ideal.div (online s hq 8).2.2 (online s hq 8).2.1) 0
      = max (∑ j : Fin 8192,
          Ideal.div (Ideal.exp (s j - Finset.univ.sup s))
            (∑ j : Fin 8192, Ideal.exp (s j - Finset.univ.sup s)) * hq j) 0 := by
  choose sr hsr using hs
  choose hr hhr using hh
  obtain rfl : s = fun j => (sr j : EReal) := funext hsr
  obtain rfl : hq = fun j => (hr j : EReal) := funext hhr
  obtain ⟨M, hM, -, ho, h1⟩ := online_closed_real sr hr 8 (by norm_num) (le_refl 8)
  rw [firstKeys_eight] at hM ho h1
  have hL : (∑ j : Fin 8192, Real.exp (sr j - M)) ≠ 0 := by linarith
  rw [ho, hM]
  simp only [exp_coe_sub, ← coe_finset_sum]
  rw [div_coe _ _ hL]
  simp only [div_coe _ _ hL, ← EReal.coe_mul, ← coe_finset_sum]
  have hreal : (∑ j : Fin 8192, Real.exp (sr j - M) * hr j) / (∑ j : Fin 8192, Real.exp (sr j - M))
      = ∑ j : Fin 8192, Real.exp (sr j - M) / (∑ j : Fin 8192, Real.exp (sr j - M)) * hr j := by
    rw [Finset.sum_div]
    exact Finset.sum_congr rfl fun j _ => by ring
  rw [hreal]

end Cert.Spec
-- ==== Proof.OnlineOut.lean ====
import proofs.«113575_j54150947668287_2_alg».proof.Proof.Spec
import proofs.«113575_j54150947668287_2_alg».proof.Proof.OnlineFinal

/-!
The online softmax after the last of the 8 key tiles, applied to row `i` of the scores and
column `q` of the features, is the specification's output at `(i, q)`.
-/

noncomputable section

namespace Cert.Spec
open Idealize.ShloMosaic

theorem online_eq_out (sc : Fin 8192 → Fin 8192 → EReal) (h : Fin 8192 → Fin 1024 → EReal)
    (hs : ∀ i j, ∃ r : ℝ, sc i j = (r : EReal)) (hh : ∀ j q, ∃ r : ℝ, h j q = (r : EReal))
    (i : Fin 8192) (q : Fin 1024) :
    max (Ideal.div (online (sc i) (fun j => h j q) 8).2.2 (online (sc i) (fun j => h j q) 8).2.1) 0
      = out sc h i q := by
  rw [online_out (sc i) (fun j => h j q) (hs i) (fun j => hh j q)]
  unfold out wexp rowSum rowMax wexp rowMax
  rfl

end Cert.Spec
-- ==== Proof.OnlineFinite.lean ====
import proofs.«113575_j54150947668287_2_alg».proof.Proof.Spec
import proofs.«113575_j54150947668287_2_alg».proof.Proof.OnlineAlg

/-!
Finiteness: on real inputs the feature product, the two projections, the leaky ReLU and the
masked score are reals; the two float literals of the programs (the slope and the mask value)
are finite patterns, hence reals.
-/

noncomputable section

namespace Cert.Spec
open Idealize.ShloMosaic

/-- a finite sum of products of reals is a real -/
theorem sum_mul_real {n : ℕ} (f g : Fin n → EReal)
    (hf : ∀ k, ∃ r : ℝ, f k = (r : EReal)) (hg : ∀ k, ∃ r : ℝ, g k = (r : EReal)) :
    ∃ r : ℝ, ∑ k, f k * g k = (r : EReal) := by
  choose fr hfr using hf
  choose gr hgr using hg
  refine ⟨∑ k, fr k * gr k, ?_⟩
  simp only [hfr, hgr, ← EReal.coe_mul, ← coe_finset_sum]

theorem hrow_real (x : Fin 8192 → Fin 1024 → EReal) (W : Fin 1024 → Fin 1024 → EReal)
    (hx : ∀ p k, ∃ r : ℝ, x p k = (r : EReal)) (hW : ∀ k q, ∃ r : ℝ, W k q = (r : EReal))
    (p : Fin 8192) (q : Fin 1024) : ∃ r : ℝ, hrow x W p q = (r : EReal) :=
  sum_mul_real _ _ (fun k => hx p k) (fun k => hW k q)

theorem fcol_real (h : Fin 8192 → Fin 1024 → EReal) (a : Fin 1024 → EReal)
    (hh : ∀ p k, ∃ r : ℝ, h p k = (r : EReal)) (ha : ∀ k, ∃ r : ℝ, a k = (r : EReal))
    (p : Fin 8192) : ∃ r : ℝ, fcol h a p = (r : EReal) :=
  sum_mul_real _ _ (fun k => hh p k) ha

theorem lrelu_real (slope e : EReal) (hsl : ∃ r : ℝ, slope = (r : EReal))
    (he : ∃ r : ℝ, e = (r : EReal)) : ∃ r : ℝ, lrelu slope e = (r : EReal) := by
  obtain ⟨a, rfl⟩ := hsl
  obtain ⟨b, rfl⟩ := he
  unfold lrelu
  split_ifs
  · exact ⟨b, rfl⟩
  · exact ⟨a * b, (EReal.coe_mul a b).symm⟩

theorem score_real (slope neg : EReal) (msk : Fin 8192 → Fin 8192 → BitVec 1)
    (f1 f2 : Fin 8192 → EReal) (hsl : ∃ r : ℝ, slope = (r : EReal))
    (hneg : ∃ r : ℝ, neg = (r : EReal))
    (h1 : ∀ i, ∃ r : ℝ, f1 i = (r : EReal)) (h2 : ∀ j, ∃ r : ℝ, f2 j = (r : EReal))
    (i j : Fin 8192) : ∃ r : ℝ, score slope neg msk f1 f2 i j = (r : EReal) := by
  unfold score
  split_ifs
  · refine lrelu_real _ _ hsl ?_
    obtain ⟨a, ha⟩ := h1 i
    obtain ⟨b, hb⟩ := h2 j
    exact ⟨a + b, by rw [ha, hb, EReal.coe_add]⟩
  · exact hneg

/-- a pattern whose exponent field is not all ones denotes a real -/
theorem ieee_real (e m : ℕ) {w : ℕ} (b : BitVec w)
    (h : (b.extractLsb' m e).toNat ≠ 2 ^ e - 1) : ∃ r : ℝ, Ideal.ieee e m b = (r : EReal) := by
  unfold Ideal.ieee
  dsimp only
  rw [if_neg h]
  split_ifs <;> exact ⟨_, rfl⟩

/-- the leaky-ReLU slope literal is a real -/
theorem slope_real : ∃ r : ℝ, Ideal.ofBits .f32 0x3E4CCCCD#32 = (r : EReal) :=
  ieee_real 8 23 (0x3E4CCCCD#32 : BitVec 32) (by decide)

/-- the mask literal is a real -/
theorem neg_real : ∃ r : ℝ, Ideal.ofBits .f32 0xD9FFCB9E#32 = (r : EReal) :=
  ieee_real 8 23 (0xD9FFCB9E#32 : BitVec 32) (by decide)

end Cert.Spec
-- ==== Proof.PreReal.lean ====
import proofs.«113575_j54150947668287_2_alg».proof.Pre_finite_inputs
import Idealize.ShloMosaic.Lib.ReduceAll
import Idealize.ShloMosaic.Lib.ValueIdx
import Idealize.ShloMosaic.PureOps.Ideal

/-!
Decoding the precondition: the printed predicate is the conjunction, over the four float
inputs, of "every entry has absolute value below +∞"; on extended reals that says every
entry is a real.
-/

noncomputable section

namespace Cert.PreReal
open Idealize.ShloMosaic Cert.Pre_finite_inputs

/-- the rank-0 shape has one index -/
instance : Subsingleton S_.Idx := ⟨fun a b => funext fun d => d.elim0⟩

/-- an extended real whose absolute value is below `+∞` is a real -/
theorem real_of_abs_lt_inf (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- one conjunct: the reduction by `and` of the entrywise test `|v i| < +∞` is `1`, so every
    entry of `v` is a real -/
theorem all_real {s : Shape} {axes : List (Fin s.rank)} (v : FVec Ideal s .f32)
    (hb : S_.BroadcastsInDim s (![] : Fin 0 → Fin s.rank)) (hr : s.ReducesTo axes S_)
    (hu : 0 < S_.numel)
    (e : Host.reduce IntOp.andi
          (cmpf .olt (Host.absf v) (broadcastInDim s ![] hb (constant (F := Ideal) S_ .f32 0x7F800000#32)))
          (constantI S_ 1 1#1) hr hu ValueIdx.ix0 = 1#1)
    (i : s.Idx) : ∃ r : ℝ, v i = (r : EReal) :=
  real_of_abs_lt_inf (v i) (Host.reduce_andi_all _ _ hr hu ValueIdx.ix0 e i)

/-- under the printed precondition every entry of the four float inputs is a real -/
theorem real_of_pre [Cert.Pre_finite_inputs.Facts] (x : FVec Ideal S8192x1024 .f32) (adj : IVec S8192x8192 32)
    (W : FVec Ideal S1024x1024 .f32) (a1 a2 : FVec Ideal S1024x1 .f32)
    (h : Cert.Pre_finite_inputs.fn (F := Ideal) x adj W a1 a2 = (fun _ => 1#1)) :
    (∀ i, ∃ r : ℝ, x i = (r : EReal)) ∧ (∀ i, ∃ r : ℝ, W i = (r : EReal)) ∧
      (∀ i, ∃ r : ℝ, a1 i = (r : EReal)) ∧ (∀ i, ∃ r : ℝ, a2 i = (r : EReal)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨all_real x _ _ _ h1, all_real W _ _ _ h2, all_real a1 _ _ _ h3, all_real a2 _ _ _ h4⟩

end Cert.PreReal
-- ==== Proof.Final.lean ====
/-
  The bridge between the two results at the ideal instance. Region 1's output array, entry (p,q), is the online
  recursion after the eighth key tile applied to query row p's masked scores and feature column q of h (that is
  the hypothesis `hout`, the kernel's value read off its run). What region 1 finds in its arrays is h = x·W,
  f1 = h·a1, f2 = h·a2 of the launch arguments and the adjacency as launched, so that score row and that feature
  column are the specification's. Finite inputs make every entry of h, f1, f2 and every score a real, and on
  reals the online recursion's quotient acc/l is the row softmax's weighted sum; the reference's term is the
  specification index by index. Hence the two result arrays are equal.
-/
import proofs.«113575_j54150947668287_2_alg».proof.Proof.KI.Link
import proofs.«113575_j54150947668287_2_alg».proof.Proof.RefValue
import proofs.«113575_j54150947668287_2_alg».proof.Proof.OnlineOut
import proofs.«113575_j54150947668287_2_alg».proof.Proof.OnlineFinite
import proofs.«113575_j54150947668287_2_alg».proof.Proof.PreReal

set_option maxRecDepth 16384

noncomputable section

namespace Cert.Proof.Final

open Cert.KernelIdeal Cert.KernelIdeal.Gen
open Idealize.ShloMosaic Idealize.ShloMosaic.TcCoe Idealize.ShloMosaic.ValueIdx
open Idealize.SL Idealize.SL.Sem
open Cert.KernelIdeal.Region0 Cert.KernelIdeal.Region1 Cert.KernelIdeal.Region0V Cert.KernelIdeal.Link

variable (m : (ℓ : Loc nD τ sig) → Buf (Elt Ideal) ℓ) (ρ : Dev nD → PrngReg)

def sRow (V : (c : Dev nD) → (b : Ref sig .tc) → Buf (Elt Ideal) ((c : Thread nD τ).loc b)) (c : Dev nD) (p : Fin 8192) : Fin 8192 → EReal := Cert.Spec.score (Ideal.ofBits .f32 0x3E4CCCCD#32) (Ideal.ofBits .f32 0xD9FFCB9E#32) (fun i j => IntOp.cmpi .sgt ((V c main_arg1 : S8192x8192.Idx → BitVec 32) (ix2 i j)) 0#32) (fun i => (V c main_v2_1 : S8192x1.Idx → EReal) (ix2 i (0 : Fin 1))) (fun j => (V c main_v3 : S1x8192.Idx → EReal) (ix2 (0 : Fin 1) j)) p
def hCol (V : (c : Dev nD) → (b : Ref sig .tc) → Buf (Elt Ideal) ((c : Thread nD τ).loc b)) (c : Dev nD) (q : Fin 1024) : Fin 8192 → EReal := fun j => (V c main_v2_0 : S8192x1024.Idx → EReal) (ix2 j q)

/-- The feature column region 1 reads is the specification's h = x·W. -/
theorem hCol_eq (c : Dev nD) (q : Fin 1024) : hCol (Run.V3 m ρ) c q = fun j => (Cert.Spec.hrow (fun p k => (m ((c : Thread nD τ).loc main_arg0)) (ix2 p k)) (fun k q => (m ((c : Thread nD τ).loc main_arg2)) (ix2 k q))) j q := by
  funext j
  unfold hCol
  rw [h_in m ρ c]
  rfl

/-- The masked score row region 1 computes from what it finds is the specification's score row. -/
theorem sRow_eq (c : Dev nD) (p : Fin 8192) : sRow (Run.V3 m ρ) c p = (Cert.Spec.score (Ideal.ofBits .f32 0x3E4CCCCD#32) (Ideal.ofBits .f32 0xD9FFCB9E#32) (fun i j => Cert.ReferenceIdeal.RefRun.mskS (m ((c : Thread nD τ).loc main_arg1)) (ix2 i j)) (Cert.Spec.fcol (Cert.Spec.hrow (fun p k => (m ((c : Thread nD τ).loc main_arg0)) (ix2 p k)) (fun k q => (m ((c : Thread nD τ).loc main_arg2)) (ix2 k q))) (fun k => (m ((c : Thread nD τ).loc main_arg3)) (ix2 k (0 : Fin 1)))) (Cert.Spec.fcol (Cert.Spec.hrow (fun p k => (m ((c : Thread nD τ).loc main_arg0)) (ix2 p k)) (fun k q => (m ((c : Thread nD τ).loc main_arg2)) (ix2 k q))) (fun k => (m ((c : Thread nD τ).loc main_arg4)) (ix2 k (0 : Fin 1))))) p := by
  unfold sRow
  have e1 : (fun i j : Fin 8192 => IntOp.cmpi .sgt ((Run.V3 m ρ c main_arg1 : S8192x8192.Idx → BitVec 32) (ix2 i j)) 0#32)
      = fun i j => Cert.ReferenceIdeal.RefRun.mskS (m ((c : Thread nD τ).loc main_arg1)) (ix2 i j) := by
    funext i j
    rw [Cert.ReferenceIdeal.RefValue.mskS_apply, V3_arg1 m ρ c]
  have e2 : (fun i : Fin 8192 => (Run.V3 m ρ c main_v2_1 : S8192x1.Idx → EReal) (ix2 i (0 : Fin 1)))
      = Cert.Spec.fcol (Cert.Spec.hrow (fun p k => (m ((c : Thread nD τ).loc main_arg0)) (ix2 p k)) (fun k q => (m ((c : Thread nD τ).loc main_arg2)) (ix2 k q))) (fun k => (m ((c : Thread nD τ).loc main_arg3)) (ix2 k (0 : Fin 1))) := by
    funext i
    rw [f1_in m ρ c]
    rfl
  have e3 : (fun j : Fin 8192 => (Run.V3 m ρ c main_v3 : S1x8192.Idx → EReal) (ix2 (0 : Fin 1) j))
      = Cert.Spec.fcol (Cert.Spec.hrow (fun p k => (m ((c : Thread nD τ).loc main_arg0)) (ix2 p k)) (fun k q => (m ((c : Thread nD τ).loc main_arg2)) (ix2 k q))) (fun k => (m ((c : Thread nD τ).loc main_arg4)) (ix2 k (0 : Fin 1))) := by
    funext j
    rw [f2row_in m ρ c j]
    rfl
  rw [e1, e2, e3]

/-- THE BRIDGE: under finite inputs the kernel's result array is the reference's term of the same arguments. -/
theorem kernel_value [Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (fun _ => 1#1))
    (hout : ∀ (p : Fin 8192) (q : Fin 1024), ((dat1 (F := Ideal) (Run.V3 m ρ) c).arrAt 4 cfg1.N : S8192x1024.Idx → EReal) (ix2 p q) = max (Ideal.div (Cert.Spec.online (sRow (Run.V3 m ρ) c p) (hCol (Run.V3 m ρ) c q) 8).2.2 (Cert.Spec.online (sRow (Run.V3 m ρ) c p) (hCol (Run.V3 m ρ) c q) 8).2.1) 0) :
    ((dat1 (F := Ideal) (Run.V3 m ρ) c).arrAt 4 cfg1.N : S8192x1024.Idx → EReal)
      = Cert.ReferenceIdeal.RefRun.refTerm (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨hx, hW, ha1, ha2⟩ := Cert.PreReal.real_of_pre _ _ _ _ _ hpre
  have hHH : ∀ j q, ∃ r : ℝ, (Cert.Spec.hrow (fun p k => (m ((c : Thread nD τ).loc main_arg0)) (ix2 p k)) (fun k q => (m ((c : Thread nD τ).loc main_arg2)) (ix2 k q))) j q = (r : EReal) :=
    fun j q => Cert.Spec.hrow_real _ _ (fun p k => hx _) (fun k q => hW _) j q
  have hS : ∀ i j, ∃ r : ℝ, (Cert.Spec.score (Ideal.ofBits .f32 0x3E4CCCCD#32) (Ideal.ofBits .f32 0xD9FFCB9E#32) (fun i j => Cert.ReferenceIdeal.RefRun.mskS (m ((c : Thread nD τ).loc main_arg1)) (ix2 i j)) (Cert.Spec.fcol (Cert.Spec.hrow (fun p k => (m ((c : Thread nD τ).loc main_arg0)) (ix2 p k)) (fun k q => (m ((c : Thread nD τ).loc main_arg2)) (ix2 k q))) (fun k => (m ((c : Thread nD τ).loc main_arg3)) (ix2 k (0 : Fin 1)))) (Cert.Spec.fcol (Cert.Spec.hrow (fun p k => (m ((c : Thread nD τ).loc main_arg0)) (ix2 p k)) (fun k q => (m ((c : Thread nD τ).loc main_arg2)) (ix2 k q))) (fun k => (m ((c : Thread nD τ).loc main_arg4)) (ix2 k (0 : Fin 1))))) i j = (r : EReal) :=
    fun i j => Cert.Spec.score_real _ _ _ _ _ Cert.Spec.slope_real Cert.Spec.neg_real
      (fun i => Cert.Spec.fcol_real _ _ hHH (fun k => ha1 _) i) (fun j => Cert.Spec.fcol_real _ _ hHH (fun k => ha2 _) j) i j
  funext idx
  obtain ⟨p, q, rfl⟩ : ∃ (p : Fin 8192) (q : Fin 1024), idx = ix2 p q := ⟨idx 0, idx 1, eq_ix2 idx⟩
  rw [hout p q, Cert.ReferenceIdeal.RefValue.refTerm_apply, sRow_eq m ρ c p, hCol_eq m ρ c q]
  exact Cert.Spec.online_eq_out _ _ hS hHH p q

end Cert.Proof.Final

end
-- ==== Proof.KI.R1ValuePieces.lean ====
/-
  What each case of the second call's body leaves in the three carried buffers and in the output block, as terms of
  the point's input blocks and of what the buffers held on entry.

  The body keeps a running row maximum, a running row sum and a running weighted sum.  At the first key tile of a query
  tile the three are reset (to the bottom value, zero and zero) and then updated from the reset values; at a later key
  tile they are updated from what the tile before left; at the last key tile the output block is, besides, the
  weighted sum divided by the row sum, clipped below at zero, both read after their update.  Every store is through
  the whole buffer, so the last store into a buffer is what the buffer holds.
-/
import proofs.«113575_j54150947668287_2_alg».proof.Proof.KI.R1Dat
import Idealize.ShloMosaic.Lib.Pipeline.Value
import Idealize.ShloMosaic.Lib.Tactic

set_option maxRecDepth 16384

noncomputable section

namespace Cert.KernelIdeal.Region1V

open Cert.KernelIdeal Cert.KernelIdeal.Gen Cert.KernelIdeal.Region1
open Idealize.ShloMosaic Idealize.ShloMosaic.TcCoe Idealize.ShloMosaic.Tactic
open Idealize.SL.Sem
open Idealize.ShloMosaic.Pipeline (Dat Cfg Window)

variable {F : FTy → Type} [FloatOps F]

/-- The zero offsets of the body's whole-buffer rectangles, however spelt. -/
theorem hz : (![0, 0] : Fin 2 → Nat) = fun _ => 0 := funext fun a => by fin_cases a <;> rfl

/-- The 1024 × 1024 slab of the feature array the body loads at this point: rows from the key tile's offset on. -/
abbrev slab (i : grid1.Coords) (x3 : Vec F S8192x1024 .bf16) : Vec F S1024x1024 .bf16 :=
  View.ld x3 (Rect.unit (s := S8192x1024) (k1_off1 i) S1024x1024.size (k1_off1_inb i))

/-! ## The first key tile: reset, then update -/

/-- The running maximum after a first key tile: the update of the reset value. -/
theorem tupA_M (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S512x1 .f32) (x1 : Vec F S1x1024 .f32) (x2 : Vec F S512x1024 .i32) (x3 : Vec F S8192x1024 .bf16) :
    (tup_A c i arg2 harg2 arg3 harg3 arg4 harg4 arg5 harg5 arg6 harg6 arg7 harg7 arg8 harg8 arg9 harg9 hc0 hc1 x0 x1 x2 x3).2.1 = k1_pay3 (k1_pay9 x0 x1 x2 k1_pay5) := by
  unfold tup_A
  dsimp only
  rw [View.read_writes_eq_canon _ _ _ (scoverM_A c i arg2 harg2 arg3 harg3 arg4 harg4 arg5 harg5 arg6 harg6 arg7 harg7 arg8 harg8 arg9 harg9 hc0 hc1 x0 x1 x2 x3)]
  unfold kernelRun1_A
  dsimp only
  try sl_unfold_run_names
  rw [View.canon_cons_unit_zero (S := S512x1) hz]
  simp only [View.readCov_unit_zero (S := S512x1) _ hz, View.readCov_unit_zero (S := S512x1024) _ hz, View.readAt_eq_ld, harg2.read_unread, harg3.read_unread, harg4.read_unread, harg5.read_unread, harg7.read_unread, harg8.read_unread, harg9.read_unread,
    View.ld_unit_zero (S := S512x1) hz, View.ld_unit_zero (S := S1x1024) hz, View.ld_unit_zero (S := S512x1024) hz]

/-- The running sum after a first key tile: the update of the reset values. -/
theorem tupA_L (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S512x1 .f32) (x1 : Vec F S1x1024 .f32) (x2 : Vec F S512x1024 .i32) (x3 : Vec F S8192x1024 .bf16) :
    (tup_A c i arg2 harg2 arg3 harg3 arg4 harg4 arg5 harg5 arg6 harg6 arg7 harg7 arg8 harg8 arg9 harg9 hc0 hc1 x0 x1 x2 x3).2.2.1 = k1_pay1 (k1_pay12 x0 x1 x2 k1_pay5 k1_pay5 k1_pay6) := by
  unfold tup_A
  dsimp only
  rw [View.read_writes_eq_canon _ _ _ (scoverL_A c i arg2 harg2 arg3 harg3 arg4 harg4 arg5 harg5 arg6 harg6 arg7 harg7 arg8 harg8 arg9 harg9 hc0 hc1 x0 x1 x2 x3)]
  unfold kernelRun1_A
  dsimp only
  try sl_unfold_run_names
  rw [View.canon_cons_unit_zero (S := S512x1) hz]
  simp only [View.readCov_unit_zero (S := S512x1) _ hz, View.readCov_unit_zero (S := S512x1024) _ hz, View.readAt_eq_ld, harg2.read_unread, harg3.read_unread, harg4.read_unread, harg5.read_unread, harg7.read_unread, harg8.read_unread, harg9.read_unread,
    View.ld_unit_zero (S := S512x1) hz, View.ld_unit_zero (S := S1x1024) hz, View.ld_unit_zero (S := S512x1024) hz]

/-- The running weighted sum after a first key tile: the update of the reset values. -/
theorem tupA_A (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S512x1 .f32) (x1 : Vec F S1x1024 .f32) (x2 : Vec F S512x1024 .i32) (x3 : Vec F S8192x1024 .bf16) :
    (tup_A c i arg2 harg2 arg3 harg3 arg4 harg4 arg5 harg5 arg6 harg6 arg7 harg7 arg8 harg8 arg9 harg9 hc0 hc1 x0 x1 x2 x3).2.2.2 = k1_pay2 (k1_pay10 x0 x1 x2 k1_pay5 k1_pay5) (k1_pay11 x0 x1 x2 k1_pay5) (slab i x3) k1_pay7 := by
  unfold tup_A
  dsimp only
  rw [View.read_writes_eq_canon _ _ _ (scoverA_A c i arg2 harg2 arg3 harg3 arg4 harg4 arg5 harg5 arg6 harg6 arg7 harg7 arg8 harg8 arg9 harg9 hc0 hc1 x0 x1 x2 x3)]
  unfold kernelRun1_A
  dsimp only
  try sl_unfold_run_names
  rw [View.canon_cons_unit_zero (S := S512x1024) hz]
  simp only [View.readCov_unit_zero (S := S512x1) _ hz, View.readCov_unit_zero (S := S512x1024) _ hz, View.readAt_eq_ld, harg2.read_unread, harg3.read_unread, harg4.read_unread, harg5.read_unread, harg7.read_unread, harg8.read_unread, harg9.read_unread,
    View.ld_unit_zero (S := S512x1) hz, View.ld_unit_zero (S := S1x1024) hz, View.ld_unit_zero (S := S512x1024) hz]

/-! ## A middle key tile: update what the tile before left -/

/-- The running maximum after a middle key tile. -/
theorem tupB_M (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) :
    (tup_B c i arg2 harg2 arg3 harg3 arg4 harg4 arg5 harg5 arg6 harg6 arg7 harg7 arg8 harg8 arg9 harg9 hc0 hc1 x0 x1 x2 x3 xsM xsL xsA).2.1 = k1_pay3 (k1_pay9 x0 x1 x2 xsM) := by
  unfold tup_B
  dsimp only
  rw [View.read_writes_eq_canon _ _ _ (scoverM_B c i arg2 harg2 arg3 harg3 arg4 harg4 arg5 harg5 arg6 harg6 arg7 harg7 arg8 harg8 arg9 harg9 hc0 hc1 x0 x1 x2 x3 xsM xsL xsA)]
  unfold kernelRun1_B
  dsimp only
  try sl_unfold_run_names
  rw [View.canon_cons_unit_zero (S := S512x1) hz]
  simp only [View.readCov_unit_zero (S := S512x1) _ hz, View.readCov_unit_zero (S := S512x1024) _ hz, View.readAt_eq_ld, harg2.read_unread, harg3.read_unread, harg4.read_unread, harg5.read_unread, harg7.read_unread, harg8.read_unread, harg9.read_unread,
    View.ld_unit_zero (S := S512x1) hz, View.ld_unit_zero (S := S1x1024) hz, View.ld_unit_zero (S := S512x1024) hz]

/-- The running sum after a middle key tile. -/
theorem tupB_L (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) :
    (tup_B c i arg2 harg2 arg3 harg3 arg4 harg4 arg5 harg5 arg6 harg6 arg7 harg7 arg8 harg8 arg9 harg9 hc0 hc1 x0 x1 x2 x3 xsM xsL xsA).2.2.1 = k1_pay1 (k1_pay12 x0 x1 x2 xsM xsM xsL) := by
  unfold tup_B
  dsimp only
  rw [View.read_writes_eq_canon _ _ _ (scoverL_B c i arg2 harg2 arg3 harg3 arg4 harg4 arg5 harg5 arg6 harg6 arg7 harg7 arg8 harg8 arg9 harg9 hc0 hc1 x0 x1 x2 x3 xsM xsL xsA)]
  unfold kernelRun1_B
  dsimp only
  try sl_unfold_run_names
  rw [View.canon_cons_unit_zero (S := S512x1) hz]
  simp only [View.readCov_unit_zero (S := S512x1) _ hz, View.readCov_unit_zero (S := S512x1024) _ hz, View.readAt_eq_ld, harg2.read_unread, harg3.read_unread, harg4.read_unread, harg5.read_unread, harg7.read_unread, harg8.read_unread, harg9.read_unread,
    View.ld_unit_zero (S := S512x1) hz, View.ld_unit_zero (S := S1x1024) hz, View.ld_unit_zero (S := S512x1024) hz]

/-- The running weighted sum after a middle key tile. -/
theorem tupB_A (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) :
    (tup_B c i arg2 harg2 arg3 harg3 arg4 harg4 arg5 harg5 arg6 harg6 arg7 harg7 arg8 harg8 arg9 harg9 hc0 hc1 x0 x1 x2 x3 xsM xsL xsA).2.2.2 = k1_pay2 (k1_pay10 x0 x1 x2 xsM xsM) (k1_pay11 x0 x1 x2 xsM) (slab i x3) xsA := by
  unfold tup_B
  dsimp only
  rw [View.read_writes_eq_canon _ _ _ (scoverA_B c i arg2 harg2 arg3 harg3 arg4 harg4 arg5 harg5 arg6 harg6 arg7 harg7 arg8 harg8 arg9 harg9 hc0 hc1 x0 x1 x2 x3 xsM xsL xsA)]
  unfold kernelRun1_B
  dsimp only
  try sl_unfold_run_names
  rw [View.canon_cons_unit_zero (S := S512x1024) hz]
  simp only [View.readCov_unit_zero (S := S512x1) _ hz, View.readCov_unit_zero (S := S512x1024) _ hz, View.readAt_eq_ld, harg2.read_unread, harg3.read_unread, harg4.read_unread, harg5.read_unread, harg7.read_unread, harg8.read_unread, harg9.read_unread,
    View.ld_unit_zero (S := S512x1) hz, View.ld_unit_zero (S := S1x1024) hz, View.ld_unit_zero (S := S512x1024) hz]

/-! ## The last key tile: update, then the output block -/

/-- The running maximum after the last key tile. -/
theorem tupC_M (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) :
    (tup_C c i arg2 harg2 arg3 harg3 arg4 harg4 arg5 harg5 arg6 harg6 arg7 harg7 arg8 harg8 arg9 harg9 hc0 hc1 x0 x1 x2 x3 xsM xsL xsA).2.1 = k1_pay3 (k1_pay9 x0 x1 x2 xsM) := by
  unfold tup_C
  dsimp only
  rw [View.read_writes_eq_canon _ _ _ (scoverM_C c i arg2 harg2 arg3 harg3 arg4 harg4 arg5 harg5 arg6 harg6 arg7 harg7 arg8 harg8 arg9 harg9 hc0 hc1 x0 x1 x2 x3 xsM xsL xsA)]
  unfold kernelRun1_C
  dsimp only
  try sl_unfold_run_names
  rw [View.canon_cons_unit_zero (S := S512x1) hz]
  simp only [View.readCov_unit_zero (S := S512x1) _ hz, View.readCov_unit_zero (S := S512x1024) _ hz, View.readAt_eq_ld, harg2.read_unread, harg3.read_unread, harg4.read_unread, harg5.read_unread, harg7.read_unread, harg8.read_unread, harg9.read_unread,
    View.ld_unit_zero (S := S512x1) hz, View.ld_unit_zero (S := S1x1024) hz, View.ld_unit_zero (S := S512x1024) hz]

/-- The running sum after the last key tile. -/
theorem tupC_L (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) :
    (tup_C c i arg2 harg2 arg3 harg3 arg4 harg4 arg5 harg5 arg6 harg6 arg7 harg7 arg8 harg8 arg9 harg9 hc0 hc1 x0 x1 x2 x3 xsM xsL xsA).2.2.1 = k1_pay1 (k1_pay12 x0 x1 x2 xsM xsM xsL) := by
  unfold tup_C
  dsimp only
  rw [View.read_writes_eq_canon _ _ _ (scoverL_C c i arg2 harg2 arg3 harg3 arg4 harg4 arg5 harg5 arg6 harg6 arg7 harg7 arg8 harg8 arg9 harg9 hc0 hc1 x0 x1 x2 x3 xsM xsL xsA)]
  unfold kernelRun1_C
  dsimp only
  try sl_unfold_run_names
  rw [View.canon_cons_unit_zero (S := S512x1) hz]
  simp only [View.readCov_unit_zero (S := S512x1) _ hz, View.readCov_unit_zero (S := S512x1024) _ hz, View.readAt_eq_ld, harg2.read_unread, harg3.read_unread, harg4.read_unread, harg5.read_unread, harg7.read_unread, harg8.read_unread, harg9.read_unread,
    View.ld_unit_zero (S := S512x1) hz, View.ld_unit_zero (S := S1x1024) hz, View.ld_unit_zero (S := S512x1024) hz]

/-- The running weighted sum after the last key tile. -/
theorem tupC_A (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) :
    (tup_C c i arg2 harg2 arg3 harg3 arg4 harg4 arg5 harg5 arg6 harg6 arg7 harg7 arg8 harg8 arg9 harg9 hc0 hc1 x0 x1 x2 x3 xsM xsL xsA).2.2.2 = k1_pay2 (k1_pay10 x0 x1 x2 xsM xsM) (k1_pay11 x0 x1 x2 xsM) (slab i x3) xsA := by
  unfold tup_C
  dsimp only
  rw [View.read_writes_eq_canon _ _ _ (scoverA_C c i arg2 harg2 arg3 harg3 arg4 harg4 arg5 harg5 arg6 harg6 arg7 harg7 arg8 harg8 arg9 harg9 hc0 hc1 x0 x1 x2 x3 xsM xsL xsA)]
  unfold kernelRun1_C
  dsimp only
  try sl_unfold_run_names
  rw [View.canon_cons_unit_zero (S := S512x1024) hz]
  simp only [View.readCov_unit_zero (S := S512x1) _ hz, View.readCov_unit_zero (S := S512x1024) _ hz, View.readAt_eq_ld, harg2.read_unread, harg3.read_unread, harg4.read_unread, harg5.read_unread, harg7.read_unread, harg8.read_unread, harg9.read_unread,
    View.ld_unit_zero (S := S512x1) hz, View.ld_unit_zero (S := S1x1024) hz, View.ld_unit_zero (S := S512x1024) hz]

/-- The output block after the last key tile: the quotient of the updated weighted sum by the updated row sum, clipped at zero. -/
theorem tupC_O (c : Dev nD) (i : grid1.Coords) (arg2 : Memref sig .tc .vmem S512x1 .f32) (harg2 : arg2.IsWhole) (arg3 : Memref sig .tc .vmem S1x1024 .f32) (harg3 : arg3.IsWhole)
    (arg4 : Memref sig .tc .vmem S512x1024 .i32) (harg4 : arg4.IsWhole) (arg5 : Memref sig .tc .vmem S8192x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S512x1 .f32) (x1 : Vec F S1x1024 .f32) (x2 : Vec F S512x1024 .i32) (x3 : Vec F S8192x1024 .bf16) (xsM : Vec F S512x1 .f32) (xsL : Vec F S512x1 .f32) (xsA : Vec F S512x1024 .f32) :
    (tup_C c i arg2 harg2 arg3 harg3 arg4 harg4 arg5 harg5 arg6 harg6 arg7 harg7 arg8 harg8 arg9 harg9 hc0 hc1 x0 x1 x2 x3 xsM xsL xsA).1 = k1_pay4 (k1_pay2 (k1_pay10 x0 x1 x2 xsM xsM) (k1_pay11 x0 x1 x2 xsM) (slab i x3) xsA) (k1_pay1 (k1_pay12 x0 x1 x2 xsM xsM xsL)) := by
  unfold tup_C
  dsimp only
  rw [View.read_writes_eq_canon _ _ _ (cover4_C c i arg2 harg2 arg3 harg3 arg4 harg4 arg5 harg5 arg6 harg6 arg7 harg7 arg8 harg8 arg9 harg9 hc0 hc1 x0 x1 x2 x3 xsM xsL xsA)]
  unfold kernelRun1_C
  dsimp only
  try sl_unfold_run_names
  rw [View.canon_cons_unit_zero (S := S512x1024) hz]
  simp only [View.readCov_unit_zero (S := S512x1) _ hz, View.readCov_unit_zero (S := S512x1024) _ hz, View.readAt_eq_ld, harg2.read_unread, harg3.read_unread, harg4.read_unread, harg5.read_unread, harg7.read_unread, harg8.read_unread, harg9.read_unread,
    View.ld_unit_zero (S := S512x1) hz, View.ld_unit_zero (S := S1x1024) hz, View.ld_unit_zero (S := S512x1024) hz]

end Cert.KernelIdeal.Region1V

end
-- ==== Proof.KI.R1ValueRows.lean ====
/-
  Where each input block of the second call sits in its array, and the two families the value is stated over.

  The grid has 128 points, point t = 8·(query tile) + (key tile).  At point t the first projection's block is rows
  512·(t / 8) … of its column, the second projection's block is columns 1024·(t % 8) … of its row, the adjacency block is
  that row range by that column range, and the feature array is one block, the whole array, of which the body loads
  the 1024 rows from 1024·(t % 8) on.  An element of a block sits in its array, on each axis, at the block index times the
  block's extent plus the element's coordinate inside the block; the block indices are the printed index maps,
  evaluated once over the grid.  The value of the call is stated over the masked scores of a query row (a function
  of the key) and a column of the feature array (a function of the key).
-/
import proofs.«113575_j54150947668287_2_alg».proof.Proof.KI.R1ValuePieces
import proofs.«113575_j54150947668287_2_alg».proof.Proof.Spec
import Idealize.ShloMosaic.Lib.Pipeline.Value
import Idealize.ShloMosaic.Lib.ValueIdx

set_option maxRecDepth 16384

noncomputable section

namespace Cert.KernelIdeal.Region1V

open Cert.KernelIdeal Cert.KernelIdeal.Gen Cert.KernelIdeal.Region1
open Idealize.ShloMosaic Idealize.ShloMosaic.TcCoe Idealize.ShloMosaic.Tactic
open Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The two families -/

/-- The masked scores of query row p, as a function of the key: the specification's score of the two projection
    arrays and the adjacency array as the call finds them. -/
def sRow (c : Dev nD) (p : Fin 8192) : Fin 8192 → EReal :=
  Cert.Spec.score (Ideal.ofBits .f32 0x3E4CCCCD#32) (Ideal.ofBits .f32 0xD9FFCB9E#32)
    (fun i j => IntOp.cmpi .sgt ((V c main_arg1 : S8192x8192.Idx → BitVec 32) (ix2 i j)) 0#32)
    (fun i => (V c main_v2_1 : S8192x1.Idx → EReal) (ix2 i (0 : Fin 1)))
    (fun j => (V c main_v3 : S1x8192.Idx → EReal) (ix2 (0 : Fin 1) j)) p

/-- Column q of the feature array, as a function of the key. -/
def hCol (c : Dev nD) (q : Fin 1024) : Fin 8192 → EReal :=
  fun j => (V c main_v2_0 : S8192x1024.Idx → EReal) (ix2 j q)

/-! ## The index maps over the grid -/

theorem idxs1 : ∀ t : Fin cfg1.N,
    win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val / 8 ∧ win1_2.index t (1 : Fin 2) = t.val % 8
    ∧ win1_3.index t (0 : Fin 2) = 0 ∧ win1_3.index t (1 : Fin 2) = 0
    ∧ win1_4.index t (0 : Fin 2) = t.val / 8 ∧ win1_4.index t (1 : Fin 2) = 0 :=
  (by decide +kernel : ∀ t : Fin grid1.N, _)

/-- The row offset of the slab of the feature array the body loads at point t. -/
theorem offs1 : ∀ t : Fin cfg1.N,
    k1_off1 (grid1.coords t) (0 : Fin 2) = 1024 * (t.val % 8) ∧ k1_off1 (grid1.coords t) (1 : Fin 2) = 0 :=
  (by decide +kernel : ∀ t : Fin grid1.N, _)

/-! ## The blocks -/

/-- The first projection's block at point t, entry y, is the column at row 512·(t / 8) + y₀. -/
theorem rd_f1 (c : Dev nD) (t : Fin cfg1.N) (y : S512x1.Idx) (i : S8192x1.Idx)
    (h0 : (i 0).val = t.val / 8 * 512 + (y 0).val) (h1 : (i 1).val = (y 1).val) :
    (iblk1 V c 0 t : Vec Ideal S512x1 .f32) y = (V c main_v2_1 : S8192x1.Idx → EReal) i := by
  obtain ⟨e0, e1, -⟩ := idxs1 t
  unfold iblk1
  rw [View.read_apply]
  show (V c main_v2_1 : S8192x1.Idx → EReal) _ = _
  congr 1
  funext a
  apply Fin.ext
  match a with
  | ⟨0, _⟩ => show win1_0.index t (0 : Fin 2) * 512 + 1 * (y 0).val = (i 0).val; rw [e0, h0]; omega
  | ⟨1, _⟩ => show win1_0.index t (1 : Fin 2) * 1 + 1 * (y 1).val = (i 1).val; rw [e1, h1]; omega

/-- The second projection's block at point t, entry y, is the row at column 1024·(t % 8) + y₁. -/
theorem rd_f2 (c : Dev nD) (t : Fin cfg1.N) (y : S1x1024.Idx) (i : S1x8192.Idx)
    (h0 : (i 0).val = (y 0).val) (h1 : (i 1).val = t.val % 8 * 1024 + (y 1).val) :
    (iblk1 V c 1 t : Vec Ideal S1x1024 .f32) y = (V c main_v3 : S1x8192.Idx → EReal) i := by
  obtain ⟨-, -, e0, e1, -⟩ := idxs1 t
  unfold iblk1
  rw [View.read_apply]
  show (V c main_v3 : S1x8192.Idx → EReal) _ = _
  congr 1
  funext a
  apply Fin.ext
  match a with
  | ⟨0, _⟩ => show win1_1.index t (0 : Fin 2) * 1 + 1 * (y 0).val = (i 0).val; rw [e0, h0]; omega
  | ⟨1, _⟩ => show win1_1.index t (1 : Fin 2) * 1024 + 1 * (y 1).val = (i 1).val; rw [e1, h1]; omega

/-- The adjacency block at point t, entry y, is the array at row 512·(t / 8) + y₀, column 1024·(t % 8) + y₁. -/
theorem rd_adj (c : Dev nD) (t : Fin cfg1.N) (y : S512x1024.Idx) (i : S8192x8192.Idx)
    (h0 : (i 0).val = t.val / 8 * 512 + (y 0).val) (h1 : (i 1).val = t.val % 8 * 1024 + (y 1).val) :
    (iblk1 V c 2 t : Vec Ideal S512x1024 .i32) y = (V c main_arg1 : S8192x8192.Idx → BitVec 32) i := by
  obtain ⟨-, -, -, -, e0, e1, -⟩ := idxs1 t
  unfold iblk1
  rw [View.read_apply]
  show (V c main_arg1 : S8192x8192.Idx → BitVec 32) _ = _
  congr 1
  funext a
  apply Fin.ext
  match a with
  | ⟨0, _⟩ => show win1_2.index t (0 : Fin 2) * 512 + 1 * (y 0).val = (i 0).val; rw [e0, h0]; omega
  | ⟨1, _⟩ => show win1_2.index t (1 : Fin 2) * 1024 + 1 * (y 1).val = (i 1).val; rw [e1, h1]; omega

/-- The feature array's one block at every point is the array. -/
theorem rd_h (c : Dev nD) (t : Fin cfg1.N) (y : S8192x1024.Idx) :
    (iblk1 V c 3 t : Vec Ideal S8192x1024 .bf16) y = (V c main_v2_0 : S8192x1024.Idx → EReal) y := by
  obtain ⟨-, -, -, -, -, -, e0, e1, -⟩ := idxs1 t
  unfold iblk1
  rw [View.read_apply]
  show (V c main_v2_0 : S8192x1024.Idx → EReal) _ = _
  congr 1
  funext a
  apply Fin.ext
  match a with
  | ⟨0, _⟩ => show win1_3.index t (0 : Fin 2) * 8192 + 1 * (y 0).val = (y 0).val; rw [e0]; omega
  | ⟨1, _⟩ => show win1_3.index t (1 : Fin 2) * 1024 + 1 * (y 1).val = (y 1).val; rw [e1]; omega

/-- The slab the body loads at point t, entry y, is the feature array at row 1024·(t % 8) + y₀. -/
theorem rd_slab (c : Dev nD) (t : Fin cfg1.N) (y : S1024x1024.Idx) (i : S8192x1024.Idx)
    (h0 : (i 0).val = t.val % 8 * 1024 + (y 0).val) (h1 : (i 1).val = (y 1).val) :
    (slab (grid1.coords t) (iblk1 V c 3 t) : Vec Ideal S1024x1024 .bf16) y = (V c main_v2_0 : S8192x1024.Idx → EReal) i := by
  obtain ⟨o0, o1⟩ := offs1 t
  show (iblk1 V c 3 t : Vec Ideal S8192x1024 .bf16) _ = _
  rw [rd_h]
  congr 1
  funext a
  apply Fin.ext
  match a with
  | ⟨0, _⟩ => show k1_off1 (grid1.coords t) (0 : Fin 2) + 1 * (y 0).val = (i 0).val; rw [o0, h0]; omega
  | ⟨1, _⟩ => show k1_off1 (grid1.coords t) (1 : Fin 2) + 1 * (y 1).val = (i 1).val; rw [o1, h1]; omega

end Cert.KernelIdeal.Region1V

end
-- ==== Proof.KI.R1PayScore.lean ====
/-
  The masked score of one query row against one key, on the extended reals.

  For query row r and key j of a tile the score is built from the row's projection a = f1(r) (a column, repeated along
  the keys) and the key's projection b = f2(j) (a row, repeated along the queries): e = a + b, then the leaky
  rectifier (e where e ≥ 0, slope · e otherwise), kept where the adjacency entry is positive as a signed integer and
  replaced by a large negative constant elsewhere.  Every step is entry by entry; only the two repetitions move
  coordinates, and they read the column at (r, 0) and the row at (0, j).
-/
import proofs.«113575_j54150947668287_2_alg».proof.Proof.Gen.KernelIdeal.Skeleton
import proofs.«113575_j54150947668287_2_alg».proof.Proof.Spec
import proofs.«113575_j54150947668287_2_alg».proof.Proof.LibRowOps
import Idealize.ShloMosaic.Lib.ValueLayout

noncomputable section

namespace Cert.KernelIdeal.Region1P

open Idealize.ShloMosaic Idealize.ShloMosaic.ValueIdx Cert.KernelIdeal Cert.KernelIdeal.Gen

/-- The sum of the repeated column and the repeated row, at (r, j): the column at (r, 0) plus the row at (0, j). -/
theorem pre_at (x0 : FVec Ideal S512x1 .f32) (x1 : FVec Ideal S1x1024 .f32)
    (h1 : S512x1.ShapeCasts S512x1) (h2 : S512x1.Broadcasts S512x1024)
    (h3 : S1x1024.ShapeCasts S1x1024) (h4 : S1x1024.Broadcasts S512x1024) (r : Fin 512) (j : Fin 1024) :
    addf (broadcastTo S512x1024 (shapeCast S512x1 x0 h1) h2) (broadcastTo S512x1024 (shapeCast S1x1024 x1 h3) h4) (ix2 r j)
      = x0 (ix2 r (0 : Fin 1)) + x1 (ix2 (0 : Fin 1) j) := by
  rw [shapeCast_self, shapeCast_self]
  show broadcastTo S512x1024 x0 h2 (ix2 r j) + broadcastTo S512x1024 x1 h4 (ix2 r j) = _
  rw [Cert.RowOps.spread_apply, broadcastTo_1b_ab_apply]

/-- The masked score at (r, j): the leaky rectifier of f1(r) + f2(j) where the adjacency entry is positive, the
    large negative constant elsewhere. -/
theorem score_at (x0 : FVec Ideal S512x1 .f32) (x1 : FVec Ideal S1x1024 .f32) (x2 : Vec Ideal S512x1024 .i32)
    (r : Fin 512) (j : Fin 1024) :
    k1_pay8 (F := Ideal) x0 x1 x2 (ix2 r j)
      = (if (cmpi .sgt x2 (broadcast S512x1024 (0#32 : BitVec 32))) (ix2 r j) = 1#1
          then Cert.Spec.lrelu (Ideal.ofBits .f32 0x3E4CCCCD#32) (x0 (ix2 r (0 : Fin 1)) + x1 (ix2 (0 : Fin 1) j))
          else Ideal.ofBits .f32 0xD9FFCB9E#32) := by
  unfold k1_pay8
  simp only [select_apply, cmpf_apply, mulf_apply, broadcast_apply, pre_at, Ideal.cmpf_def, Ideal.ofBits_def,
    Ideal.ofBits_zero_f32, Cert.Spec.lrelu, Scalar.select]
  rfl

end Cert.KernelIdeal.Region1P

end
-- ==== Proof.KI.R1PayInit.lean ====
/-
  The starting values of the running maximum, running sum and running weighted sum, and the final quotient.

  Before the first key tile the running maximum of every query row is −∞, its running sum is 0 and its running
  weighted sum is 0 in every column.  After the last key tile the output entry (r, q) is the weighted sum divided by
  the row's running sum, cut off below at 0.
-/
import proofs.«113575_j54150947668287_2_alg».proof.Proof.Gen.KernelIdeal.Skeleton
import proofs.«113575_j54150947668287_2_alg».proof.Proof.LibRowOps
import Idealize.ShloMosaic.Lib.ValueLayout

noncomputable section

namespace Cert.KernelIdeal.Region1P

open Idealize.ShloMosaic Idealize.ShloMosaic.ValueIdx Cert.KernelIdeal Cert.KernelIdeal.Gen

/-- The word of −∞ denotes the bottom of the extended reals. -/
theorem ofBits_neg_inf : Ideal.ofBits .f32 0xFF800000#32 = ⊥ := by simp [Ideal.ofBits, Ideal.ieee]

/-- The running maximum starts at −∞. -/
theorem initM_at (r : Fin 512) : k1_pay5 (F := Ideal) (ix2 r (0 : Fin 1)) = ⊥ := by
  unfold k1_pay5
  rw [shapeCast_self]
  exact ofBits_neg_inf

/-- The running sum starts at 0. -/
theorem initL_at (r : Fin 512) : k1_pay6 (F := Ideal) (ix2 r (0 : Fin 1)) = 0 := by
  unfold k1_pay6
  rw [shapeCast_self]
  exact Ideal.ofBits_zero_f32

/-- The running weighted sum starts at 0. -/
theorem initA_at (r : Fin 512) (q : Fin 1024) : k1_pay7 (F := Ideal) (ix2 r q) = 0 := by
  unfold k1_pay7
  rw [shapeCast_self]
  exact Ideal.ofBits_zero_f32

/-- The output entry (r, q): the weighted sum over the row's running sum, cut off below at 0. -/
theorem out_at (A : FVec Ideal S512x1024 .f32) (L : FVec Ideal S512x1 .f32) (r : Fin 512) (q : Fin 1024) :
    k1_pay4 (F := Ideal) A L (ix2 r q) = max (Ideal.div (A (ix2 r q)) (L (ix2 r (0 : Fin 1)))) 0 := by
  unfold k1_pay4
  show max (Ideal.div (A (ix2 r q)) (broadcastTo S512x1024 L _ (ix2 r q))) (Ideal.ofBits .f32 0x00000000#32) = _
  rw [Cert.RowOps.spread_apply, Ideal.ofBits_zero_f32]

end Cert.KernelIdeal.Region1P

end
-- ==== Proof.KI.R1PayMax.lean ====
/-
  The running maximum of one query row over a key tile, and the two exponentials taken against it.

  The largest score of row r within a tile is the supremum over the tile's keys (the fold of max from −∞ is the supremum, the
  extended reals having a least element); the new running maximum is the larger of it and the old one.  The correction factor
  of the row is exp(old maximum − new maximum) and the weight of key j is exp(score(r, j) − new maximum).
-/
import proofs.«113575_j54150947668287_2_alg».proof.Proof.Gen.KernelIdeal.Skeleton
import proofs.«113575_j54150947668287_2_alg».proof.Proof.LibRowOps
import Idealize.ShloMosaic.Lib.ValueLayout

noncomputable section

namespace Cert.KernelIdeal.Region1P

open Idealize.ShloMosaic Idealize.ShloMosaic.ValueIdx Cert.KernelIdeal Cert.KernelIdeal.Gen

/-- The word of −∞ denotes the bottom of the extended reals. -/
private theorem bot_word : Ideal.ofBits .f32 0xFF800000#32 = ⊥ := by simp [Ideal.ofBits, Ideal.ieee]

/-- The maximum along the keys, viewed as a column, at (r, 0): the supremum of row r. -/
theorem rowmax_at (src : FVec Ideal S512x1024 .f32) (h : S512x1024.Reduces [1] S512) (hφ : FKind.Formats .f32)
    (hacc : (0xFF800000#32 : BitVec 32) = FKind.maximumf.neutral .f32 hφ) (hc : S512.ShapeCasts S512x1) (r : Fin 512) :
    shapeCast S512x1 (multiReduction .maximumf [1] S512 src 0xFF800000#32 h hφ hacc) hc (ix2 r (0 : Fin 1))
      = Finset.univ.sup fun j : Fin 1024 => src (ix2 r j) := by
  rw [Cert.RowOps.column_apply]
  refine (Cert.RowOps.rowMax_apply src _ h hφ hacc r).trans ?_
  rw [bot_word]
  rfl

/-- The new running maximum of row r: the larger of the old one and the tile's largest score. -/
theorem newmax_at (x0 : FVec Ideal S512x1 .f32) (x1 : FVec Ideal S1x1024 .f32) (x2 : Vec Ideal S512x1024 .i32)
    (M0 : FVec Ideal S512x1 .f32) (r : Fin 512) :
    k1_pay9 (F := Ideal) x0 x1 x2 M0 (ix2 r (0 : Fin 1))
      = max (M0 (ix2 r (0 : Fin 1))) (Finset.univ.sup fun j : Fin 1024 => k1_pay8 (F := Ideal) x0 x1 x2 (ix2 r j)) := by
  unfold k1_pay9
  exact congrArg (max (M0 (ix2 r (0 : Fin 1)))) (rowmax_at (k1_pay8 (F := Ideal) x0 x1 x2) _ _ _ _ r)

/-- The same, as the value stored back into the running maximum. -/
theorem max_at (x0 : FVec Ideal S512x1 .f32) (x1 : FVec Ideal S1x1024 .f32) (x2 : Vec Ideal S512x1024 .i32)
    (M0 : FVec Ideal S512x1 .f32) (r : Fin 512) :
    k1_pay3 (k1_pay9 (F := Ideal) x0 x1 x2 M0) (ix2 r (0 : Fin 1))
      = max (M0 (ix2 r (0 : Fin 1))) (Finset.univ.sup fun j : Fin 1024 => k1_pay8 (F := Ideal) x0 x1 x2 (ix2 r j)) := by
  unfold k1_pay3
  rw [shapeCast_self]
  exact newmax_at x0 x1 x2 M0 r

/-- The correction factor of row r: exp(old maximum − new maximum). -/
theorem corr_at (x0 : FVec Ideal S512x1 .f32) (x1 : FVec Ideal S1x1024 .f32) (x2 : Vec Ideal S512x1024 .i32)
    (M0 M0' : FVec Ideal S512x1 .f32) (r : Fin 512) :
    k1_pay10 (F := Ideal) x0 x1 x2 M0 M0' (ix2 r (0 : Fin 1))
      = Ideal.exp (M0' (ix2 r (0 : Fin 1)) - k1_pay9 (F := Ideal) x0 x1 x2 M0 (ix2 r (0 : Fin 1))) := by
  unfold k1_pay10
  rfl

/-- The weight of key j for row r: exp(score − new maximum). -/
theorem p_at (x0 : FVec Ideal S512x1 .f32) (x1 : FVec Ideal S1x1024 .f32) (x2 : Vec Ideal S512x1024 .i32)
    (M0 : FVec Ideal S512x1 .f32) (r : Fin 512) (j : Fin 1024) :
    k1_pay11 (F := Ideal) x0 x1 x2 M0 (ix2 r j)
      = Ideal.exp (k1_pay8 (F := Ideal) x0 x1 x2 (ix2 r j) - k1_pay9 (F := Ideal) x0 x1 x2 M0 (ix2 r (0 : Fin 1))) := by
  unfold k1_pay11
  show Ideal.exp (k1_pay8 (F := Ideal) x0 x1 x2 (ix2 r j)
    - broadcastTo S512x1024 (k1_pay9 (F := Ideal) x0 x1 x2 M0) broadcasts_S512x1_S512x1024 (ix2 r j)) = _
  rw [Cert.RowOps.spread_apply]

end Cert.KernelIdeal.Region1P

end
-- ==== Proof.KI.R1PaySum.lean ====
/-
  The running sum of one query row after a key tile.

  The old running sum is scaled by the row's correction factor and the tile's weights are added: at row r the new value is
  correction(r) · old sum(r) + the sum over the tile's keys j of weight(r, j).  The sum along the keys, viewed as a
  column, reads at (r, 0) the plain sum of row r: the reduction starts from the zero word and contributes nothing else.
-/
import proofs.«113575_j54150947668287_2_alg».proof.Proof.Gen.KernelIdeal.Skeleton
import proofs.«113575_j54150947668287_2_alg».proof.Proof.LibRowOps
import Idealize.ShloMosaic.Lib.ValueLayout

noncomputable section

namespace Cert.KernelIdeal.Region1P

open Idealize.ShloMosaic Idealize.ShloMosaic.ValueIdx Cert.KernelIdeal Cert.KernelIdeal.Gen

/-- The sum along the keys, viewed as a column, at (r, 0): the sum of row r. -/
theorem rowsum_at (src : FVec Ideal S512x1024 .f32) (h : S512x1024.Reduces [1] S512) (hφ : FKind.Formats .f32)
    (hacc : (0x00000000#32 : BitVec 32) = FKind.add.neutral .f32 hφ) (hc : S512.ShapeCasts S512x1) (r : Fin 512) :
    shapeCast S512x1 (multiReduction .add [1] S512 src 0x00000000#32 h hφ hacc) hc (ix2 r (0 : Fin 1))
      = ∑ j : Fin 1024, src (ix2 r j) := by
  rw [Cert.RowOps.column_apply]
  exact Cert.RowOps.rowSum_apply src _ h hφ hacc r

/-- The new running sum of row r: correction · old sum + the tile's weights summed. -/
theorem newsum_at (x0 : FVec Ideal S512x1 .f32) (x1 : FVec Ideal S1x1024 .f32) (x2 : Vec Ideal S512x1024 .i32)
    (M0 M0' L0 : FVec Ideal S512x1 .f32) (r : Fin 512) :
    k1_pay12 (F := Ideal) x0 x1 x2 M0 M0' L0 (ix2 r (0 : Fin 1))
      = k1_pay10 (F := Ideal) x0 x1 x2 M0 M0' (ix2 r (0 : Fin 1)) * L0 (ix2 r (0 : Fin 1))
        + ∑ j : Fin 1024, k1_pay11 (F := Ideal) x0 x1 x2 M0 (ix2 r j) := by
  unfold k1_pay12
  exact congrArg (k1_pay10 (F := Ideal) x0 x1 x2 M0 M0' (ix2 r (0 : Fin 1)) * L0 (ix2 r (0 : Fin 1)) + ·)
    (rowsum_at (k1_pay11 (F := Ideal) x0 x1 x2 M0) _ _ _ _ r)

/-- The same, as the value stored back into the running sum. -/
theorem sum_at (x0 : FVec Ideal S512x1 .f32) (x1 : FVec Ideal S1x1024 .f32) (x2 : Vec Ideal S512x1024 .i32)
    (M0 M0' L0 : FVec Ideal S512x1 .f32) (r : Fin 512) :
    k1_pay1 (k1_pay12 (F := Ideal) x0 x1 x2 M0 M0' L0) (ix2 r (0 : Fin 1))
      = k1_pay10 (F := Ideal) x0 x1 x2 M0 M0' (ix2 r (0 : Fin 1)) * L0 (ix2 r (0 : Fin 1))
        + ∑ j : Fin 1024, k1_pay11 (F := Ideal) x0 x1 x2 M0 (ix2 r j) := by
  unfold k1_pay1
  rw [shapeCast_self]
  exact newsum_at x0 x1 x2 M0 M0' L0 r

end Cert.KernelIdeal.Region1P

end
-- ==== Proof.KI.R1PayAcc.lean ====
/-
  The running weighted sum of one query row after a key tile.

  The old weighted sum is scaled by the row's correction factor and the tile's contribution is added: at (r, q) the new value is
  correction(r) · old(r, q) + the sum over the tile's keys j of weight(r, j) · h(j, q).  The contribution is a plain matrix
  product into a zero accumulator, hence that sum over the shared axis; narrowing the weights to a shorter float format
  changes nothing on the extended reals.
-/
import proofs.«113575_j54150947668287_2_alg».proof.Proof.Gen.KernelIdeal.Skeleton
import proofs.«113575_j54150947668287_2_alg».proof.Proof.LibRowOps
import Idealize.ShloMosaic.Lib.ValueLayout

noncomputable section

namespace Cert.KernelIdeal.Region1P

open Idealize.ShloMosaic Idealize.ShloMosaic.ValueIdx Cert.KernelIdeal Cert.KernelIdeal.Gen

/-- The product of the weights with the key tile's rows of h is a plain [512, 1024] × [1024, 1024] product. -/
theorem plain_dot : Cert.RowOps.IsPlain dot_S512x1024_S1024x1024_S512x1024_1_0_0_1_n_n :=
  ⟨rfl, rfl, rfl, rfl, rfl, rfl⟩

/-- The new running weighted sum at (r, q). -/
theorem acc_at (cr : FVec Ideal S512x1 .f32) (p : FVec Ideal S512x1024 .f32) (hb : Vec Ideal S1024x1024 .bf16)
    (A0 : Vec Ideal S512x1024 .f32) (r : Fin 512) (q : Fin 1024) :
    k1_pay2 (F := Ideal) cr p hb A0 (ix2 r q)
      = cr (ix2 r (0 : Fin 1)) * A0 (ix2 r q) + ∑ j : Fin 1024, p (ix2 r j) * hb (ix2 j q) := by
  unfold k1_pay2
  rw [shapeCast_self, shapeCast_self]
  show broadcastTo S512x1024 cr broadcasts_S512x1_S512x1024 (ix2 r q) * A0 (ix2 r q)
      + FloatOps.matmul dot_S512x1024_S1024x1024_S512x1024_1_0_0_1_n_n none (truncf .bf16 p bitsLt_bf16_f32) hb
          (constant S512x1024 .f32 0x00000000#32) (ix2 r q) = _
  rw [Cert.RowOps.spread_apply, Cert.RowOps.matmul_zero_apply plain_dot]
  rfl

end Cert.KernelIdeal.Region1P

end
-- ==== Proof.KI.R1ValueStep.lean ====
/-
  One key tile of the running maximum, running sum and running weighted sum of a query row, against the
  tile-by-tile recursion of the specification.

  Fix a query row (through its masked scores s as a function of the key) and a feature column (hq as a function of
  the key).  If the three carried values of the row agree with the specification's state after k key tiles, if the
  tile's scores are the row's scores at the tile's keys, and if the loaded rows of the feature array are the
  column's entries at the tile's keys, then after the body's update the three carried values are the specification's
  state after k + 1 tiles.  At a grid point the blocks the body reads are that row's and that tile's entries of the
  arrays.
-/
import proofs.«113575_j54150947668287_2_alg».proof.Proof.KI.R1ValueRows
import proofs.«113575_j54150947668287_2_alg».proof.Proof.KI.R1PayScore
import proofs.«113575_j54150947668287_2_alg».proof.Proof.KI.R1PayInit
import proofs.«113575_j54150947668287_2_alg».proof.Proof.KI.R1PayMax
import proofs.«113575_j54150947668287_2_alg».proof.Proof.KI.R1PaySum
import proofs.«113575_j54150947668287_2_alg».proof.Proof.KI.R1PayAcc
import proofs.«113575_j54150947668287_2_alg».proof.Proof.OnlineDef

set_option maxRecDepth 16384

noncomputable section

namespace Cert.KernelIdeal.Region1V

open Cert.KernelIdeal Cert.KernelIdeal.Gen Cert.KernelIdeal.Region1
open Idealize.ShloMosaic Idealize.ShloMosaic.TcCoe Idealize.ShloMosaic.Tactic
open Idealize.SL.Sem Idealize.ShloMosaic.ValueIdx Cert.KernelIdeal.Region1P
open Idealize.ShloMosaic.Pipeline (Dat Cfg Window)

open Cert.Spec (online key key_val)

/-! ## One tile, over abstract blocks -/

/-- One update of the three carried values of row r (and column q of the weighted sum) is one step of the
    specification's recursion. -/
theorem step (x0 : FVec Ideal S512x1 .f32) (x1 : FVec Ideal S1x1024 .f32) (x2 : Vec Ideal S512x1024 .i32)
    (hb : Vec Ideal S1024x1024 .bf16) (M0 L0 : FVec Ideal S512x1 .f32) (A0 : Vec Ideal S512x1024 .f32)
    (s hq : Fin 8192 → EReal) (k : ℕ) (r : Fin 512) (q : Fin 1024)
    (hs : ∀ j : Fin 1024, k1_pay8 (F := Ideal) x0 x1 x2 (ix2 r j) = s (key k j))
    (hh : ∀ j : Fin 1024, hb (ix2 j q) = hq (key k j))
    (hM : M0 (ix2 r (0 : Fin 1)) = (online s hq k).1) (hL : L0 (ix2 r (0 : Fin 1)) = (online s hq k).2.1)
    (hA : A0 (ix2 r q) = (online s hq k).2.2) :
    k1_pay3 (k1_pay9 (F := Ideal) x0 x1 x2 M0) (ix2 r (0 : Fin 1)) = (online s hq (k + 1)).1
    ∧ k1_pay1 (k1_pay12 (F := Ideal) x0 x1 x2 M0 M0 L0) (ix2 r (0 : Fin 1)) = (online s hq (k + 1)).2.1
    ∧ k1_pay2 (F := Ideal) (k1_pay10 (F := Ideal) x0 x1 x2 M0 M0) (k1_pay11 (F := Ideal) x0 x1 x2 M0) hb A0 (ix2 r q)
        = (online s hq (k + 1)).2.2 := by
  have hsup : (Finset.univ.sup fun j : Fin 1024 => k1_pay8 (F := Ideal) x0 x1 x2 (ix2 r j))
      = Finset.univ.sup fun j : Fin 1024 => s (key k j) := congrArg _ (funext hs)
  have hnew : k1_pay9 (F := Ideal) x0 x1 x2 M0 (ix2 r (0 : Fin 1))
      = max (online s hq k).1 (Finset.univ.sup fun j : Fin 1024 => s (key k j)) := by
    rw [newmax_at, hM, hsup]
  refine ⟨?_, ?_, ?_⟩
  · rw [max_at, hM, hsup]; rfl
  · rw [sum_at, corr_at, hnew, hM, hL]
    simp only [p_at, hs, hnew]
    show _ = _ + (0 + _)
    rw [zero_add]
  · rw [acc_at, corr_at, hnew, hM, hA]
    simp only [p_at, hs, hnew, hh]
    rfl

/-! ## At a grid point -/

variable (V : (c : Dev nD) → (b : Ref sig .tc) → Buf (Elt Ideal) ((c : Thread nD τ).loc b))

theorem val_lt (t : Fin cfg1.N) : t.val < 128 := lt_of_lt_of_eq t.isLt (show cfg1.N = 128 from N_1)

/-- The query row that row r of point t's query tile is: 512·(t / 8) + r. -/
def qrow (t : Fin cfg1.N) (r : Fin 512) : Fin 8192 :=
  ⟨t.val / 8 * 512 + r.val, by have := val_lt t; have := r.isLt; omega⟩

/-- The scores the body computes at point t, row r, are row 512·(t / 8) + r's scores at the keys of tile t % 8. -/
theorem score_blk (c : Dev nD) (t : Fin cfg1.N) (r : Fin 512) (j : Fin 1024) :
    k1_pay8 (F := Ideal) (iblk1 V c 0 t) (iblk1 V c 1 t) (iblk1 V c 2 t) (ix2 r j)
      = sRow V c (qrow t r) (key (t.val % 8) j) := by
  have hk : (key (t.val % 8) j).val = t.val % 8 * 1024 + j.val := key_val _ (by omega) j
  rw [score_at]
  show (if IntOp.cmpi .sgt ((iblk1 V c 2 t : Vec Ideal S512x1024 .i32) (ix2 r j)) 0#32 = 1#1 then _ else _) = _
  rw [rd_f1 V c t (ix2 r (0 : Fin 1)) (ix2 (qrow t r) (0 : Fin 1)) rfl rfl,
    rd_f2 V c t (ix2 (0 : Fin 1) j) (ix2 (0 : Fin 1) (key (t.val % 8) j)) rfl hk,
    rd_adj V c t (ix2 r j) (ix2 (qrow t r) (key (t.val % 8) j)) rfl hk]
  rfl

/-- The rows of the feature array the body loads at point t are the column's entries at the keys of tile t % 8. -/
theorem slab_blk (c : Dev nD) (t : Fin cfg1.N) (j q : Fin 1024) :
    (slab (grid1.coords t) (iblk1 V c 3 t) : Vec Ideal S1024x1024 .bf16) (ix2 j q) = hCol V c q (key (t.val % 8) j) :=
  rd_slab V c t (ix2 j q) (ix2 (key (t.val % 8) j) q) (key_val _ (by omega) j) rfl

/-- One update at grid point t is one step of the specification's recursion for the point's rows. -/
theorem point_step (c : Dev nD) (t : Fin cfg1.N) (M0 L0 : FVec Ideal S512x1 .f32) (A0 : Vec Ideal S512x1024 .f32)
    (r : Fin 512) (q : Fin 1024)
    (hM : M0 (ix2 r (0 : Fin 1)) = (online (sRow V c (qrow t r)) (hCol V c q) (t.val % 8)).1)
    (hL : L0 (ix2 r (0 : Fin 1)) = (online (sRow V c (qrow t r)) (hCol V c q) (t.val % 8)).2.1)
    (hA : A0 (ix2 r q) = (online (sRow V c (qrow t r)) (hCol V c q) (t.val % 8)).2.2) :
    k1_pay3 (k1_pay9 (F := Ideal) (iblk1 V c 0 t) (iblk1 V c 1 t) (iblk1 V c 2 t) M0) (ix2 r (0 : Fin 1))
        = (online (sRow V c (qrow t r)) (hCol V c q) (t.val % 8 + 1)).1
    ∧ k1_pay1 (k1_pay12 (F := Ideal) (iblk1 V c 0 t) (iblk1 V c 1 t) (iblk1 V c 2 t) M0 M0 L0) (ix2 r (0 : Fin 1))
        = (online (sRow V c (qrow t r)) (hCol V c q) (t.val % 8 + 1)).2.1
    ∧ k1_pay2 (F := Ideal) (k1_pay10 (F := Ideal) (iblk1 V c 0 t) (iblk1 V c 1 t) (iblk1 V c 2 t) M0 M0)
          (k1_pay11 (F := Ideal) (iblk1 V c 0 t) (iblk1 V c 1 t) (iblk1 V c 2 t) M0)
          (slab (grid1.coords t) (iblk1 V c 3 t)) A0 (ix2 r q)
        = (online (sRow V c (qrow t r)) (hCol V c q) (t.val % 8 + 1)).2.2 :=
  step (iblk1 V c 0 t) (iblk1 V c 1 t) (iblk1 V c 2 t) (slab (grid1.coords t) (iblk1 V c 3 t)) M0 L0 A0
    (sRow V c (qrow t r)) (hCol V c q) (t.val % 8) r q (fun j => score_blk V c t r j) (fun j => slab_blk V c t j q) hM hL hA

end Cert.KernelIdeal.Region1V

end
-- ==== Proof.KI.R1ValueInv.lean ====
/-
  The three carried values after every grid point are the specification's tile-by-tile recursion.

  By induction over the position: at the first key tile of a query tile the carried values are reset to the
  recursion's starting state and updated once; at every later key tile they are the update of what the point before
  left, which by induction is the recursion's state one tile earlier for the same query rows (the point before lies in
  the same query tile).  After key tile k of a query tile the carried values of its row r are therefore the
  recursion's state after k + 1 tiles for query row 512·(query tile) + r.
-/
import proofs.«113575_j54150947668287_2_alg».proof.Proof.KI.R1ValueStep

set_option maxRecDepth 16384

noncomputable section

namespace Cert.KernelIdeal.Region1V

open Cert.KernelIdeal Cert.KernelIdeal.Gen Cert.KernelIdeal.Region1
open Idealize.ShloMosaic Idealize.ShloMosaic.TcCoe Idealize.ShloMosaic.Tactic
open Idealize.SL.Sem Idealize.ShloMosaic.ValueIdx Cert.KernelIdeal.Region1P
open Idealize.ShloMosaic.Pipeline (Dat Cfg Window)

open Cert.Spec (online key key_val)

variable (V : (c : Dev nD) → (b : Ref sig .tc) → Buf (Elt Ideal) ((c : Thread nD τ).loc b))

/-- After point t the carried values of row r (and column q) are the recursion's state after t % 8 + 1 tiles. -/
def InvAt (c : Dev nD) (t : Fin cfg1.N) (r : Fin 512) (q : Fin 1024) : Prop :=
  ((outsAt1 V c t.val t.isLt).2.1 : Vec Ideal S512x1 .f32) (ix2 r (0 : Fin 1))
      = (online (sRow V c (qrow t r)) (hCol V c q) (t.val % 8 + 1)).1
  ∧ ((outsAt1 V c t.val t.isLt).2.2.1 : Vec Ideal S512x1 .f32) (ix2 r (0 : Fin 1))
      = (online (sRow V c (qrow t r)) (hCol V c q) (t.val % 8 + 1)).2.1
  ∧ ((outsAt1 V c t.val t.isLt).2.2.2 : Vec Ideal S512x1024 .f32) (ix2 r q)
      = (online (sRow V c (qrow t r)) (hCol V c q) (t.val % 8 + 1)).2.2

/-- At the first key tile of a query tile: the reset values are the recursion's starting state. -/
theorem inv_first (c : Dev nD) (t : Fin cfg1.N) (h0 : t.val % 8 = 0) (r : Fin 512) (q : Fin 1024) : InvAt V c t r q := by
  have h1 : ¬t.val % 8 = 7 := by omega
  have e := outsAt1_A V c t h0 h1
  have eM : (outsAt1 V c t.val t.isLt).2.1 = k1_pay3 (k1_pay9 (F := Ideal) (iblk1 V c 0 t) (iblk1 V c 1 t) (iblk1 V c 2 t) (k1_pay5 (F := Ideal))) :=
    (congrArg (fun z => z.2.1) e).trans
      (tupA_M (F := Ideal) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t))
  have eL : (outsAt1 V c t.val t.isLt).2.2.1 = k1_pay1 (k1_pay12 (F := Ideal) (iblk1 V c 0 t) (iblk1 V c 1 t) (iblk1 V c 2 t) (k1_pay5 (F := Ideal)) (k1_pay5 (F := Ideal)) (k1_pay6 (F := Ideal))) :=
    (congrArg (fun z => z.2.2.1) e).trans
      (tupA_L (F := Ideal) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t))
  have eA : (outsAt1 V c t.val t.isLt).2.2.2 = k1_pay2 (F := Ideal) (k1_pay10 (F := Ideal) (iblk1 V c 0 t) (iblk1 V c 1 t) (iblk1 V c 2 t) (k1_pay5 (F := Ideal)) (k1_pay5 (F := Ideal))) (k1_pay11 (F := Ideal) (iblk1 V c 0 t) (iblk1 V c 1 t) (iblk1 V c 2 t) (k1_pay5 (F := Ideal))) (slab (grid1.coords t) (iblk1 V c 3 t)) (k1_pay7 (F := Ideal)) :=
    (congrArg (fun z => z.2.2.2) e).trans
      (tupA_A (F := Ideal) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) ((hcond1_0 t).mpr h0) (fun h => h1 ((hcond1_1 t).mp h)) (iblk1 V c 0 t) (iblk1 V c 1 t) (iblk1 V c 2 t) (iblk1 V c 3 t))
  unfold InvAt
  rw [eM, eL, eA]
  exact point_step V c t (k1_pay5 (F := Ideal)) (k1_pay6 (F := Ideal)) (k1_pay7 (F := Ideal)) r q
    (by rw [h0, Cert.Spec.online_zero]; exact initM_at r)
    (by rw [h0, Cert.Spec.online_zero]; exact initL_at r)
    (by rw [h0, Cert.Spec.online_zero]; exact initA_at r q)

/-- At a later key tile: the update of what the point before left. -/
theorem inv_later (c : Dev nD) (t : Fin cfg1.N) (h0 : ¬t.val % 8 = 0)
    (ih : ∀ (r : Fin 512) (q : Fin 1024), InvAt V c ⟨t.val - 1, Nat.lt_of_le_of_lt (Nat.sub_le _ _) t.isLt⟩ r q)
    (r : Fin 512) (q : Fin 1024) : InvAt V c t r q := by
  obtain ⟨iM, iL, iA⟩ := ih r q
  have hq : qrow ⟨t.val - 1, Nat.lt_of_le_of_lt (Nat.sub_le _ _) t.isLt⟩ r = qrow t r :=
    Fin.ext (by show (t.val - 1) / 8 * 512 + r.val = t.val / 8 * 512 + r.val; omega)
  have hk : (t.val - 1) % 8 + 1 = t.val % 8 := by omega
  rw [hq] at iM iL iA
  rw [show ((⟨t.val - 1, Nat.lt_of_le_of_lt (Nat.sub_le _ _) t.isLt⟩ : Fin cfg1.N).val % 8 + 1) = t.val % 8 from hk] at iM iL iA
  by_cases h1 : t.val % 8 = 7
  · have e := outsAt1_C V c t h0 h1
    have eM := (congrArg (fun z => z.2.1) e).trans
      (tupC_M (F := Ideal) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) _ _ _)
    have eL := (congrArg (fun z => z.2.2.1) e).trans
      (tupC_L (F := Ideal) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) _ _ _)
    have eA := (congrArg (fun z => z.2.2.2) e).trans
      (tupC_A (F := Ideal) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h1) (iblk1 V c 0 t) (iblk1 V c 1 t) (iblk1 V c 2 t) (iblk1 V c 3 t) _ _ _)
    unfold InvAt
    rw [eM, eL, eA]
    exact point_step V c t _ _ _ r q iM iL iA
  · have e := outsAt1_B V c t h0 h1
    have eM := (congrArg (fun z => z.2.1) e).trans
      (tupB_M (F := Ideal) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) _ _ _)
    have eL := (congrArg (fun z => z.2.2.1) e).trans
      (tupB_L (F := Ideal) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) _ _ _)
    have eA := (congrArg (fun z => z.2.2.2) e).trans
      (tupB_A (F := Ideal) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) (iblk1 V c 3 t) _ _ _)
    unfold InvAt
    rw [eM, eL, eA]
    exact point_step V c t _ _ _ r q iM iL iA

/-- The invariant at every position. -/
theorem inv (c : Dev nD) : ∀ (n : ℕ) (hn : n < cfg1.N) (r : Fin 512) (q : Fin 1024), InvAt V c ⟨n, hn⟩ r q
  | 0, hn => fun r q => inv_first V c ⟨0, hn⟩ rfl r q
  | n + 1, hn => fun r q => by
    by_cases h0 : (n + 1) % 8 = 0
    · exact inv_first V c ⟨n + 1, hn⟩ h0 r q
    · exact inv_later V c ⟨n + 1, hn⟩ h0 (fun r q => inv c n (Nat.lt_of_succ_lt hn) r q) r q

/-- The invariant at a grid point. -/
theorem inv_at (c : Dev nD) (t : Fin cfg1.N) (r : Fin 512) (q : Fin 1024) : InvAt V c t r q :=
  inv V c t.val t.isLt r q

end Cert.KernelIdeal.Region1V

end
-- ==== Proof.KI.R1ValueArr.lean ====
/-
  From the output blocks of the second call to its array.

  The output window's block at point t = 8·(query tile) + (key tile) is rows 512·(query tile) … 512·(query tile) + 511
  of the output array, all 1024 columns, and it is written back only at the last key tile of each query tile
  (t % 8 = 7).  So when what every such point writes back is its block of ONE function G of the whole array, the array
  ends holding G: row p lies in the block of the writing point of its query tile, 8·(p / 512) + 7, and the sixteen
  writing points' blocks cover all 8192 rows.
-/
import proofs.«113575_j54150947668287_2_alg».proof.Proof.KI.R1Dat
import Idealize.ShloMosaic.Lib.Pipeline.Value
import Idealize.ShloMosaic.Lib.ValueIdx

noncomputable section

namespace Cert.KernelIdeal.Region1V

open Cert.KernelIdeal Cert.KernelIdeal.Gen Cert.KernelIdeal.Region1
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The output window's printed index map over the 128 grid points: row block t / 8 (the query tile), column block 0. -/
theorem idx_out1 : ∀ t : Fin cfg1.N, win1_4.index t (0 : Fin 2) = t.val / 8 ∧ win1_4.index t (1 : Fin 2) = 0 :=
  (by decide +kernel : ∀ t : Fin grid1.N, _)

/-- Where an element of the output block at point t sits in the array: row 512·(t / 8) + y₀, column y₁. -/
theorem outblk_emb_val (t : Fin cfg1.N) (y : S512x1024.Idx) :
    ((((cfg1.win 4).blk t).view.emb y : S8192x1024.Idx) 0).val = t.val / 8 * 512 + (y 0).val
      ∧ ((((cfg1.win 4).blk t).view.emb y : S8192x1024.Idx) 1).val = (y 1).val := by
  obtain ⟨e0, e1⟩ := idx_out1 t
  constructor
  · show win1_4.index t (0 : Fin 2) * 512 + 1 * (y 0).val = t.val / 8 * 512 + (y 0).val
    rw [e0]; omega
  · show win1_4.index t (1 : Fin 2) * 1024 + 1 * (y 1).val = (y 1).val
    rw [e1]; omega

/-- The same by coordinates: entry (r, q) of the block at point t is entry (512·(t / 8) + r, q) of the array. -/
theorem outblk_emb_ix2 (t : Fin cfg1.N) (r : Fin 512) (q : Fin 1024) (p : Fin 8192) (hp : p.val = t.val / 8 * 512 + r.val) :
    (((cfg1.win 4).blk t).view.emb (ix2 r q) : S8192x1024.Idx) = ix2 p q := by
  obtain ⟨h0, h1⟩ := outblk_emb_val t (ix2 r q)
  funext a
  apply Fin.ext
  match a with
  | ⟨0, _⟩ => exact h0.trans hp.symm
  | ⟨1, _⟩ => exact h1

/-- An entry of the array is in point t's block exactly when its row is one of the 512 rows of t's query tile. -/
theorem outblk_mem (t : Fin cfg1.N) (i : S8192x1024.Idx) :
    i ∈ ((cfg1.win 4).blk t).view.set ↔ t.val / 8 * 512 ≤ (i 0).val ∧ (i 0).val < t.val / 8 * 512 + 512 := by
  obtain ⟨e0, e1⟩ := idx_out1 t
  show i ∈ ((View.whole main_v4).slice (win1_4.rect t)).set ↔ _
  rw [View.set_slice_whole, Rect.mem_set_unit]
  constructor
  · intro h
    have b0 : win1_4.index t (0 : Fin 2) * 512 ≤ (i 0).val ∧ (i 0).val < win1_4.index t (0 : Fin 2) * 512 + 512 := h 0
    rw [e0] at b0
    exact b0
  · intro h a
    match a with
    | ⟨0, _⟩ =>
      show win1_4.index t (0 : Fin 2) * 512 ≤ (i 0).val ∧ (i 0).val < win1_4.index t (0 : Fin 2) * 512 + 512
      rw [e0]; exact h
    | ⟨1, _⟩ =>
      show win1_4.index t (1 : Fin 2) * 1024 ≤ (i 1).val ∧ (i 1).val < win1_4.index t (1 : Fin 2) * 1024 + 1024
      have hi1 : (i 1).val < 1024 := idx2_lt1 i
      rw [e1]
      clear e0 e1 h
      omega

/-- Every entry of the output array is in the block of a point that writes back: the last key tile of its row's
    query tile. -/
theorem coverOut (i : S8192x1024.Idx) :
    ∃ t : Fin cfg1.N, (cfg1.win 4).flush t = true ∧ i ∈ ((cfg1.win 4).blk t).view.set := by
  have hi0 : (i 0).val < 8192 := idx2_lt0 i
  have hN : cfg1.N = 128 := N_1
  obtain ⟨t, ht⟩ : ∃ t : Fin cfg1.N, t.val = 8 * ((i 0).val / 512) + 7 :=
    ⟨⟨8 * ((i 0).val / 512) + 7, by rw [hN]; omega⟩, rfl⟩
  refine ⟨t, (flush1_4 t).mpr (by omega), ?_⟩
  rw [outblk_mem]
  omega

/-- THE ARRAY FROM THE BLOCKS: if what every writing point (t % 8 = 7) writes back is its block of one whole-array
    function G, the output array ends holding G. -/
theorem out_array (c : Dev nD) (G : S8192x1024.Idx → EReal)
    (hfl : ∀ t : Fin cfg1.N, t.val % 8 = 7 →
      (dat1 (F := Ideal) V c).flushed 4 t = ((cfg1.win 4).blk t).view.read (Elt Ideal) G) :
    (dat1 (F := Ideal) V c).arrAt 4 cfg1.N = G :=
  (dat1 (F := Ideal) V c).arrAt_eq_of_cover 4 G (fun t hf => hfl t ((flush1_4 t).mp hf)) coverOut

/-- What point t writes back is its block of G as soon as the output block the body leaves there agrees with G entry
    by entry, the block's entry y against the array's entry at row 512·(t / 8) + y₀, column y₁. -/
theorem out_flushed_of_entries (c : Dev nD) (G : S8192x1024.Idx → EReal) (t : Fin cfg1.N)
    (hpt : ∀ (y : S512x1024.Idx) (i : S8192x1024.Idx), (i 0).val = t.val / 8 * 512 + (y 0).val → (i 1).val = (y 1).val →
      ((outsAt1 (F := Ideal) V c t.val t.isLt).1 : Vec Ideal S512x1024 .f32) y = G i) :
    (dat1 (F := Ideal) V c).flushed 4 t = ((cfg1.win 4).blk t).view.read (Elt Ideal) G := by
  show (cfg1.win 4).cut (grid1.coords t) ((dat1 (F := Ideal) V c).after 4 t) = _
  rw [after1_4]
  funext j
  show (outsAt1 (F := Ideal) V c t.val t.isLt).1 j = G (((cfg1.win 4).blk t).view.emb j)
  exact hpt j _ (outblk_emb_val t j).1 (outblk_emb_val t j).2

/-- The two steps together: entrywise agreement at the writing points gives the whole array. -/
theorem out_array_of_entries (c : Dev nD) (G : S8192x1024.Idx → EReal)
    (hpt : ∀ t : Fin cfg1.N, t.val % 8 = 7 → ∀ (y : S512x1024.Idx) (i : S8192x1024.Idx),
      (i 0).val = t.val / 8 * 512 + (y 0).val → (i 1).val = (y 1).val →
      ((outsAt1 (F := Ideal) V c t.val t.isLt).1 : Vec Ideal S512x1024 .f32) y = G i) :
    (dat1 (F := Ideal) V c).arrAt 4 cfg1.N = G :=
  out_array V c G fun t h7 => out_flushed_of_entries V c G t (hpt t h7)

end Cert.KernelIdeal.Region1V

end
-- ==== Proof.KI.R1ValueOut.lean ====
/-
  The result array of the second call, entry by entry.

  At the last key tile of a query tile the body stores, into the output block, the updated weighted sum divided by
  the updated row sum and clipped below at zero.  By the invariant those two are the weighted sum and the row sum of
  the specification's recursion after all eight key tiles, for the block's query rows; the block is written back to
  those rows of the array, and the sixteen written blocks cover it.  So entry (p, q) of the array is the recursion's
  final weighted sum for row p and column q over its final row sum, clipped at zero.
-/
import proofs.«113575_j54150947668287_2_alg».proof.Proof.KI.R1ValueInv
import proofs.«113575_j54150947668287_2_alg».proof.Proof.KI.R1ValueArr

set_option maxRecDepth 16384

noncomputable section

namespace Cert.KernelIdeal.Region1V

open Cert.KernelIdeal Cert.KernelIdeal.Gen Cert.KernelIdeal.Region1
open Idealize.ShloMosaic Idealize.ShloMosaic.TcCoe Idealize.ShloMosaic.Tactic
open Idealize.SL.Sem Idealize.ShloMosaic.ValueIdx Cert.KernelIdeal.Region1P
open Idealize.ShloMosaic.Pipeline (Dat Cfg Window)

open Cert.Spec (online key key_val)

variable (V : (c : Dev nD) → (b : Ref sig .tc) → Buf (Elt Ideal) ((c : Thread nD τ).loc b))

/-- The result as one function of the array index: the recursion's final weighted sum over its final row sum,
    clipped at zero, for the index's row and column. -/
def outG (c : Dev nD) : S8192x1024.Idx → EReal := fun i =>
  max (Ideal.div (online (sRow V c (i 0)) (hCol V c (i 1)) 8).2.2 (online (sRow V c (i 0)) (hCol V c (i 1)) 8).2.1) 0

theorem outG_ix2 (c : Dev nD) (p : Fin 8192) (q : Fin 1024) :
    outG V c (ix2 p q)
      = max (Ideal.div (online (sRow V c p) (hCol V c q) 8).2.2 (online (sRow V c p) (hCol V c q) 8).2.1) 0 := rfl

/-- The output block the body leaves at a last key tile, entry by entry. -/
theorem out_block_entry (c : Dev nD) (t : Fin cfg1.N) (h7 : t.val % 8 = 7) (y : S512x1024.Idx) (i : S8192x1024.Idx)
    (hi0 : (i 0).val = t.val / 8 * 512 + (y 0).val) (hi1 : (i 1).val = (y 1).val) :
    ((outsAt1 (F := Ideal) V c t.val t.isLt).1 : Vec Ideal S512x1024 .f32) y = outG V c i := by
  have h0 : ¬t.val % 8 = 0 := by omega
  obtain ⟨r, q, rfl⟩ : ∃ (r : Fin 512) (q : Fin 1024), y = ix2 r q := ⟨y 0, y 1, eq_ix2 y⟩
  obtain ⟨p, q', rfl⟩ : ∃ (p : Fin 8192) (q' : Fin 1024), i = ix2 p q' := ⟨i 0, i 1, eq_ix2 i⟩
  have hq : q = q' := (Fin.ext hi1).symm
  subst hq
  have hp : qrow t r = p := (Fin.ext hi0).symm
  subst hp
  have e := outsAt1_C V c t h0 h7
  have eL : (outsAt1 V c t.val t.isLt).2.2.1 = _ := (congrArg (fun z => z.2.2.1) e).trans
    (tupC_L (F := Ideal) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h7) (iblk1 V c 0 t) (iblk1 V c 1 t) (iblk1 V c 2 t) (iblk1 V c 3 t) _ _ _)
  have eA : (outsAt1 V c t.val t.isLt).2.2.2 = _ := (congrArg (fun z => z.2.2.2) e).trans
    (tupC_A (F := Ideal) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h7) (iblk1 V c 0 t) (iblk1 V c 1 t) (iblk1 V c 2 t) (iblk1 V c 3 t) _ _ _)
  have eO : (outsAt1 V c t.val t.isLt).1
      = k1_pay4 (F := Ideal) (outsAt1 V c t.val t.isLt).2.2.2 (outsAt1 V c t.val t.isLt).2.2.1 := by
    rw [eL, eA]
    exact (congrArg (fun z => z.1) e).trans
      (tupC_O (F := Ideal) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) (fun h => h0 ((hcond1_0 t).mp h)) ((hcond1_1 t).mpr h7) (iblk1 V c 0 t) (iblk1 V c 1 t) (iblk1 V c 2 t) (iblk1 V c 3 t) _ _ _)
  obtain ⟨-, iL, iA⟩ := inv_at V c t r q
  rw [show t.val % 8 + 1 = 8 from by omega] at iL iA
  rw [eO, out_at, iA, iL]
  rfl

/-- The result array of the second call is that function. -/
theorem out_array_eq (c : Dev nD) : (dat1 (F := Ideal) V c).arrAt 4 cfg1.N = outG V c :=
  out_array_of_entries V c (outG V c) fun t h7 y i hi0 hi1 => out_block_entry V c t h7 y i hi0 hi1

/-- Entry (p, q) of the result array: the recursion's final weighted sum over its final row sum, clipped at zero. -/
theorem out_entry (c : Dev nD) (p : Fin 8192) (q : Fin 1024) :
    ((dat1 (F := Ideal) V c).arrAt 4 cfg1.N : S8192x1024.Idx → EReal) (ix2 p q)
      = max (Ideal.div (Cert.Spec.online (sRow V c p) (hCol V c q) 8).2.2 (Cert.Spec.online (sRow V c p) (hCol V c q) 8).2.1) 0 := by
  rw [out_array_eq]
  rfl

end Cert.KernelIdeal.Region1V

end
-- ==== Proof.lean ====
/-
  The certificate of a dense graph-attention layer: out = relu(softmax_rows(mask(leaky_relu(f1_i + f2_j))) · h) with
  h = x·W, f1 = h·a1, f2 = h·a2, over 8192 nodes and 1024 features. The kernel program computes h, f1, f2 in a first
  pallas_call (one 1024-row block per grid point) and the attention aggregate in a second one by an online softmax
  over 8 key tiles per 512-row query tile, carrying a running maximum, a running sum and a running weighted sum in
  scratch buffers; the reference computes the softmax row by row with the quotient taken entry by entry.
  The three frames: both kernel programs by one run of @main's four segments (two host stretches, two regions)
  whose post names every unscoped buffer's final contents; the reference by its run as a list of host operations.
  The kernel's idealization rewrote nothing. At the ideal instance the two results agree index by index: the online
  recursion after the eighth key tile is the row softmax's weighted sum, because exp(a)·exp(b) = exp(a+b) and
  (Σ p·h)/L = Σ (p/L)·h on reals, and finite inputs make every score and feature a real.
-/
import proofs.«113575_j54150947668287_2_alg».proof.Defs
import proofs.«113575_j54150947668287_2_alg».proof.Proof.Gen.Kernel
import proofs.«113575_j54150947668287_2_alg».proof.Proof.Gen.KernelIdeal
import proofs.«113575_j54150947668287_2_alg».proof.Proof.Gen.ReferenceIdeal
import proofs.«113575_j54150947668287_2_alg».proof.Proof.Gen.Pre_finite_inputs
import proofs.«113575_j54150947668287_2_alg».proof.Proof.K.Run
import proofs.«113575_j54150947668287_2_alg».proof.Proof.KI.Run
import proofs.«113575_j54150947668287_2_alg».proof.Proof.RefRun
import proofs.«113575_j54150947668287_2_alg».proof.Proof.Final
import proofs.«113575_j54150947668287_2_alg».proof.Proof.KI.R1ValueOut
import Idealize.ShloMosaic.Adequacy
import Idealize.ShloMosaic.Init

noncomputable section

namespace Cert.Proof

open Idealize.ShloMosaic Idealize.SL.Sem

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := Cert.ReferenceIdeal.RefRun.frame_ri

/-- The kernel's result array, entry by entry: the online recursion after the eighth key tile. -/
theorem kernel_entries (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (p : Fin 8192) (q : Fin 1024) :
    ((Cert.KernelIdeal.Region1.dat1 (F := Ideal) (Cert.KernelIdeal.Run.V3 m ρ) c).arrAt 4 Cert.KernelIdeal.cfg1.N : Cert.KernelIdeal.S8192x1024.Idx → EReal) (ValueIdx.ix2 p q)
      = max (Ideal.div (Cert.Spec.online (Cert.Proof.Final.sRow (Cert.KernelIdeal.Run.V3 m ρ) c p) (Cert.Proof.Final.hCol (Cert.KernelIdeal.Run.V3 m ρ) c q) 8).2.2
          (Cert.Spec.online (Cert.Proof.Final.sRow (Cert.KernelIdeal.Run.V3 m ρ) c p) (Cert.Proof.Final.hCol (Cert.KernelIdeal.Run.V3 m ρ) c q) 8).2.1) 0 :=
  Cert.KernelIdeal.Region1V.out_entry (Cert.KernelIdeal.Run.V3 m ρ) c p q

/-- Both idealized programs run; the kernel's result array is the reference's term of the same arguments. -/
theorem algebraic : Cert.algebraic_KernelIdeal_ReferenceIdeal := by
  intro m ρ m' ρ' hpre hagree
  refine ⟨fun c => (Cert.KernelIdeal.Region1.dat1 (F := Ideal) (Cert.KernelIdeal.Run.V3 m ρ) c).arrAt 4 Cert.KernelIdeal.cfg1.N,
    Cert.KernelIdeal.Run.run_all (F := Ideal) m ρ, ?_⟩
  refine (θ_run (Cert.ReferenceIdeal.defs (F := Ideal)) _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2]
  exact (Cert.Proof.Final.kernel_value m ρ c (hpre c) (kernel_entries m ρ c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
